-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x128 .f32) (main_arg1 : FVec F S8192x8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x128 : Shape := ⟨2, ![8192, 128]⟩
abbrev S8192x8192 : Shape := ⟨2, ![8192, 8192]⟩
abbrev S1x8192 : Shape := ⟨2, ![1, 8192]⟩
abbrev S1024x128 : Shape := ⟨2, ![1024, 128]⟩
abbrev S2048x128 : Shape := ⟨2, ![2048, 128]⟩
abbrev S1x1024 : Shape := ⟨2, ![1, 1024]⟩
abbrev S128x2048 : Shape := ⟨2, ![128, 2048]⟩
abbrev S1024x2048 : Shape := ⟨2, ![1024, 2048]⟩
abbrev S1024 : Shape := ⟨1, ![1024]⟩
abbrev S1024x1024 : Shape := ⟨2, ![1024, 1024]⟩
abbrev S128x1024 : Shape := ⟨2, ![128, 1024]⟩

abbrev nBuf : Space → Nat
  | .hbm => 5
  | .vmem => 20
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S1x8192, .f32⟩
  | .hbm, ⟨3, _⟩ => ⟨S8192x8192, .f32⟩
  | .hbm, ⟨4, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S2048x128, .f32⟩
  | .local _ .vmem, ⟨3, _⟩ => ⟨S2048x128, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_15 : BitVec 32 := 0#32
  let v26 : BitVec 1 := Scalar.cmpi .ne v25 c0_i32_15
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  transposes_S2048x128_p1_0_S128x2048 : S2048x128.Transposes [1, 0] S128x2048
  reduces_S1024x2048_S1024 : S1024x2048.Reduces [1] S1024
  shapeCasts_S1024_S1x1024 : S1024.ShapeCasts S1x1024
  shapeCasts_S1024x128_S1024x128 : S1024x128.ShapeCasts S1024x128
  transposes_S1024x128_p1_0_S128x1024 : S1024x128.Transposes [1, 0] S128x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x128_S128x2048_S1024x2048_1_0_0_1_n_n_wf : DotDims.WF S1024x128 S128x2048 S1024x2048 [1] [0] [0] [1] [] []
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x8192.size a
  hwx1_4 : ∀ i : grid1.Coords, EltTy.bits .f32 = 32 ∨ (Rect.block (s := S8192x8192) S1024x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S8192x128.size a
  hwx1_5 : ∀ i : grid1.Coords, EltTy.bits .f32 = 32 ∨ (Rect.block (s := S8192x128) S1024x128.size (cc1_transform_5 i) (hinb1_5 i)).WholeWords (EltTy.packing .f32)

variable [Facts₀]

def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_0) S1024x1024.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_1) S1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x8192 : Shape := ⟨2, ![128, 8192]⟩
abbrev S_ : Shape := ⟨0, ![]⟩
abbrev S8192 : Shape := ⟨1, ![8192]⟩
abbrev S1x8192 : Shape := ⟨2, ![1, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S_, .f32⟩
  | .hbm, ⟨19, _⟩ => ⟨S8192x128, .f32⟩
  | .hbm, ⟨20, _⟩ => ⟨S8192x128, .f32⟩
  | .hbm, ⟨21, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x128 : S_.BroadcastsInDim S8192x128 (![] : Fin 0 → Fin S8192x128.rank)
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.K.RowsumSetup.lean ====
/-
  The row-sum kernel (the first pallas_call: grid 8 x 4, a row block of 1024 rows against a column block of
  2048 rows, the block's row sums of exp of the scores added into a scratch accumulator of shape [1, 1024]):
  what its three control cases are stated over. The accumulator is zeroed where the column-block coordinate is 0
  (the points t with t % 4 = 0) and stored into the output window where it is 3 (t % 4 = 3); elsewhere the output
  window is idle. Everything is stated at a parameter V, the contents of the core's buffers when the region is
  entered.
-/
import proofs.«164734_j22230750724256_2_alg».proof.Proof.Gen.Kernel.Launch
import proofs.«164734_j22230750724256_2_alg».proof.Proof.Gen.Kernel.Skeleton
import proofs.«164734_j22230750724256_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched,
    the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The two conditions of the body, over the grid -/

/-- "the column-block coordinate is 0", as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "the column-block coordinate is 3 (the last)". -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the last column block is not reached the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging memrefs at a point, the scratch, and the class invariant -/

abbrev VO0_2 : View sig .tc .vmem S1x1024 .f32 := (Memref.whole cc0_stg2_0 : Memref sig .tc .vmem S1x1024 .f32).view
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S1x1024 .f32 := Memref.whole cc0_scratch0
abbrev VS0 : View sig .tc .vmem S1x1024 .f32 := scM0.view

/-- The core's scoped buffers that are no staging buffer of this call: the accumulator, and the rest unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The other scoped buffers, which ride through every point unread. -/
abbrev but0 (c : Dev nD) : sProp 𝕄 :=
  Pipeline.scopedRestBut (Ix := Unit) (Name := ℕ) (U := UR sig nD τ) (Lvl := ℕ) (Val := Elt F) spec0 c [cc0_scratch0]

/-- The class invariant: the accumulator at some contents beside the other scoped buffers, and the generator register. -/
theorem PhiA0_eq (c : Dev nD) :
    (Pipeline.ΦA spec0 c : sProp 𝕄) = iprop(((∃ d, owns (c : Thread nD τ) scM0 fullShare d) ∗ but0 (F := F) c) ∗ (∃ r, prngReg c r)) := by
  unfold Pipeline.ΦA; rw [scopedRest0_split]; simp only [scM0, owns_whole]; rfl

end Cert.Kernel.Hand

end
-- ==== Proof.K.RowsumRuns.lean ====
/-
  The row-sum kernel's body run symbolically in each of its three control cases, on whole staging memrefs: the
  two input blocks at their contents, the output window's buffer handed back untouched where the case stores
  nothing into it, the accumulator at what the point before left (or at anything where the case zeroes it first).
  Each run ends holding the accumulator with the case's stores written, listed last store first; the list is the
  witness the run finds.
-/
import proofs.«164734_j22230750724256_2_alg».proof.Proof.K.RowsumSetup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The column-block coordinate is 0 and not the last: the accumulator is zeroed, then added the block's row sums. -/
noncomputable def run0_first (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : cond0_0 i) (hc1 : ¬cond0_1 i)
    (x0 : Vec F S1024x128 .f32) (x1 : Vec F S2048x128 .f32) :
    { LS : List (View.Piece (Elt F) S1x1024 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__rowsum_kernel i arg2 harg2 arg3 harg3 arg4 harg4 arg5 harg5) K } := by
  refine ⟨?_, fun xi2 E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- Neither the first nor the last column block: the accumulator, at what the point before left, is added the block's row sums. -/
noncomputable def run0_mid (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : ¬cond0_1 i)
    (x0 : Vec F S1024x128 .f32) (x1 : Vec F S2048x128 .f32) (xs : Vec F S1x1024 .f32) :
    { LS : List (View.Piece (Elt F) S1x1024 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__rowsum_kernel i arg2 harg2 arg3 harg3 arg4 harg4 arg5 harg5) K } := by
  refine ⟨?_, fun xi2 E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- The last column block: the accumulator is added the block's row sums and then copied into the output window's buffer. -/
noncomputable def run0_last (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i)
    (x0 : Vec F S1024x128 .f32) (x1 : Vec F S2048x128 .f32) (xs : Vec F S1x1024 .f32) :
    Σ' (L2 : List (View.Piece (Elt F) S1x1024 .f32)), { LS : List (View.Piece (Elt F) S1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__rowsum_kernel i arg2 harg2 arg3 harg3 arg4 harg4 arg5 harg5) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Hand

end
-- ==== Proof.K.RowsumFrame.lean ====
/-
  The row-sum kernel over its whole grid. What the accumulator and the output window's buffer hold after each
  grid point is defined by recursion on the point: the case the point is in (first / inner / last column block),
  run on the point's input blocks and, for the accumulator, on what the point before left. From that: the proof
  data of the pipeline (the arrays as the region finds them, each input window's buffer at its block, the output
  window's at the recursion's first component, the invariant carrying the accumulator at the recursion's second
  component), and the body obligation at every point. The two input windows read the same array, each at half of it.
-/
import proofs.«164734_j22230750724256_2_alg».proof.Proof.K.RowsumRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- A placeholder for the output window's buffer at the points where it is idle: nothing reads it. -/
def idle0_2 : Vec F S1x1024 .f32 := VO0_2.read (Elt F) VO0_2.junk

def sout0_first (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : cond0_0 i) (hc1 : ¬cond0_1 i) (x0 : Vec F S1024x128 .f32) (x1 : Vec F S2048x128 .f32) : Vec F S1x1024 .f32 :=
  VS0.read (Elt F) (VS0.writes (Elt F) VS0.junk (run0_first c i arg2 harg2 arg3 harg3 arg4 harg4 arg5 harg5 hc0 hc1 x0 x1).1)
theorem scover0_first (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : cond0_0 i) (hc1 : ¬cond0_1 i) (x0 : Vec F S1024x128 .f32) (x1 : Vec F S2048x128 .f32) (y : S1x1024.Idx) :
    ∃ pc ∈ (run0_first c i arg2 harg2 arg3 harg3 arg4 harg4 arg5 harg5 hc0 hc1 x0 x1).1, y ∈ pc.1.set :=
  View.cover_of_tiledL (run0_first c i arg2 harg2 arg3 harg3 arg4 harg4 arg5 harg5 hc0 hc1 x0 x1).1 S1x1024.size (by sl_kernel_rfl) y

def sout0_mid (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : ¬cond0_1 i) (x0 : Vec F S1024x128 .f32) (x1 : Vec F S2048x128 .f32) (xs : Vec F S1x1024 .f32) : Vec F S1x1024 .f32 :=
  VS0.read (Elt F) (VS0.writes (Elt F) VS0.junk (run0_mid c i arg2 harg2 arg3 harg3 arg4 harg4 arg5 harg5 hc0 hc1 x0 x1 xs).1)
theorem scover0_mid (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : ¬cond0_1 i) (x0 : Vec F S1024x128 .f32) (x1 : Vec F S2048x128 .f32) (xs : Vec F S1x1024 .f32) (y : S1x1024.Idx) :
    ∃ pc ∈ (run0_mid c i arg2 harg2 arg3 harg3 arg4 harg4 arg5 harg5 hc0 hc1 x0 x1 xs).1, y ∈ pc.1.set :=
  View.cover_of_tiledL (run0_mid c i arg2 harg2 arg3 harg3 arg4 harg4 arg5 harg5 hc0 hc1 x0 x1 xs).1 S1x1024.size (by sl_kernel_rfl) y

def sout0_last (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 : Vec F S1024x128 .f32) (x1 : Vec F S2048x128 .f32) (xs : Vec F S1x1024 .f32) : Vec F S1x1024 .f32 :=
  VS0.read (Elt F) (VS0.writes (Elt F) VS0.junk (run0_last c i arg2 harg2 arg3 harg3 arg4 harg4 arg5 harg5 hc0 hc1 x0 x1 xs).2.1)
theorem scover0_last (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 : Vec F S1024x128 .f32) (x1 : Vec F S2048x128 .f32) (xs : Vec F S1x1024 .f32) (y : S1x1024.Idx) :
    ∃ pc ∈ (run0_last c i arg2 harg2 arg3 harg3 arg4 harg4 arg5 harg5 hc0 hc1 x0 x1 xs).2.1, y ∈ pc.1.set :=
  View.cover_of_tiledL (run0_last c i arg2 harg2 arg3 harg3 arg4 harg4 arg5 harg5 hc0 hc1 x0 x1 xs).2.1 S1x1024.size (by sl_kernel_rfl) y

def out0_last (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 : Vec F S1024x128 .f32) (x1 : Vec F S2048x128 .f32) (xs : Vec F S1x1024 .f32) : Vec F S1x1024 .f32 :=
  VO0_2.read (Elt F) (VO0_2.writes (Elt F) VO0_2.junk (run0_last c i arg2 harg2 arg3 harg3 arg4 harg4 arg5 harg5 hc0 hc1 x0 x1 xs).1)
theorem cover0_last (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 : Vec F S1024x128 .f32) (x1 : Vec F S2048x128 .f32) (xs : Vec F S1x1024 .f32) (y : S1x1024.Idx) :
    ∃ pc ∈ (run0_last c i arg2 harg2 arg3 harg3 arg4 harg4 arg5 harg5 hc0 hc1 x0 x1 xs).1, y ∈ pc.1.set :=
  View.cover_of_tiledL (run0_last c i arg2 harg2 arg3 harg3 arg4 harg4 arg5 harg5 hc0 hc1 x0 x1 xs).1 S1x1024.size (by sl_kernel_rfl) y

section
variable (V : (c : Dev nD) → (b : Ref sig .tc) → Buf (Elt F) ((c : Thread nD τ).loc b))

/-! ## The recursion over the grid points -/

/-- After the body at position n: (the output window's buffer, the accumulator). -/
def outsAt0 (c : Dev nD) : (n : ℕ) → n < cfg0.N → Vec F S1x1024 .f32 × Vec F S1x1024 .f32
  | 0, hn => (idle0_2, sout0_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      (idle0_2, sout0_first c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩))
    else if h1 : (n + 1) % 4 = 3 then
      (out0_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
       sout0_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
    else
      (idle0_2, sout0_mid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_first (c : Dev nD) (t : Fin cfg0.N) (h0 : t.val % 4 = 0) (h1 : ¬t.val % 4 = 3) :
    outsAt0 V c t.val t.isLt = (idle0_2, sout0_first c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans rfl

theorem outsAt0_mid (c : Dev nD) (t : Fin cfg0.N) (h0 : ¬t.val % 4 = 0) (h1 : ¬t.val % 4 = 3) :
    outsAt0 V c t.val t.isLt = (idle0_2, sout0_mid c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_last (c : Dev nD) (t : Fin cfg0.N) (h0 : ¬t.val % 4 = 0) (h1 : t.val % 4 = 3) :
    outsAt0 V c t.val t.isLt = (out0_last c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_last c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant and the proof data -/

/-- Before position n: before the first point the accumulator at anything; afterwards at what the point before left. -/
def PhiS0 (c : Dev nD) : (n : ℕ) → n ≤ cfg0.N → sProp 𝕄
  | 0, _ => Pipeline.ΦA spec0 c
  | n + 1, hn => iprop((owns (c : Thread nD τ) scM0 fullShare ((outsAt0 V c n hn).2) ∗ but0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare ((outsAt0 V c n hn).2) ∗ but0 (F := F) c) ∗ (∃ r, prngReg c r)) := rfl
theorem PhiS0_pos (c : Dev nD) (n : ℕ) (h : n ≤ cfg0.N) (hz : n ≠ 0) :
    PhiS0 V c n h = iprop((owns (c : Thread nD τ) scM0 fullShare ((outsAt0 V c (n - 1) (by omega)).2) ∗ but0 (F := F) c) ∗ (∃ r, prngReg c r)) := by
  cases n with
  | zero => exact absurd rfl hz
  | succ n => rfl

/-- The proof data: the two input windows hold the one array of features at a half each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input windows' buffers hold their blocks; the point's case is read off its position;
    the invariant hands the accumulator at what the point before left and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have h1 : ¬t.val % 4 = 3 := by omega
    rw [Dat.leavesExact_idle (dat0 V c) 2 t (idleAt0_2 t (fun h => h1 ((hcond0_1 t).mp h))) (noFlush0_2 t (fun h => h1 ((hcond0_1 t).mp h)))]
    rw [outsAt0_first V c t h0 h1]
    unfold sout0_first; (try dsimp only)
    by_cases hz : t.val = 0
    · rw [PhiS0_castSucc V c t, PhiS0_zero V c _ _ hz, PhiA0_eq]
      iintro ⟨⟨⟨HS, Hb⟩, Hg⟩, Ho, ⟨%d0, H0⟩, ⟨%d1, H1⟩, ⟨%d2, H2⟩⟩
      iapply ((run0_first c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hb Hg]
      · isplitl [HS Hb]
        · isplitl [HS]
          · unfold owns; iexists _; isplitr
            swap; · iexact HS
            ipureintro; exact View.read_writes_of_cover _ _ _ _ _ (scover0_first c _ _ _ _ _ _ _ _ _ _ _ _ _)
          iexact Hb
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hb⟩, Hg⟩, Ho, ⟨%d0, H0⟩, ⟨%d1, H1⟩, ⟨%d2, H2⟩⟩
      iapply ((run0_first c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hb Hg]
      · isplitl [HS Hb]
        · isplitl [HS]
          · unfold owns; iexists _; isplitr
            swap; · iexact HS
            ipureintro; exact View.read_writes_of_cover _ _ _ _ _ (scover0_first c _ _ _ _ _ _ _ _ _ _ _ _ _)
          iexact Hb
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_last V c t h0 h1]
      unfold out0_last sout0_last; (try dsimp only)
      rw [PhiS0_castSucc V c t, PhiS0_pos V c _ _ hz]
      iintro ⟨⟨⟨HS, Hb⟩, Hg⟩, Ho, ⟨%d0, H0⟩, ⟨%d1, H1⟩, ⟨%d2, H2⟩⟩
      iapply ((run0_last c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hb Hg]
      · isplitl [HS Hb]
        · isplitl [HS]
          · unfold owns; iexists _; isplitr
            swap; · iexact HS
            ipureintro; exact View.read_writes_of_cover _ _ _ _ _ (scover0_last c _ _ _ _ _ _ _ _ _ _ _ _ _ _)
          iexact Hb
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_last c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_mid V c t h0 h1]
      unfold sout0_mid; (try dsimp only)
      rw [PhiS0_castSucc V c t, PhiS0_pos V c _ _ hz]
      iintro ⟨⟨⟨HS, Hb⟩, Hg⟩, Ho, ⟨%d0, H0⟩, ⟨%d1, H1⟩, ⟨%d2, H2⟩⟩
      iapply ((run0_mid c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hb Hg]
      · isplitl [HS Hb]
        · isplitl [HS]
          · unfold owns; iexists _; isplitr
            swap; · iexact HS
            ipureintro; exact View.read_writes_of_cover _ _ _ _ _ (scover0_mid c _ _ _ _ _ _ _ _ _ _ _ _ _ _)
          iexact Hb
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- The class invariant is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and the invariant after the last point gives it back (the accumulator's contents forgotten). -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, Hb⟩, Hg⟩
  isplitl [HS Hb]
  · isplitl [HS]
    · iexists _; iexact HS
    iexact Hb
  iexact Hg

end

end Cert.Kernel.Hand

end
-- ==== Proof.K.MainSetup.lean ====
/-
  The main kernel (the second pallas_call: grid 8 x 8 of 1024 x 1024 tiles; at every point the tile of
  exp-scores divided by the column's row sum is stored into the first output window; a scratch accumulator of
  shape [1024, 128] is added the tile, masked by the adjacency tile, times the column block of features): what its
  three control cases are stated over. The accumulator is zeroed where the column-tile coordinate is 0 (the points
  t with t % 8 = 0); where it is 7 (t % 8 = 7) the second output window is stored one half of the row block of
  features plus one half of the accumulator; elsewhere that window is idle. Everything is stated at a parameter V,
  the contents of the core's buffers when the region is entered.
-/
import proofs.«164734_j22230750724256_2_alg».proof.Proof.Gen.Kernel.Launch
import proofs.«164734_j22230750724256_2_alg».proof.Proof.Gen.Kernel.Skeleton
import proofs.«164734_j22230750724256_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The two conditions of the body, over the grid -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The staging memrefs at a point, the scratch, and the class invariant -/

abbrev VO1_4 : View sig .tc .vmem S1024x1024 .f32 := (Memref.whole cc1_stg4_0 : Memref sig .tc .vmem S1024x1024 .f32).view
abbrev VO1_5 : View sig .tc .vmem S1024x128 .f32 := (Memref.whole cc1_stg5_0 : Memref sig .tc .vmem S1024x128 .f32).view
abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1 : Memref sig .tc .vmem S1024x128 .f32 := Memref.whole cc1_scratch0
abbrev VS1 : View sig .tc .vmem S1024x128 .f32 := scM1.view

/-- The core's scoped buffers that are no staging buffer of this call: the accumulator, and the rest unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The other scoped buffers, which ride through every point unread. -/
abbrev but1 (c : Dev nD) : sProp 𝕄 :=
  Pipeline.scopedRestBut (Ix := Unit) (Name := ℕ) (U := UR sig nD τ) (Lvl := ℕ) (Val := Elt F) spec1 c [cc1_scratch0]

/-- The class invariant: the accumulator at some contents beside the other scoped buffers, and the generator register. -/
theorem PhiA1_eq (c : Dev nD) :
    (Pipeline.ΦA spec1 c : sProp 𝕄) = iprop(((∃ d, owns (c : Thread nD τ) scM1 fullShare d) ∗ but1 (F := F) c) ∗ (∃ r, prngReg c r)) := by
  unfold Pipeline.ΦA; rw [scopedRest1_split]; simp only [scM1, owns_whole]; rfl

end Cert.Kernel.Hand

end
-- ==== Proof.K.MainRuns.lean ====
/-
  The main kernel's body run symbolically in each of its three control cases, on whole staging memrefs: the four
  input blocks at their contents, the first output window's buffer at anything, the second output window's buffer
  handed back untouched where the case stores nothing into it, the accumulator at what the point before left (or
  at anything where the case zeroes it first). Each run ends holding every buffer the case stored into with its
  stores written, listed last store first; the lists are the witness the run finds.
-/
import proofs.«164734_j22230750724256_2_alg».proof.Proof.K.MainSetup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The column-tile coordinate is 0 and not the last: the accumulator is zeroed, then added the tile's product. -/
noncomputable def run1_first (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i)
    (x0 : Vec F S1024x128 .f32) (x1 : Vec F S1024x128 .f32) (x2 : Vec F S1024x1024 .f32) (x3 : Vec F S1x1024 .f32) :
    Σ' (L4 : List (View.Piece (Elt F) S1024x1024 .f32)), { LS : List (View.Piece (Elt F) S1024x128 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, ?_, fun xi5 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS

set_option maxHeartbeats 2000000 in
/-- Neither the first nor the last column tile: the accumulator, at what the point before left, is added the tile's product. -/
noncomputable def run1_mid (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i)
    (x0 : Vec F S1024x128 .f32) (x1 : Vec F S1024x128 .f32) (x2 : Vec F S1024x1024 .f32) (x3 : Vec F S1x1024 .f32) (xs : Vec F S1024x128 .f32) :
    Σ' (L4 : List (View.Piece (Elt F) S1024x1024 .f32)), { LS : List (View.Piece (Elt F) S1024x128 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, ?_, fun xi5 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS

set_option maxHeartbeats 2000000 in
/-- The last column tile: the accumulator is added the tile's product, and the second output window's buffer is stored
    one half of the row block of features plus one half of the accumulator. -/
noncomputable def run1_last (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i)
    (x0 : Vec F S1024x128 .f32) (x1 : Vec F S1024x128 .f32) (x2 : Vec F S1024x1024 .f32) (x3 : Vec F S1x1024 .f32) (xs : Vec F S1024x128 .f32) :
    Σ' (L4 : List (View.Piece (Elt F) S1024x1024 .f32)) (L5 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, ?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS

end Cert.Kernel.Hand

end
-- ==== Proof.K.MainFrame.lean ====
/-
  The main kernel over its whole grid. What the two output windows' buffers and the accumulator hold after each
  grid point is defined by recursion on the point: the case the point is in (first / inner / last column tile),
  run on the point's input blocks and, for the accumulator, on what the point before left. From that: the proof
  data of the pipeline (the arrays as the region finds them, each input window's buffer at its block, the output
  windows' at the recursion's first two components, the invariant carrying the accumulator at its third), and the
  body obligation at every point. The first two input windows read the same array, each at half of it.
-/
import proofs.«164734_j22230750724256_2_alg».proof.Proof.K.MainRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- A placeholder for the second output window's buffer at the points where it is idle: nothing reads it. -/
def idle1_5 : Vec F S1024x128 .f32 := VO1_5.read (Elt F) VO1_5.junk

def out1_4_first (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i) (x0 : Vec F S1024x128 .f32) (x1 : Vec F S1024x128 .f32) (x2 : Vec F S1024x1024 .f32) (x3 : Vec F S1x1024 .f32) : Vec F S1024x1024 .f32 :=
  VO1_4.read (Elt F) (VO1_4.writes (Elt F) VO1_4.junk (run1_first c i arg2 harg2 arg3 harg3 arg4 harg4 arg5 harg5 arg6 harg6 arg7 harg7 arg8 harg8 hc0 hc1 x0 x1 x2 x3).1)
theorem cover1_4_first (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i) (x0 : Vec F S1024x128 .f32) (x1 : Vec F S1024x128 .f32) (x2 : Vec F S1024x1024 .f32) (x3 : Vec F S1x1024 .f32) (y : S1024x1024.Idx) :
    ∃ pc ∈ (run1_first c i arg2 harg2 arg3 harg3 arg4 harg4 arg5 harg5 arg6 harg6 arg7 harg7 arg8 harg8 hc0 hc1 x0 x1 x2 x3).1, y ∈ pc.1.set :=
  View.cover_of_tiledL (run1_first c i arg2 harg2 arg3 harg3 arg4 harg4 arg5 harg5 arg6 harg6 arg7 harg7 arg8 harg8 hc0 hc1 x0 x1 x2 x3).1 S1024x1024.size (by sl_kernel_rfl) y
def sout1_first (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i) (x0 : Vec F S1024x128 .f32) (x1 : Vec F S1024x128 .f32) (x2 : Vec F S1024x1024 .f32) (x3 : Vec F S1x1024 .f32) : Vec F S1024x128 .f32 :=
  VS1.read (Elt F) (VS1.writes (Elt F) VS1.junk (run1_first c i arg2 harg2 arg3 harg3 arg4 harg4 arg5 harg5 arg6 harg6 arg7 harg7 arg8 harg8 hc0 hc1 x0 x1 x2 x3).2.1)
theorem scover1_first (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i) (x0 : Vec F S1024x128 .f32) (x1 : Vec F S1024x128 .f32) (x2 : Vec F S1024x1024 .f32) (x3 : Vec F S1x1024 .f32) (y : S1024x128.Idx) :
    ∃ pc ∈ (run1_first c i arg2 harg2 arg3 harg3 arg4 harg4 arg5 harg5 arg6 harg6 arg7 harg7 arg8 harg8 hc0 hc1 x0 x1 x2 x3).2.1, y ∈ pc.1.set :=
  View.cover_of_tiledL (run1_first c i arg2 harg2 arg3 harg3 arg4 harg4 arg5 harg5 arg6 harg6 arg7 harg7 arg8 harg8 hc0 hc1 x0 x1 x2 x3).2.1 S1024x128.size (by sl_kernel_rfl) y

def out1_4_mid (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i) (x0 : Vec F S1024x128 .f32) (x1 : Vec F S1024x128 .f32) (x2 : Vec F S1024x1024 .f32) (x3 : Vec F S1x1024 .f32) (xs : Vec F S1024x128 .f32) : Vec F S1024x1024 .f32 :=
  VO1_4.read (Elt F) (VO1_4.writes (Elt F) VO1_4.junk (run1_mid c i arg2 harg2 arg3 harg3 arg4 harg4 arg5 harg5 arg6 harg6 arg7 harg7 arg8 harg8 hc0 hc1 x0 x1 x2 x3 xs).1)
theorem cover1_4_mid (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i) (x0 : Vec F S1024x128 .f32) (x1 : Vec F S1024x128 .f32) (x2 : Vec F S1024x1024 .f32) (x3 : Vec F S1x1024 .f32) (xs : Vec F S1024x128 .f32) (y : S1024x1024.Idx) :
    ∃ pc ∈ (run1_mid c i arg2 harg2 arg3 harg3 arg4 harg4 arg5 harg5 arg6 harg6 arg7 harg7 arg8 harg8 hc0 hc1 x0 x1 x2 x3 xs).1, y ∈ pc.1.set :=
  View.cover_of_tiledL (run1_mid c i arg2 harg2 arg3 harg3 arg4 harg4 arg5 harg5 arg6 harg6 arg7 harg7 arg8 harg8 hc0 hc1 x0 x1 x2 x3 xs).1 S1024x1024.size (by sl_kernel_rfl) y
def sout1_mid (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i) (x0 : Vec F S1024x128 .f32) (x1 : Vec F S1024x128 .f32) (x2 : Vec F S1024x1024 .f32) (x3 : Vec F S1x1024 .f32) (xs : Vec F S1024x128 .f32) : Vec F S1024x128 .f32 :=
  VS1.read (Elt F) (VS1.writes (Elt F) VS1.junk (run1_mid c i arg2 harg2 arg3 harg3 arg4 harg4 arg5 harg5 arg6 harg6 arg7 harg7 arg8 harg8 hc0 hc1 x0 x1 x2 x3 xs).2.1)
theorem scover1_mid (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i) (x0 : Vec F S1024x128 .f32) (x1 : Vec F S1024x128 .f32) (x2 : Vec F S1024x1024 .f32) (x3 : Vec F S1x1024 .f32) (xs : Vec F S1024x128 .f32) (y : S1024x128.Idx) :
    ∃ pc ∈ (run1_mid c i arg2 harg2 arg3 harg3 arg4 harg4 arg5 harg5 arg6 harg6 arg7 harg7 arg8 harg8 hc0 hc1 x0 x1 x2 x3 xs).2.1, y ∈ pc.1.set :=
  View.cover_of_tiledL (run1_mid c i arg2 harg2 arg3 harg3 arg4 harg4 arg5 harg5 arg6 harg6 arg7 harg7 arg8 harg8 hc0 hc1 x0 x1 x2 x3 xs).2.1 S1024x128.size (by sl_kernel_rfl) y

def out1_4_last (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i) (x0 : Vec F S1024x128 .f32) (x1 : Vec F S1024x128 .f32) (x2 : Vec F S1024x1024 .f32) (x3 : Vec F S1x1024 .f32) (xs : Vec F S1024x128 .f32) : Vec F S1024x1024 .f32 :=
  VO1_4.read (Elt F) (VO1_4.writes (Elt F) VO1_4.junk (run1_last c i arg2 harg2 arg3 harg3 arg4 harg4 arg5 harg5 arg6 harg6 arg7 harg7 arg8 harg8 hc0 hc1 x0 x1 x2 x3 xs).1)
theorem cover1_4_last (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i) (x0 : Vec F S1024x128 .f32) (x1 : Vec F S1024x128 .f32) (x2 : Vec F S1024x1024 .f32) (x3 : Vec F S1x1024 .f32) (xs : Vec F S1024x128 .f32) (y : S1024x1024.Idx) :
    ∃ pc ∈ (run1_last c i arg2 harg2 arg3 harg3 arg4 harg4 arg5 harg5 arg6 harg6 arg7 harg7 arg8 harg8 hc0 hc1 x0 x1 x2 x3 xs).1, y ∈ pc.1.set :=
  View.cover_of_tiledL (run1_last c i arg2 harg2 arg3 harg3 arg4 harg4 arg5 harg5 arg6 harg6 arg7 harg7 arg8 harg8 hc0 hc1 x0 x1 x2 x3 xs).1 S1024x1024.size (by sl_kernel_rfl) y
def sout1_last (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i) (x0 : Vec F S1024x128 .f32) (x1 : Vec F S1024x128 .f32) (x2 : Vec F S1024x1024 .f32) (x3 : Vec F S1x1024 .f32) (xs : Vec F S1024x128 .f32) : Vec F S1024x128 .f32 :=
  VS1.read (Elt F) (VS1.writes (Elt F) VS1.junk (run1_last c i arg2 harg2 arg3 harg3 arg4 harg4 arg5 harg5 arg6 harg6 arg7 harg7 arg8 harg8 hc0 hc1 x0 x1 x2 x3 xs).2.2.1)
theorem scover1_last (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i) (x0 : Vec F S1024x128 .f32) (x1 : Vec F S1024x128 .f32) (x2 : Vec F S1024x1024 .f32) (x3 : Vec F S1x1024 .f32) (xs : Vec F S1024x128 .f32) (y : S1024x128.Idx) :
    ∃ pc ∈ (run1_last c i arg2 harg2 arg3 harg3 arg4 harg4 arg5 harg5 arg6 harg6 arg7 harg7 arg8 harg8 hc0 hc1 x0 x1 x2 x3 xs).2.2.1, y ∈ pc.1.set :=
  View.cover_of_tiledL (run1_last c i arg2 harg2 arg3 harg3 arg4 harg4 arg5 harg5 arg6 harg6 arg7 harg7 arg8 harg8 hc0 hc1 x0 x1 x2 x3 xs).2.2.1 S1024x128.size (by sl_kernel_rfl) y

def out1_5_last (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i) (x0 : Vec F S1024x128 .f32) (x1 : Vec F S1024x128 .f32) (x2 : Vec F S1024x1024 .f32) (x3 : Vec F S1x1024 .f32) (xs : Vec F S1024x128 .f32) : Vec F S1024x128 .f32 :=
  VO1_5.read (Elt F) (VO1_5.writes (Elt F) VO1_5.junk (run1_last c i arg2 harg2 arg3 harg3 arg4 harg4 arg5 harg5 arg6 harg6 arg7 harg7 arg8 harg8 hc0 hc1 x0 x1 x2 x3 xs).2.1)
theorem cover1_5_last (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i) (x0 : Vec F S1024x128 .f32) (x1 : Vec F S1024x128 .f32) (x2 : Vec F S1024x1024 .f32) (x3 : Vec F S1x1024 .f32) (xs : Vec F S1024x128 .f32) (y : S1024x128.Idx) :
    ∃ pc ∈ (run1_last c i arg2 harg2 arg3 harg3 arg4 harg4 arg5 harg5 arg6 harg6 arg7 harg7 arg8 harg8 hc0 hc1 x0 x1 x2 x3 xs).2.1, y ∈ pc.1.set :=
  View.cover_of_tiledL (run1_last c i arg2 harg2 arg3 harg3 arg4 harg4 arg5 harg5 arg6 harg6 arg7 harg7 arg8 harg8 hc0 hc1 x0 x1 x2 x3 xs).2.1 S1024x128.size (by sl_kernel_rfl) y

section
variable (V : (c : Dev nD) → (b : Ref sig .tc) → Buf (Elt F) ((c : Thread nD τ).loc b))

/-! ## The recursion over the grid points -/

/-- After the body at position n: (the first output window's buffer, the second's, the accumulator). -/
def outsAt1 (c : Dev nD) : (n : ℕ) → n < cfg1.N → Vec F S1024x1024 .f32 × Vec F S1024x128 .f32 × Vec F S1024x128 .f32
  | 0, hn => (out1_4_first c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩),
      idle1_5, sout1_first c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      (out1_4_first c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩),
        idle1_5, sout1_first c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else if h1 : (n + 1) % 8 = 7 then
      (out1_4_last c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2,
       out1_5_last c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2,
       sout1_last c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)
    else
      (out1_4_mid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2,
       idle1_5, sout1_mid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)

theorem outsAt1_first (c : Dev nD) (t : Fin cfg1.N) (h0 : t.val % 8 = 0) (h1 : ¬t.val % 8 = 7) :
    outsAt1 V c t.val t.isLt = (out1_4_first c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t),
      idle1_5, sout1_first c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans rfl

theorem outsAt1_mid (c : Dev nD) (t : Fin cfg1.N) (h0 : ¬t.val % 8 = 0) (h1 : ¬t.val % 8 = 7) :
    outsAt1 V c t.val t.isLt = (out1_4_mid c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2,
      idle1_5, sout1_mid c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_last (c : Dev nD) (t : Fin cfg1.N) (h0 : ¬t.val % 8 = 0) (h1 : t.val % 8 = 7) :
    outsAt1 V c t.val t.isLt = (out1_4_last c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2,
      out1_5_last c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2,
      sout1_last c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant and the proof data -/

def PhiS1 (c : Dev nD) : (n : ℕ) → n ≤ cfg1.N → sProp 𝕄
  | 0, _ => Pipeline.ΦA spec1 c
  | n + 1, hn => iprop((owns (c : Thread nD τ) scM1 fullShare ((outsAt1 V c n hn).2.2) ∗ but1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2.2) ∗ but1 (F := F) c) ∗ (∃ r, prngReg c r)) := rfl
theorem PhiS1_pos (c : Dev nD) (n : ℕ) (h : n ≤ cfg1.N) (hz : n ≠ 0) :
    PhiS1 V c n h = iprop((owns (c : Thread nD τ) scM1 fullShare ((outsAt1 V c (n - 1) (by omega)).2.2) ∗ but1 (F := F) c) ∗ (∃ r, prngReg c r)) := by
  cases n with
  | zero => exact absurd rfl hz
  | succ n => rfl

/-- The proof data: the first two input windows hold the one array of features at a half each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 6400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 8 = 0
  · have h1 : ¬t.val % 8 = 7 := by omega
    rw [Dat.leavesExact_idle (dat1 V c) 5 t (idleAt1_5 t (fun h => h1 ((hcond1_1 t).mp h))) (noFlush1_5 t (fun h => h1 ((hcond1_1 t).mp h)))]
    rw [outsAt1_first V c t h0 h1]
    unfold out1_4_first sout1_first; (try dsimp only)
    by_cases hz : t.val = 0
    · rw [PhiS1_castSucc V c t, PhiS1_zero V c _ _ hz, PhiA1_eq]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((run1_first c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, ⟨%e4, H4⟩, H5, ⟨%es, HS⟩⟩
      isplitl [HS Hb Hg]
      · isplitl [HS Hb]
        · isplitl [HS]
          · unfold owns; iexists _; isplitr
            swap; · iexact HS
            ipureintro; exact View.read_writes_of_cover _ _ _ _ _ (scover1_first c _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_4_first c _ _ _ _ _ _ _ _ _ _ _ _ _ _ _ _ _ _ _ _ _)
      iexists _; iexact H5
    · rw [PhiS1_castSucc V c t, PhiS1_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((run1_first c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexists _; iexact HS
      iintro ⟨H0, H1, H2, H3, ⟨%e4, H4⟩, H5, ⟨%es, HS⟩⟩
      isplitl [HS Hb Hg]
      · isplitl [HS Hb]
        · isplitl [HS]
          · unfold owns; iexists _; isplitr
            swap; · iexact HS
            ipureintro; exact View.read_writes_of_cover _ _ _ _ _ (scover1_first c _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_4_first c _ _ _ _ _ _ _ _ _ _ _ _ _ _ _ _ _ _ _ _ _)
      iexists _; iexact H5
  · have hz : t.val ≠ 0 := fun e => h0 (by rw [e])
    by_cases h1 : t.val % 8 = 7
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_last V c t h0 h1]
      unfold out1_4_last out1_5_last sout1_last; (try dsimp only)
      rw [PhiS1_castSucc V c t, PhiS1_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((run1_last c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, ⟨%es, HS⟩⟩
      isplitl [HS Hb Hg]
      · isplitl [HS Hb]
        · isplitl [HS]
          · unfold owns; iexists _; isplitr
            swap; · iexact HS
            ipureintro; exact View.read_writes_of_cover _ _ _ _ _ (scover1_last c _ _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_4_last c _ _ _ _ _ _ _ _ _ _ _ _ _ _ _ _ _ _ _ _ _ _)
      unfold owns; iexists _; isplitr
      swap; · iexact H5
      ipureintro; exact View.read_writes_of_cover _ _ _ _ _ (cover1_5_last c _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_mid V c t h0 h1]
      unfold out1_4_mid sout1_mid; (try dsimp only)
      rw [PhiS1_castSucc V c t, PhiS1_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((run1_mid c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, ⟨%e4, H4⟩, H5, ⟨%es, HS⟩⟩
      isplitl [HS Hb Hg]
      · isplitl [HS Hb]
        · isplitl [HS]
          · unfold owns; iexists _; isplitr
            swap; · iexact HS
            ipureintro; exact View.read_writes_of_cover _ _ _ _ _ (scover1_mid c _ _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_4_mid c _ _ _ _ _ _ _ _ _ _ _ _ _ _ _ _ _ _ _ _ _ _)
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hb⟩, Hg⟩
  isplitl [HS Hb]
  · isplitl [HS]
    · iexists _; iexact HS
    iexact Hb
  iexact Hg

end

end Cert.Kernel.Hand

end
-- ==== Proof.K.Boundaries.lean ====
/-
  The two kernels in sequence. The contents of the core's unscoped buffers at the three boundaries of the program
  (at the launch; after the row-sum kernel, whose output array holds what its write-backs leave; after the main
  kernel, whose two output arrays hold what theirs leave), each pipeline's proof data at its region's entry contents,
  and each region as a segment of the program: entered from "every unscoped buffer at the boundary's contents, the
  generator register at some state, nothing owed" and left at the same at the next boundary. The array of features
  is read by two input windows of each kernel: at a region's entry its buffer is split in two halves, one per
  window, and at the exit the halves are joined again. The run: every weakly fair execution terminates and every
  final memory holds each unscoped buffer at the last boundary's contents.
-/
import proofs.«164734_j22230750724256_2_alg».proof.Proof.K.RowsumFrame
import proofs.«164734_j22230750724256_2_alg».proof.Proof.K.MainFrame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays of each pipeline, one by one; a core's unscoped buffers, one by one -/

section
variable (V : (c : Dev nD) → (b : Ref sig .tc) → Buf (Elt F) ((c : Thread nD τ).loc b))

theorem arrays0_eq (c : Dev nD) (Fa : (w : Fin cfg0.W) → Buf (Elt F) ((cfg0.win w).arr.view.loc (c.tc : Thread nD τ))) :
    ((dat0 V c).arrays Fa : sProp 𝕄) = iprop(((((c : Thread nD τ).loc main_arg0)) ↦{fullShare.left} Fa 0) ∗ ((((c : Thread nD τ).loc main_arg0)) ↦{fullShare.right} Fa 1) ∗ ((((c : Thread nD τ).loc main_v0)) ↦{fullShare} Fa 2)) := by
  unfold Dat.arrays; rw [bigSep_W0]
  rw [(arr_whole0 0).set_eq_univ, (arr_whole0 2).set_eq_univ]
  rfl

theorem arrays1_eq (c : Dev nD) (Fa : (w : Fin cfg1.W) → Buf (Elt F) ((cfg1.win w).arr.view.loc (c.tc : Thread nD τ))) :
    ((dat1 V c).arrays Fa : sProp 𝕄) = iprop(((((c : Thread nD τ).loc main_arg0)) ↦{fullShare.left} Fa 0) ∗ ((((c : Thread nD τ).loc main_arg0)) ↦{fullShare.right} Fa 1) ∗ ((((c : Thread nD τ).loc main_arg1)) ↦{fullShare} Fa 2)
      ∗ ((((c : Thread nD τ).loc main_v0)) ↦{fullShare} Fa 3) ∗ ((((c : Thread nD τ).loc main_v1_0)) ↦{fullShare} Fa 4) ∗ ((((c : Thread nD τ).loc main_v1_1)) ↦{fullShare} Fa 5)) := by
  unfold Dat.arrays; rw [bigSep_W1]
  rw [(arr_whole1 0).set_eq_univ, (arr_whole1 2).set_eq_univ, (arr_whole1 3).set_eq_univ, (arr_whole1 4).set_eq_univ, (arr_whole1 5).set_eq_univ]
  rfl
end

theorem ub_list (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(((((c : Thread nD τ).loc main_arg0)) ↦{fullShare} V main_arg0) ∗ ((((c : Thread nD τ).loc main_arg1)) ↦{fullShare} V main_arg1) ∗ ((((c : Thread nD τ).loc main_v0)) ↦{fullShare} V main_v0) ∗ ((((c : Thread nD τ).loc main_v1_0)) ↦{fullShare} V main_v1_0) ∗ ((((c : Thread nD τ).loc main_v1_1)) ↦{fullShare} V main_v1_1)) := by
  unfold unscopedBufs
  exact bigSep_eq_bigSepL_of_eq [main_arg0, main_arg1, main_v0, main_v1_0, main_v1_1] (by decide) (by decide) _

variable (m : (ℓ : Loc nD τ sig) → Buf (Elt F) ℓ) (ρ : Dev nD → PrngReg)

/-! ## The buffers' contents at the three boundaries -/

/-- At the launch. -/
abbrev W0 (c : Dev nD) : Valuation τ sig (Elt F) := fun b => m (c, b)
abbrev Vin0 : (c : Dev nD) → (b : Ref sig .tc) → Buf (Elt F) ((c : Thread nD τ).loc b) := fun c b => W0 m c b
/-- What the row-sum kernel leaves in its output array. -/
def rsArr (c : Dev nD) : Buf (Elt F) ((c : Thread nD τ).loc main_v0) := (dat0 (Vin0 m) c).arrAt 2 cfg0.N
/-- After the row-sum kernel. -/
def W1 (c : Dev nD) : Valuation τ sig (Elt F) := Function.update (W0 m c) main_v0 (rsArr m c)
abbrev Vin1 : (c : Dev nD) → (b : Ref sig .tc) → Buf (Elt F) ((c : Thread nD τ).loc b) := fun c b => W1 m c b
/-- What the main kernel leaves in its two output arrays. -/
def alArr (c : Dev nD) : Buf (Elt F) ((c : Thread nD τ).loc main_v1_0) := (dat1 (Vin1 m) c).arrAt 4 cfg1.N
def hArr (c : Dev nD) : Buf (Elt F) ((c : Thread nD τ).loc main_v1_1) := (dat1 (Vin1 m) c).arrAt 5 cfg1.N
/-- After the main kernel. -/
def W2 (c : Dev nD) : Valuation τ sig (Elt F) := Function.update (Function.update (W1 m c) main_v1_0 (alArr m c)) main_v1_1 (hArr m c)

theorem W1_of (c : Dev nD) (r : Ref sig .tc) (h : r ≠ main_v0) : W1 m c r = W0 m c r := by
  unfold W1; exact Function.update_of_ne (StableHlo.devRef_ne_of_ne h) _ _
theorem W1_v0 (c : Dev nD) : W1 m c main_v0 = rsArr m c := by
  unfold W1; exact Function.update_self _ _ _
theorem W2_of (c : Dev nD) (r : Ref sig .tc) (h0 : r ≠ main_v1_0) (h1 : r ≠ main_v1_1) : W2 m c r = W1 m c r := by
  unfold W2; rw [Function.update_of_ne (StableHlo.devRef_ne_of_ne h1), Function.update_of_ne (StableHlo.devRef_ne_of_ne h0)]
theorem W2_v1_0 (c : Dev nD) : W2 m c main_v1_0 = alArr m c := by
  unfold W2; rw [Function.update_of_ne (StableHlo.devRef_ne_of_ne (by decide))]; exact Function.update_self _ _ _
theorem W2_v1_1 (c : Dev nD) : W2 m c main_v1_1 = hArr m c := by
  unfold W2; exact Function.update_self _ _ _

/-! ## Entering and leaving a region: the unscoped buffers dealt to the windows and gathered again -/

theorem held_list (c : Dev nD) (W : Valuation τ sig (Elt F)) :
    (StableHlo.held (c : Thread nD τ) (Pipeline.ucRefs τ sig) W : sProp 𝕄)
      = iprop(((((c : Thread nD τ).loc main_arg0)) ↦{fullShare} W main_arg0) ∗ ((((c : Thread nD τ).loc main_arg1)) ↦{fullShare} W main_arg1) ∗ ((((c : Thread nD τ).loc main_v0)) ↦{fullShare} W main_v0) ∗ ((((c : Thread nD τ).loc main_v1_0)) ↦{fullShare} W main_v1_0) ∗ ((((c : Thread nD τ).loc main_v1_1)) ↦{fullShare} W main_v1_1)) := by
  rw [← Pipeline.unscopedBufs_held (Ix := Unit) (Name := ℕ) (U := UR sig nD τ) (Lvl := ℕ) c W, ub_list]

theorem entry0 (c : Dev nD) :
    (StableHlo.held (c : Thread nD τ) (Pipeline.ucRefs τ sig) (W0 m c) : sProp 𝕄)
      ⊢ iprop((dat0 (Vin0 m) c).arrays ((dat0 (Vin0 m) c).arrAt · 0) ∗ Pipeline.unscopedRest (Ix := Unit) (Name := ℕ) (U := UR sig nD τ) (Lvl := ℕ) spec0 c (Vin0 m c)) := by
  rw [held_list, arrays0_eq, unscopedRest0_eq]
  iintro ⟨Ha0, Ha1, Hv0, Hv10, Hv11⟩
  ihave Hs := (pointsTo_share (PosShare.mem_left_op_right fullShare)).1 $$ Ha0
  icases Hs with ⟨HaL, HaR⟩
  isplitl [HaL HaR Hv0]
  · isplitl [HaL]; · iexact HaL
    isplitl [HaR]; · iexact HaR
    iexact Hv0
  isplitl [Ha1]; · iexact Ha1
  isplitl [Hv10]; · iexact Hv10
  iexact Hv11

theorem exit0 (c : Dev nD) :
    iprop((dat0 (Vin0 m) c).arrays ((dat0 (Vin0 m) c).arrAt · cfg0.N) ∗ Pipeline.unscopedRest (Ix := Unit) (Name := ℕ) (U := UR sig nD τ) (Lvl := ℕ) spec0 c (Vin0 m c))
      ⊢ (StableHlo.held (c : Thread nD τ) (Pipeline.ucRefs τ sig) (W1 m c) : sProp 𝕄) := by
  rw [held_list, arrays0_eq, unscopedRest0_eq]
  rw [W1_of m c main_arg0 (by decide), W1_of m c main_arg1 (by decide), W1_of m c main_v1_0 (by decide), W1_of m c main_v1_1 (by decide), W1_v0]
  rw [(dat0 (Vin0 m) c).arrAt_in 0 rfl cfg0.N, (dat0 (Vin0 m) c).arrAt_in 1 rfl cfg0.N, A_eq0, A_eq0]
  iintro ⟨⟨HaL, HaR, Hv0⟩, Ha1, Hv10, Hv11⟩
  ihave Ha0 := (pointsTo_share (PosShare.mem_left_op_right fullShare)).2 $$ [HaL HaR]
  · isplitl [HaL]; · iexact HaL
    iexact HaR
  isplitl [Ha0]; · iexact Ha0
  isplitl [Ha1]; · iexact Ha1
  isplitl [Hv0]; · iexact Hv0
  isplitl [Hv10]; · iexact Hv10
  iexact Hv11

theorem entry1 (c : Dev nD) :
    (StableHlo.held (c : Thread nD τ) (Pipeline.ucRefs τ sig) (W1 m c) : sProp 𝕄)
      ⊢ iprop((dat1 (Vin1 m) c).arrays ((dat1 (Vin1 m) c).arrAt · 0) ∗ Pipeline.unscopedRest (Ix := Unit) (Name := ℕ) (U := UR sig nD τ) (Lvl := ℕ) spec1 c (Vin1 m c)) := by
  rw [held_list, arrays1_eq, unscopedRest1_eq]
  iintro ⟨Ha0, Ha1, Hv0, Hv10, Hv11⟩
  ihave Hs := (pointsTo_share (PosShare.mem_left_op_right fullShare)).1 $$ Ha0
  icases Hs with ⟨HaL, HaR⟩
  isplitl [HaL HaR Ha1 Hv0 Hv10 Hv11]
  · isplitl [HaL]; · iexact HaL
    isplitl [HaR]; · iexact HaR
    isplitl [Ha1]; · iexact Ha1
    isplitl [Hv0]; · iexact Hv0
    isplitl [Hv10]; · iexact Hv10
    iexact Hv11
  iempintro

theorem exit1 (c : Dev nD) :
    iprop((dat1 (Vin1 m) c).arrays ((dat1 (Vin1 m) c).arrAt · cfg1.N) ∗ Pipeline.unscopedRest (Ix := Unit) (Name := ℕ) (U := UR sig nD τ) (Lvl := ℕ) spec1 c (Vin1 m c))
      ⊢ (StableHlo.held (c : Thread nD τ) (Pipeline.ucRefs τ sig) (W2 m c) : sProp 𝕄) := by
  rw [held_list, arrays1_eq, unscopedRest1_eq]
  rw [W2_of m c main_arg0 (by decide) (by decide), W2_of m c main_arg1 (by decide) (by decide), W2_of m c main_v0 (by decide) (by decide), W2_v1_0, W2_v1_1]
  rw [(dat1 (Vin1 m) c).arrAt_in 0 rfl cfg1.N, (dat1 (Vin1 m) c).arrAt_in 1 rfl cfg1.N, (dat1 (Vin1 m) c).arrAt_in 2 rfl cfg1.N, (dat1 (Vin1 m) c).arrAt_in 3 rfl cfg1.N, A_eq1, A_eq1, A_eq1, A_eq1]
  iintro ⟨⟨HaL, HaR, Ha1, Hv0, Hv10, Hv11⟩, -⟩
  ihave Ha0 := (pointsTo_share (PosShare.mem_left_op_right fullShare)).2 $$ [HaL HaR]
  · isplitl [HaL]; · iexact HaL
    iexact HaR
  isplitl [Ha0]; · iexact Ha0
  isplitl [Ha1]; · iexact Ha1
  isplitl [Hv0]; · iexact Hv0
  isplitl [Hv10]; · iexact Hv10
  iexact Hv11

end Cert.Kernel.Hand

end
-- ==== Proof.K.Run.lean ====
/-
  The program's run. Each of the two kernel regions as a segment (its layout, its body obligation, and the four
  entailments around "every unscoped buffer at the boundary's contents, the generator register at some state,
  nothing owed"), the program as the two segments in order, and the launch: from any memory with zero counters
  every weakly fair execution terminates, and every final memory holds each unscoped buffer at the contents of
  the last boundary — the arguments as launched, each result array at what its kernel's write-backs leave.
-/
import proofs.«164734_j22230750724256_2_alg».proof.Proof.K.Boundaries

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state and the core's dues, none. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W2 m c) ∗ ∃ r, prngReg c r)

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit : (StableHlo.held (c : Thread nD τ) (Pipeline.ucRefs τ sig) (W0 m c) : sProp 𝕄)
        ⊢ iprop((pdats m 0 c).arrays ((pdats m 0 c).arrAt · 0) ∗ Pipeline.unscopedRest (Ix := Unit) (Name := ℕ) (U := UR sig nD τ) (Lvl := ℕ) spec0 c (Vin0 m c)) := entry0 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m 0 c).Φ 0 := hin0 (Vin0 m) c
    refine (show _ ⊢ (Pipeline.ΦA spec0 c : sProp 𝕄) from ?_).trans h
    unfold Pipeline.ΦA
    iintro ⟨Hp, -, Hr⟩
    isplitl [Hr]; · iexact Hr
    iexact Hp
  hout c := by
    rw [Pipeline.ownSems0_none]
    have h : (pdats m 0 c).Φ (Fin.last _) ⊢ (Pipeline.ΦA spec0 c : sProp 𝕄) := hout0 (Vin0 m) c
    refine h.trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest (Ix := Unit) (Name := ℕ) (U := UR sig nD τ) (Lvl := ℕ) spec0 c (Vin0 m c))
        ⊢ (StableHlo.held (c : Thread nD τ) (Pipeline.ucRefs τ sig) (W1 m c) : sProp 𝕄) := exit0 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit : (StableHlo.held (c : Thread nD τ) (Pipeline.ucRefs τ sig) (W1 m c) : sProp 𝕄)
        ⊢ iprop((pdats m 1 c).arrays ((pdats m 1 c).arrAt · 0) ∗ Pipeline.unscopedRest (Ix := Unit) (Name := ℕ) (U := UR sig nD τ) (Lvl := ℕ) spec1 c (Vin1 m c)) := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m 1 c).Φ 0 := hin1 (Vin1 m) c
    refine (show _ ⊢ (Pipeline.ΦA spec1 c : sProp 𝕄) from ?_).trans h
    unfold Pipeline.ΦA
    iintro ⟨Hp, -, Hr⟩
    isplitl [Hr]; · iexact Hr
    iexact Hp
  hout c := by
    rw [Pipeline.ownSems0_none]
    have h : (pdats m 1 c).Φ (Fin.last _) ⊢ (Pipeline.ΦA spec1 c : sProp 𝕄) := hout1 (Vin1 m) c
    refine h.trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (Vin1 m c))
        ⊢ (StableHlo.held (c : Thread nD τ) (Pipeline.ucRefs τ sig) (W2 m c) : sProp 𝕄) := exit1 m c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two segments in order. -/
abbrev segs : List (Pipeline.Seg (pcfgs (F := F)) adm (pdats m) () defs₀ 𝒱₀ L lv) :=
  [ .region (reg0 m), .region (reg1 m) ]
theorem main_run (c : Dev nD) : main (F := F) c = Pipeline.Seg.run (segs m) :=
  main_segs adm (pdats m) () 𝒱₀ L lv (reg0 m) (reg1 m) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: every weakly fair execution terminates, and every final memory holds each unscoped buffer at the last
    boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The arguments end as launched, -/
theorem W2_main_arg0 (c : Dev nD) : W2 m c main_arg0 = m ((c : Thread nD τ).loc main_arg0) :=
  (W2_of m c main_arg0 (by decide) (by decide)).trans (W1_of m c main_arg0 (by decide))
theorem W2_main_arg1 (c : Dev nD) : W2 m c main_arg1 = m ((c : Thread nD τ).loc main_arg1) :=
  (W2_of m c main_arg1 (by decide) (by decide)).trans (W1_of m c main_arg1 (by decide))

/-- and each result array holds what its kernel's write-backs leave. -/
theorem run_results : θ_run defs (onTc (τ := τ) (main (F := F))) ⟨m, fun _ => 0, ρ⟩ (fun r => ∀ c : Dev nD,
      r.2.mem ((c.tc : Thread nD τ).loc main_v1_1) = hArr m c
      ∧ r.2.mem ((c.tc : Thread nD τ).loc main_v1_0) = alArr m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v1_1 (by decide))).trans (W2_v1_1 m c),
     (h c _ (mem_uc main_v1_0 (by decide))).trans (W2_v1_0 m c),
     (h c _ (mem_uc main_arg0 (by decide))).trans (W2_main_arg0 m c),
     (h c _ (mem_uc main_arg1 (by decide))).trans (W2_main_arg1 m c)⟩) (run_all m ρ)

/-- THE FRAME: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.2.1, (h c).2.2.2⟩) (run_results m ρ)

end Cert.Kernel.Hand

end
-- ==== Proof.KI.RowsumSetup.lean ====
/-
  The row-sum kernel (the first pallas_call: grid 8 x 4, a row block of 1024 rows against a column block of
  2048 rows, the block's row sums of exp of the scores added into a scratch accumulator of shape [1, 1024]):
  what its three control cases are stated over. The accumulator is zeroed where the column-block coordinate is 0
  (the points t with t % 4 = 0) and stored into the output window where it is 3 (t % 4 = 3); elsewhere the output
  window is idle. Everything is stated at a parameter V, the contents of the core's buffers when the region is
  entered.
-/
import proofs.«164734_j22230750724256_2_alg».proof.Proof.Gen.KernelIdeal.Launch
import proofs.«164734_j22230750724256_2_alg».proof.Proof.Gen.KernelIdeal.Skeleton
import proofs.«164734_j22230750724256_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched,
    the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The two conditions of the body, over the grid -/

/-- "the column-block coordinate is 0", as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "the column-block coordinate is 3 (the last)". -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the last column block is not reached the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging memrefs at a point, the scratch, and the class invariant -/

abbrev VO0_2 : View sig .tc .vmem S1x1024 .f32 := (Memref.whole cc0_stg2_0 : Memref sig .tc .vmem S1x1024 .f32).view
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S1x1024 .f32 := Memref.whole cc0_scratch0
abbrev VS0 : View sig .tc .vmem S1x1024 .f32 := scM0.view

/-- The core's scoped buffers that are no staging buffer of this call: the accumulator, and the rest unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The other scoped buffers, which ride through every point unread. -/
abbrev but0 (c : Dev nD) : sProp 𝕄 :=
  Pipeline.scopedRestBut (Ix := Unit) (Name := ℕ) (U := UR sig nD τ) (Lvl := ℕ) (Val := Elt F) spec0 c [cc0_scratch0]

/-- The class invariant: the accumulator at some contents beside the other scoped buffers, and the generator register. -/
theorem PhiA0_eq (c : Dev nD) :
    (Pipeline.ΦA spec0 c : sProp 𝕄) = iprop(((∃ d, owns (c : Thread nD τ) scM0 fullShare d) ∗ but0 (F := F) c) ∗ (∃ r, prngReg c r)) := by
  unfold Pipeline.ΦA; rw [scopedRest0_split]; simp only [scM0, owns_whole]; rfl

end Cert.KernelIdeal.Hand

end
-- ==== Proof.KI.RowsumRuns.lean ====
/-
  The row-sum kernel's body run symbolically in each of its three control cases, on whole staging memrefs: the
  two input blocks at their contents, the output window's buffer handed back untouched where the case stores
  nothing into it, the accumulator at what the point before left (or at anything where the case zeroes it first).
  Each run ends holding the accumulator with the case's stores written, listed last store first; the list is the
  witness the run finds.
-/
import proofs.«164734_j22230750724256_2_alg».proof.Proof.KI.RowsumSetup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The column-block coordinate is 0 and not the last: the accumulator is zeroed, then added the block's row sums. -/
noncomputable def run0_first (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : cond0_0 i) (hc1 : ¬cond0_1 i)
    (x0 : Vec F S1024x128 .f32) (x1 : Vec F S2048x128 .f32) :
    { LS : List (View.Piece (Elt F) S1x1024 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__rowsum_kernel i arg2 harg2 arg3 harg3 arg4 harg4 arg5 harg5) K } := by
  refine ⟨?_, fun xi2 E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- Neither the first nor the last column block: the accumulator, at what the point before left, is added the block's row sums. -/
noncomputable def run0_mid (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : ¬cond0_1 i)
    (x0 : Vec F S1024x128 .f32) (x1 : Vec F S2048x128 .f32) (xs : Vec F S1x1024 .f32) :
    { LS : List (View.Piece (Elt F) S1x1024 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__rowsum_kernel i arg2 harg2 arg3 harg3 arg4 harg4 arg5 harg5) K } := by
  refine ⟨?_, fun xi2 E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- The last column block: the accumulator is added the block's row sums and then copied into the output window's buffer. -/
noncomputable def run0_last (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i)
    (x0 : Vec F S1024x128 .f32) (x1 : Vec F S2048x128 .f32) (xs : Vec F S1x1024 .f32) :
    Σ' (L2 : List (View.Piece (Elt F) S1x1024 .f32)), { LS : List (View.Piece (Elt F) S1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__rowsum_kernel i arg2 harg2 arg3 harg3 arg4 harg4 arg5 harg5) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Hand

end
-- ==== Proof.KI.RowsumFrame.lean ====
/-
  The row-sum kernel over its whole grid. What the accumulator and the output window's buffer hold after each
  grid point is defined by recursion on the point: the case the point is in (first / inner / last column block),
  run on the point's input blocks and, for the accumulator, on what the point before left. From that: the proof
  data of the pipeline (the arrays as the region finds them, each input window's buffer at its block, the output
  window's at the recursion's first component, the invariant carrying the accumulator at the recursion's second
  component), and the body obligation at every point. The two input windows read the same array, each at half of it.
-/
import proofs.«164734_j22230750724256_2_alg».proof.Proof.KI.RowsumRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- A placeholder for the output window's buffer at the points where it is idle: nothing reads it. -/
def idle0_2 : Vec F S1x1024 .f32 := VO0_2.read (Elt F) VO0_2.junk

def sout0_first (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : cond0_0 i) (hc1 : ¬cond0_1 i) (x0 : Vec F S1024x128 .f32) (x1 : Vec F S2048x128 .f32) : Vec F S1x1024 .f32 :=
  VS0.read (Elt F) (VS0.writes (Elt F) VS0.junk (run0_first c i arg2 harg2 arg3 harg3 arg4 harg4 arg5 harg5 hc0 hc1 x0 x1).1)
theorem scover0_first (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : cond0_0 i) (hc1 : ¬cond0_1 i) (x0 : Vec F S1024x128 .f32) (x1 : Vec F S2048x128 .f32) (y : S1x1024.Idx) :
    ∃ pc ∈ (run0_first c i arg2 harg2 arg3 harg3 arg4 harg4 arg5 harg5 hc0 hc1 x0 x1).1, y ∈ pc.1.set :=
  View.cover_of_tiledL (run0_first c i arg2 harg2 arg3 harg3 arg4 harg4 arg5 harg5 hc0 hc1 x0 x1).1 S1x1024.size (by sl_kernel_rfl) y

def sout0_mid (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : ¬cond0_1 i) (x0 : Vec F S1024x128 .f32) (x1 : Vec F S2048x128 .f32) (xs : Vec F S1x1024 .f32) : Vec F S1x1024 .f32 :=
  VS0.read (Elt F) (VS0.writes (Elt F) VS0.junk (run0_mid c i arg2 harg2 arg3 harg3 arg4 harg4 arg5 harg5 hc0 hc1 x0 x1 xs).1)
theorem scover0_mid (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : ¬cond0_1 i) (x0 : Vec F S1024x128 .f32) (x1 : Vec F S2048x128 .f32) (xs : Vec F S1x1024 .f32) (y : S1x1024.Idx) :
    ∃ pc ∈ (run0_mid c i arg2 harg2 arg3 harg3 arg4 harg4 arg5 harg5 hc0 hc1 x0 x1 xs).1, y ∈ pc.1.set :=
  View.cover_of_tiledL (run0_mid c i arg2 harg2 arg3 harg3 arg4 harg4 arg5 harg5 hc0 hc1 x0 x1 xs).1 S1x1024.size (by sl_kernel_rfl) y

def sout0_last (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 : Vec F S1024x128 .f32) (x1 : Vec F S2048x128 .f32) (xs : Vec F S1x1024 .f32) : Vec F S1x1024 .f32 :=
  VS0.read (Elt F) (VS0.writes (Elt F) VS0.junk (run0_last c i arg2 harg2 arg3 harg3 arg4 harg4 arg5 harg5 hc0 hc1 x0 x1 xs).2.1)
theorem scover0_last (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 : Vec F S1024x128 .f32) (x1 : Vec F S2048x128 .f32) (xs : Vec F S1x1024 .f32) (y : S1x1024.Idx) :
    ∃ pc ∈ (run0_last c i arg2 harg2 arg3 harg3 arg4 harg4 arg5 harg5 hc0 hc1 x0 x1 xs).2.1, y ∈ pc.1.set :=
  View.cover_of_tiledL (run0_last c i arg2 harg2 arg3 harg3 arg4 harg4 arg5 harg5 hc0 hc1 x0 x1 xs).2.1 S1x1024.size (by sl_kernel_rfl) y

def out0_last (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 : Vec F S1024x128 .f32) (x1 : Vec F S2048x128 .f32) (xs : Vec F S1x1024 .f32) : Vec F S1x1024 .f32 :=
  VO0_2.read (Elt F) (VO0_2.writes (Elt F) VO0_2.junk (run0_last c i arg2 harg2 arg3 harg3 arg4 harg4 arg5 harg5 hc0 hc1 x0 x1 xs).1)
theorem cover0_last (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 : Vec F S1024x128 .f32) (x1 : Vec F S2048x128 .f32) (xs : Vec F S1x1024 .f32) (y : S1x1024.Idx) :
    ∃ pc ∈ (run0_last c i arg2 harg2 arg3 harg3 arg4 harg4 arg5 harg5 hc0 hc1 x0 x1 xs).1, y ∈ pc.1.set :=
  View.cover_of_tiledL (run0_last c i arg2 harg2 arg3 harg3 arg4 harg4 arg5 harg5 hc0 hc1 x0 x1 xs).1 S1x1024.size (by sl_kernel_rfl) y

section
variable (V : (c : Dev nD) → (b : Ref sig .tc) → Buf (Elt F) ((c : Thread nD τ).loc b))

/-! ## The recursion over the grid points -/

/-- After the body at position n: (the output window's buffer, the accumulator). -/
def outsAt0 (c : Dev nD) : (n : ℕ) → n < cfg0.N → Vec F S1x1024 .f32 × Vec F S1x1024 .f32
  | 0, hn => (idle0_2, sout0_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      (idle0_2, sout0_first c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩))
    else if h1 : (n + 1) % 4 = 3 then
      (out0_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
       sout0_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
    else
      (idle0_2, sout0_mid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_first (c : Dev nD) (t : Fin cfg0.N) (h0 : t.val % 4 = 0) (h1 : ¬t.val % 4 = 3) :
    outsAt0 V c t.val t.isLt = (idle0_2, sout0_first c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans rfl

theorem outsAt0_mid (c : Dev nD) (t : Fin cfg0.N) (h0 : ¬t.val % 4 = 0) (h1 : ¬t.val % 4 = 3) :
    outsAt0 V c t.val t.isLt = (idle0_2, sout0_mid c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_last (c : Dev nD) (t : Fin cfg0.N) (h0 : ¬t.val % 4 = 0) (h1 : t.val % 4 = 3) :
    outsAt0 V c t.val t.isLt = (out0_last c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_last c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant and the proof data -/

/-- Before position n: before the first point the accumulator at anything; afterwards at what the point before left. -/
def PhiS0 (c : Dev nD) : (n : ℕ) → n ≤ cfg0.N → sProp 𝕄
  | 0, _ => Pipeline.ΦA spec0 c
  | n + 1, hn => iprop((owns (c : Thread nD τ) scM0 fullShare ((outsAt0 V c n hn).2) ∗ but0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare ((outsAt0 V c n hn).2) ∗ but0 (F := F) c) ∗ (∃ r, prngReg c r)) := rfl
theorem PhiS0_pos (c : Dev nD) (n : ℕ) (h : n ≤ cfg0.N) (hz : n ≠ 0) :
    PhiS0 V c n h = iprop((owns (c : Thread nD τ) scM0 fullShare ((outsAt0 V c (n - 1) (by omega)).2) ∗ but0 (F := F) c) ∗ (∃ r, prngReg c r)) := by
  cases n with
  | zero => exact absurd rfl hz
  | succ n => rfl

/-- The proof data: the two input windows hold the one array of features at a half each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input windows' buffers hold their blocks; the point's case is read off its position;
    the invariant hands the accumulator at what the point before left and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have h1 : ¬t.val % 4 = 3 := by omega
    rw [Dat.leavesExact_idle (dat0 V c) 2 t (idleAt0_2 t (fun h => h1 ((hcond0_1 t).mp h))) (noFlush0_2 t (fun h => h1 ((hcond0_1 t).mp h)))]
    rw [outsAt0_first V c t h0 h1]
    unfold sout0_first; (try dsimp only)
    by_cases hz : t.val = 0
    · rw [PhiS0_castSucc V c t, PhiS0_zero V c _ _ hz, PhiA0_eq]
      iintro ⟨⟨⟨HS, Hb⟩, Hg⟩, Ho, ⟨%d0, H0⟩, ⟨%d1, H1⟩, ⟨%d2, H2⟩⟩
      iapply ((run0_first c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hb Hg]
      · isplitl [HS Hb]
        · isplitl [HS]
          · unfold owns; iexists _; isplitr
            swap; · iexact HS
            ipureintro; exact View.read_writes_of_cover _ _ _ _ _ (scover0_first c _ _ _ _ _ _ _ _ _ _ _ _ _)
          iexact Hb
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hb⟩, Hg⟩, Ho, ⟨%d0, H0⟩, ⟨%d1, H1⟩, ⟨%d2, H2⟩⟩
      iapply ((run0_first c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hb Hg]
      · isplitl [HS Hb]
        · isplitl [HS]
          · unfold owns; iexists _; isplitr
            swap; · iexact HS
            ipureintro; exact View.read_writes_of_cover _ _ _ _ _ (scover0_first c _ _ _ _ _ _ _ _ _ _ _ _ _)
          iexact Hb
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_last V c t h0 h1]
      unfold out0_last sout0_last; (try dsimp only)
      rw [PhiS0_castSucc V c t, PhiS0_pos V c _ _ hz]
      iintro ⟨⟨⟨HS, Hb⟩, Hg⟩, Ho, ⟨%d0, H0⟩, ⟨%d1, H1⟩, ⟨%d2, H2⟩⟩
      iapply ((run0_last c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hb Hg]
      · isplitl [HS Hb]
        · isplitl [HS]
          · unfold owns; iexists _; isplitr
            swap; · iexact HS
            ipureintro; exact View.read_writes_of_cover _ _ _ _ _ (scover0_last c _ _ _ _ _ _ _ _ _ _ _ _ _ _)
          iexact Hb
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_last c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_mid V c t h0 h1]
      unfold sout0_mid; (try dsimp only)
      rw [PhiS0_castSucc V c t, PhiS0_pos V c _ _ hz]
      iintro ⟨⟨⟨HS, Hb⟩, Hg⟩, Ho, ⟨%d0, H0⟩, ⟨%d1, H1⟩, ⟨%d2, H2⟩⟩
      iapply ((run0_mid c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hb Hg]
      · isplitl [HS Hb]
        · isplitl [HS]
          · unfold owns; iexists _; isplitr
            swap; · iexact HS
            ipureintro; exact View.read_writes_of_cover _ _ _ _ _ (scover0_mid c _ _ _ _ _ _ _ _ _ _ _ _ _ _)
          iexact Hb
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- The class invariant is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and the invariant after the last point gives it back (the accumulator's contents forgotten). -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, Hb⟩, Hg⟩
  isplitl [HS Hb]
  · isplitl [HS]
    · iexists _; iexact HS
    iexact Hb
  iexact Hg

end

end Cert.KernelIdeal.Hand

end
-- ==== Proof.KI.MainSetup.lean ====
/-
  The main kernel (the second pallas_call: grid 8 x 8 of 1024 x 1024 tiles; at every point the tile of
  exp-scores divided by the column's row sum is stored into the first output window; a scratch accumulator of
  shape [1024, 128] is added the tile, masked by the adjacency tile, times the column block of features): what its
  three control cases are stated over. The accumulator is zeroed where the column-tile coordinate is 0 (the points
  t with t % 8 = 0); where it is 7 (t % 8 = 7) the second output window is stored one half of the row block of
  features plus one half of the accumulator; elsewhere that window is idle. Everything is stated at a parameter V,
  the contents of the core's buffers when the region is entered.
-/
import proofs.«164734_j22230750724256_2_alg».proof.Proof.Gen.KernelIdeal.Launch
import proofs.«164734_j22230750724256_2_alg».proof.Proof.Gen.KernelIdeal.Skeleton
import proofs.«164734_j22230750724256_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The two conditions of the body, over the grid -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The staging memrefs at a point, the scratch, and the class invariant -/

abbrev VO1_4 : View sig .tc .vmem S1024x1024 .f32 := (Memref.whole cc1_stg4_0 : Memref sig .tc .vmem S1024x1024 .f32).view
abbrev VO1_5 : View sig .tc .vmem S1024x128 .f32 := (Memref.whole cc1_stg5_0 : Memref sig .tc .vmem S1024x128 .f32).view
abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1 : Memref sig .tc .vmem S1024x128 .f32 := Memref.whole cc1_scratch0
abbrev VS1 : View sig .tc .vmem S1024x128 .f32 := scM1.view

/-- The core's scoped buffers that are no staging buffer of this call: the accumulator, and the rest unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The other scoped buffers, which ride through every point unread. -/
abbrev but1 (c : Dev nD) : sProp 𝕄 :=
  Pipeline.scopedRestBut (Ix := Unit) (Name := ℕ) (U := UR sig nD τ) (Lvl := ℕ) (Val := Elt F) spec1 c [cc1_scratch0]

/-- The class invariant: the accumulator at some contents beside the other scoped buffers, and the generator register. -/
theorem PhiA1_eq (c : Dev nD) :
    (Pipeline.ΦA spec1 c : sProp 𝕄) = iprop(((∃ d, owns (c : Thread nD τ) scM1 fullShare d) ∗ but1 (F := F) c) ∗ (∃ r, prngReg c r)) := by
  unfold Pipeline.ΦA; rw [scopedRest1_split]; simp only [scM1, owns_whole]; rfl

end Cert.KernelIdeal.Hand

end
-- ==== Proof.KI.MainRuns.lean ====
/-
  The main kernel's body run symbolically in each of its three control cases, on whole staging memrefs: the four
  input blocks at their contents, the first output window's buffer at anything, the second output window's buffer
  handed back untouched where the case stores nothing into it, the accumulator at what the point before left (or
  at anything where the case zeroes it first). Each run ends holding every buffer the case stored into with its
  stores written, listed last store first; the lists are the witness the run finds.
-/
import proofs.«164734_j22230750724256_2_alg».proof.Proof.KI.MainSetup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The column-tile coordinate is 0 and not the last: the accumulator is zeroed, then added the tile's product. -/
noncomputable def run1_first (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i)
    (x0 : Vec F S1024x128 .f32) (x1 : Vec F S1024x128 .f32) (x2 : Vec F S1024x1024 .f32) (x3 : Vec F S1x1024 .f32) :
    Σ' (L4 : List (View.Piece (Elt F) S1024x1024 .f32)), { LS : List (View.Piece (Elt F) S1024x128 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, ?_, fun xi5 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS

set_option maxHeartbeats 2000000 in
/-- Neither the first nor the last column tile: the accumulator, at what the point before left, is added the tile's product. -/
noncomputable def run1_mid (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i)
    (x0 : Vec F S1024x128 .f32) (x1 : Vec F S1024x128 .f32) (x2 : Vec F S1024x1024 .f32) (x3 : Vec F S1x1024 .f32) (xs : Vec F S1024x128 .f32) :
    Σ' (L4 : List (View.Piece (Elt F) S1024x1024 .f32)), { LS : List (View.Piece (Elt F) S1024x128 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, ?_, fun xi5 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS

set_option maxHeartbeats 2000000 in
/-- The last column tile: the accumulator is added the tile's product, and the second output window's buffer is stored
    one half of the row block of features plus one half of the accumulator. -/
noncomputable def run1_last (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i)
    (x0 : Vec F S1024x128 .f32) (x1 : Vec F S1024x128 .f32) (x2 : Vec F S1024x1024 .f32) (x3 : Vec F S1x1024 .f32) (xs : Vec F S1024x128 .f32) :
    Σ' (L4 : List (View.Piece (Elt F) S1024x1024 .f32)) (L5 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, ?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS

end Cert.KernelIdeal.Hand

end
-- ==== Proof.KI.MainFrame.lean ====
/-
  The main kernel over its whole grid. What the two output windows' buffers and the accumulator hold after each
  grid point is defined by recursion on the point: the case the point is in (first / inner / last column tile),
  run on the point's input blocks and, for the accumulator, on what the point before left. From that: the proof
  data of the pipeline (the arrays as the region finds them, each input window's buffer at its block, the output
  windows' at the recursion's first two components, the invariant carrying the accumulator at its third), and the
  body obligation at every point. The first two input windows read the same array, each at half of it.
-/
import proofs.«164734_j22230750724256_2_alg».proof.Proof.KI.MainRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- A placeholder for the second output window's buffer at the points where it is idle: nothing reads it. -/
def idle1_5 : Vec F S1024x128 .f32 := VO1_5.read (Elt F) VO1_5.junk

def out1_4_first (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i) (x0 : Vec F S1024x128 .f32) (x1 : Vec F S1024x128 .f32) (x2 : Vec F S1024x1024 .f32) (x3 : Vec F S1x1024 .f32) : Vec F S1024x1024 .f32 :=
  VO1_4.read (Elt F) (VO1_4.writes (Elt F) VO1_4.junk (run1_first c i arg2 harg2 arg3 harg3 arg4 harg4 arg5 harg5 arg6 harg6 arg7 harg7 arg8 harg8 hc0 hc1 x0 x1 x2 x3).1)
theorem cover1_4_first (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i) (x0 : Vec F S1024x128 .f32) (x1 : Vec F S1024x128 .f32) (x2 : Vec F S1024x1024 .f32) (x3 : Vec F S1x1024 .f32) (y : S1024x1024.Idx) :
    ∃ pc ∈ (run1_first c i arg2 harg2 arg3 harg3 arg4 harg4 arg5 harg5 arg6 harg6 arg7 harg7 arg8 harg8 hc0 hc1 x0 x1 x2 x3).1, y ∈ pc.1.set :=
  View.cover_of_tiledL (run1_first c i arg2 harg2 arg3 harg3 arg4 harg4 arg5 harg5 arg6 harg6 arg7 harg7 arg8 harg8 hc0 hc1 x0 x1 x2 x3).1 S1024x1024.size (by sl_kernel_rfl) y
def sout1_first (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i) (x0 : Vec F S1024x128 .f32) (x1 : Vec F S1024x128 .f32) (x2 : Vec F S1024x1024 .f32) (x3 : Vec F S1x1024 .f32) : Vec F S1024x128 .f32 :=
  VS1.read (Elt F) (VS1.writes (Elt F) VS1.junk (run1_first c i arg2 harg2 arg3 harg3 arg4 harg4 arg5 harg5 arg6 harg6 arg7 harg7 arg8 harg8 hc0 hc1 x0 x1 x2 x3).2.1)
theorem scover1_first (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i) (x0 : Vec F S1024x128 .f32) (x1 : Vec F S1024x128 .f32) (x2 : Vec F S1024x1024 .f32) (x3 : Vec F S1x1024 .f32) (y : S1024x128.Idx) :
    ∃ pc ∈ (run1_first c i arg2 harg2 arg3 harg3 arg4 harg4 arg5 harg5 arg6 harg6 arg7 harg7 arg8 harg8 hc0 hc1 x0 x1 x2 x3).2.1, y ∈ pc.1.set :=
  View.cover_of_tiledL (run1_first c i arg2 harg2 arg3 harg3 arg4 harg4 arg5 harg5 arg6 harg6 arg7 harg7 arg8 harg8 hc0 hc1 x0 x1 x2 x3).2.1 S1024x128.size (by sl_kernel_rfl) y

def out1_4_mid (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i) (x0 : Vec F S1024x128 .f32) (x1 : Vec F S1024x128 .f32) (x2 : Vec F S1024x1024 .f32) (x3 : Vec F S1x1024 .f32) (xs : Vec F S1024x128 .f32) : Vec F S1024x1024 .f32 :=
  VO1_4.read (Elt F) (VO1_4.writes (Elt F) VO1_4.junk (run1_mid c i arg2 harg2 arg3 harg3 arg4 harg4 arg5 harg5 arg6 harg6 arg7 harg7 arg8 harg8 hc0 hc1 x0 x1 x2 x3 xs).1)
theorem cover1_4_mid (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i) (x0 : Vec F S1024x128 .f32) (x1 : Vec F S1024x128 .f32) (x2 : Vec F S1024x1024 .f32) (x3 : Vec F S1x1024 .f32) (xs : Vec F S1024x128 .f32) (y : S1024x1024.Idx) :
    ∃ pc ∈ (run1_mid c i arg2 harg2 arg3 harg3 arg4 harg4 arg5 harg5 arg6 harg6 arg7 harg7 arg8 harg8 hc0 hc1 x0 x1 x2 x3 xs).1, y ∈ pc.1.set :=
  View.cover_of_tiledL (run1_mid c i arg2 harg2 arg3 harg3 arg4 harg4 arg5 harg5 arg6 harg6 arg7 harg7 arg8 harg8 hc0 hc1 x0 x1 x2 x3 xs).1 S1024x1024.size (by sl_kernel_rfl) y
def sout1_mid (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i) (x0 : Vec F S1024x128 .f32) (x1 : Vec F S1024x128 .f32) (x2 : Vec F S1024x1024 .f32) (x3 : Vec F S1x1024 .f32) (xs : Vec F S1024x128 .f32) : Vec F S1024x128 .f32 :=
  VS1.read (Elt F) (VS1.writes (Elt F) VS1.junk (run1_mid c i arg2 harg2 arg3 harg3 arg4 harg4 arg5 harg5 arg6 harg6 arg7 harg7 arg8 harg8 hc0 hc1 x0 x1 x2 x3 xs).2.1)
theorem scover1_mid (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i) (x0 : Vec F S1024x128 .f32) (x1 : Vec F S1024x128 .f32) (x2 : Vec F S1024x1024 .f32) (x3 : Vec F S1x1024 .f32) (xs : Vec F S1024x128 .f32) (y : S1024x128.Idx) :
    ∃ pc ∈ (run1_mid c i arg2 harg2 arg3 harg3 arg4 harg4 arg5 harg5 arg6 harg6 arg7 harg7 arg8 harg8 hc0 hc1 x0 x1 x2 x3 xs).2.1, y ∈ pc.1.set :=
  View.cover_of_tiledL (run1_mid c i arg2 harg2 arg3 harg3 arg4 harg4 arg5 harg5 arg6 harg6 arg7 harg7 arg8 harg8 hc0 hc1 x0 x1 x2 x3 xs).2.1 S1024x128.size (by sl_kernel_rfl) y

def out1_4_last (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i) (x0 : Vec F S1024x128 .f32) (x1 : Vec F S1024x128 .f32) (x2 : Vec F S1024x1024 .f32) (x3 : Vec F S1x1024 .f32) (xs : Vec F S1024x128 .f32) : Vec F S1024x1024 .f32 :=
  VO1_4.read (Elt F) (VO1_4.writes (Elt F) VO1_4.junk (run1_last c i arg2 harg2 arg3 harg3 arg4 harg4 arg5 harg5 arg6 harg6 arg7 harg7 arg8 harg8 hc0 hc1 x0 x1 x2 x3 xs).1)
theorem cover1_4_last (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i) (x0 : Vec F S1024x128 .f32) (x1 : Vec F S1024x128 .f32) (x2 : Vec F S1024x1024 .f32) (x3 : Vec F S1x1024 .f32) (xs : Vec F S1024x128 .f32) (y : S1024x1024.Idx) :
    ∃ pc ∈ (run1_last c i arg2 harg2 arg3 harg3 arg4 harg4 arg5 harg5 arg6 harg6 arg7 harg7 arg8 harg8 hc0 hc1 x0 x1 x2 x3 xs).1, y ∈ pc.1.set :=
  View.cover_of_tiledL (run1_last c i arg2 harg2 arg3 harg3 arg4 harg4 arg5 harg5 arg6 harg6 arg7 harg7 arg8 harg8 hc0 hc1 x0 x1 x2 x3 xs).1 S1024x1024.size (by sl_kernel_rfl) y
def sout1_last (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i) (x0 : Vec F S1024x128 .f32) (x1 : Vec F S1024x128 .f32) (x2 : Vec F S1024x1024 .f32) (x3 : Vec F S1x1024 .f32) (xs : Vec F S1024x128 .f32) : Vec F S1024x128 .f32 :=
  VS1.read (Elt F) (VS1.writes (Elt F) VS1.junk (run1_last c i arg2 harg2 arg3 harg3 arg4 harg4 arg5 harg5 arg6 harg6 arg7 harg7 arg8 harg8 hc0 hc1 x0 x1 x2 x3 xs).2.2.1)
theorem scover1_last (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i) (x0 : Vec F S1024x128 .f32) (x1 : Vec F S1024x128 .f32) (x2 : Vec F S1024x1024 .f32) (x3 : Vec F S1x1024 .f32) (xs : Vec F S1024x128 .f32) (y : S1024x128.Idx) :
    ∃ pc ∈ (run1_last c i arg2 harg2 arg3 harg3 arg4 harg4 arg5 harg5 arg6 harg6 arg7 harg7 arg8 harg8 hc0 hc1 x0 x1 x2 x3 xs).2.2.1, y ∈ pc.1.set :=
  View.cover_of_tiledL (run1_last c i arg2 harg2 arg3 harg3 arg4 harg4 arg5 harg5 arg6 harg6 arg7 harg7 arg8 harg8 hc0 hc1 x0 x1 x2 x3 xs).2.2.1 S1024x128.size (by sl_kernel_rfl) y

def out1_5_last (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i) (x0 : Vec F S1024x128 .f32) (x1 : Vec F S1024x128 .f32) (x2 : Vec F S1024x1024 .f32) (x3 : Vec F S1x1024 .f32) (xs : Vec F S1024x128 .f32) : Vec F S1024x128 .f32 :=
  VO1_5.read (Elt F) (VO1_5.writes (Elt F) VO1_5.junk (run1_last c i arg2 harg2 arg3 harg3 arg4 harg4 arg5 harg5 arg6 harg6 arg7 harg7 arg8 harg8 hc0 hc1 x0 x1 x2 x3 xs).2.1)
theorem cover1_5_last (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i) (x0 : Vec F S1024x128 .f32) (x1 : Vec F S1024x128 .f32) (x2 : Vec F S1024x1024 .f32) (x3 : Vec F S1x1024 .f32) (xs : Vec F S1024x128 .f32) (y : S1024x128.Idx) :
    ∃ pc ∈ (run1_last c i arg2 harg2 arg3 harg3 arg4 harg4 arg5 harg5 arg6 harg6 arg7 harg7 arg8 harg8 hc0 hc1 x0 x1 x2 x3 xs).2.1, y ∈ pc.1.set :=
  View.cover_of_tiledL (run1_last c i arg2 harg2 arg3 harg3 arg4 harg4 arg5 harg5 arg6 harg6 arg7 harg7 arg8 harg8 hc0 hc1 x0 x1 x2 x3 xs).2.1 S1024x128.size (by sl_kernel_rfl) y

section
variable (V : (c : Dev nD) → (b : Ref sig .tc) → Buf (Elt F) ((c : Thread nD τ).loc b))

/-! ## The recursion over the grid points -/

/-- After the body at position n: (the first output window's buffer, the second's, the accumulator). -/
def outsAt1 (c : Dev nD) : (n : ℕ) → n < cfg1.N → Vec F S1024x1024 .f32 × Vec F S1024x128 .f32 × Vec F S1024x128 .f32
  | 0, hn => (out1_4_first c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩),
      idle1_5, sout1_first c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      (out1_4_first c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩),
        idle1_5, sout1_first c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else if h1 : (n + 1) % 8 = 7 then
      (out1_4_last c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2,
       out1_5_last c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2,
       sout1_last c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)
    else
      (out1_4_mid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2,
       idle1_5, sout1_mid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)

theorem outsAt1_first (c : Dev nD) (t : Fin cfg1.N) (h0 : t.val % 8 = 0) (h1 : ¬t.val % 8 = 7) :
    outsAt1 V c t.val t.isLt = (out1_4_first c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t),
      idle1_5, sout1_first c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans rfl

theorem outsAt1_mid (c : Dev nD) (t : Fin cfg1.N) (h0 : ¬t.val % 8 = 0) (h1 : ¬t.val % 8 = 7) :
    outsAt1 V c t.val t.isLt = (out1_4_mid c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2,
      idle1_5, sout1_mid c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_last (c : Dev nD) (t : Fin cfg1.N) (h0 : ¬t.val % 8 = 0) (h1 : t.val % 8 = 7) :
    outsAt1 V c t.val t.isLt = (out1_4_last c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2,
      out1_5_last c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2,
      sout1_last c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant and the proof data -/

def PhiS1 (c : Dev nD) : (n : ℕ) → n ≤ cfg1.N → sProp 𝕄
  | 0, _ => Pipeline.ΦA spec1 c
  | n + 1, hn => iprop((owns (c : Thread nD τ) scM1 fullShare ((outsAt1 V c n hn).2.2) ∗ but1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2.2) ∗ but1 (F := F) c) ∗ (∃ r, prngReg c r)) := rfl
theorem PhiS1_pos (c : Dev nD) (n : ℕ) (h : n ≤ cfg1.N) (hz : n ≠ 0) :
    PhiS1 V c n h = iprop((owns (c : Thread nD τ) scM1 fullShare ((outsAt1 V c (n - 1) (by omega)).2.2) ∗ but1 (F := F) c) ∗ (∃ r, prngReg c r)) := by
  cases n with
  | zero => exact absurd rfl hz
  | succ n => rfl

/-- The proof data: the first two input windows hold the one array of features at a half each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 6400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 8 = 0
  · have h1 : ¬t.val % 8 = 7 := by omega
    rw [Dat.leavesExact_idle (dat1 V c) 5 t (idleAt1_5 t (fun h => h1 ((hcond1_1 t).mp h))) (noFlush1_5 t (fun h => h1 ((hcond1_1 t).mp h)))]
    rw [outsAt1_first V c t h0 h1]
    unfold out1_4_first sout1_first; (try dsimp only)
    by_cases hz : t.val = 0
    · rw [PhiS1_castSucc V c t, PhiS1_zero V c _ _ hz, PhiA1_eq]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((run1_first c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, ⟨%e4, H4⟩, H5, ⟨%es, HS⟩⟩
      isplitl [HS Hb Hg]
      · isplitl [HS Hb]
        · isplitl [HS]
          · unfold owns; iexists _; isplitr
            swap; · iexact HS
            ipureintro; exact View.read_writes_of_cover _ _ _ _ _ (scover1_first c _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_4_first c _ _ _ _ _ _ _ _ _ _ _ _ _ _ _ _ _ _ _ _ _)
      iexists _; iexact H5
    · rw [PhiS1_castSucc V c t, PhiS1_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((run1_first c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexists _; iexact HS
      iintro ⟨H0, H1, H2, H3, ⟨%e4, H4⟩, H5, ⟨%es, HS⟩⟩
      isplitl [HS Hb Hg]
      · isplitl [HS Hb]
        · isplitl [HS]
          · unfold owns; iexists _; isplitr
            swap; · iexact HS
            ipureintro; exact View.read_writes_of_cover _ _ _ _ _ (scover1_first c _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_4_first c _ _ _ _ _ _ _ _ _ _ _ _ _ _ _ _ _ _ _ _ _)
      iexists _; iexact H5
  · have hz : t.val ≠ 0 := fun e => h0 (by rw [e])
    by_cases h1 : t.val % 8 = 7
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_last V c t h0 h1]
      unfold out1_4_last out1_5_last sout1_last; (try dsimp only)
      rw [PhiS1_castSucc V c t, PhiS1_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((run1_last c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, ⟨%es, HS⟩⟩
      isplitl [HS Hb Hg]
      · isplitl [HS Hb]
        · isplitl [HS]
          · unfold owns; iexists _; isplitr
            swap; · iexact HS
            ipureintro; exact View.read_writes_of_cover _ _ _ _ _ (scover1_last c _ _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_4_last c _ _ _ _ _ _ _ _ _ _ _ _ _ _ _ _ _ _ _ _ _ _)
      unfold owns; iexists _; isplitr
      swap; · iexact H5
      ipureintro; exact View.read_writes_of_cover _ _ _ _ _ (cover1_5_last c _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_mid V c t h0 h1]
      unfold out1_4_mid sout1_mid; (try dsimp only)
      rw [PhiS1_castSucc V c t, PhiS1_pos V c _ _ hz]
      iintro ⟨⟨⟨HS, Hb⟩, Hg⟩, Ho, ⟨%d0, H0⟩, ⟨%d1, H1⟩, ⟨%d2, H2⟩, ⟨%d3, H3⟩, ⟨%d4, H4⟩, ⟨%d5, H5⟩⟩
      iapply ((run1_mid c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, ⟨%e4, H4⟩, H5, ⟨%es, HS⟩⟩
      isplitl [HS Hb Hg]
      · isplitl [HS Hb]
        · isplitl [HS]
          · unfold owns; iexists _; isplitr
            swap; · iexact HS
            ipureintro; exact View.read_writes_of_cover _ _ _ _ _ (scover1_mid c _ _ _ _ _ _ _ _ _ _ _ _ _ _ _ _ _ _ _ _ _ _)
          iexact Hb
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_4_mid c _ _ _ _ _ _ _ _ _ _ _ _ _ _ _ _ _ _ _ _ _ _)
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hb⟩, Hg⟩
  isplitl [HS Hb]
  · isplitl [HS]
    · iexists _; iexact HS
    iexact Hb
  iexact Hg

end

end Cert.KernelIdeal.Hand

end
-- ==== Proof.KI.Boundaries.lean ====
/-
  The two kernels in sequence. The contents of the core's unscoped buffers at the three boundaries of the program
  (at the launch; after the row-sum kernel, whose output array holds what its write-backs leave; after the main
  kernel, whose two output arrays hold what theirs leave), each pipeline's proof data at its region's entry contents,
  and each region as a segment of the program: entered from "every unscoped buffer at the boundary's contents, the
  generator register at some state, nothing owed" and left at the same at the next boundary. The array of features
  is read by two input windows of each kernel: at a region's entry its buffer is split in two halves, one per
  window, and at the exit the halves are joined again. The run: every weakly fair execution terminates and every
  final memory holds each unscoped buffer at the last boundary's contents.
-/
import proofs.«164734_j22230750724256_2_alg».proof.Proof.KI.RowsumFrame
import proofs.«164734_j22230750724256_2_alg».proof.Proof.KI.MainFrame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays of each pipeline, one by one; a core's unscoped buffers, one by one -/

section
variable (V : (c : Dev nD) → (b : Ref sig .tc) → Buf (Elt F) ((c : Thread nD τ).loc b))

theorem arrays0_eq (c : Dev nD) (Fa : (w : Fin cfg0.W) → Buf (Elt F) ((cfg0.win w).arr.view.loc (c.tc : Thread nD τ))) :
    ((dat0 V c).arrays Fa : sProp 𝕄) = iprop(((((c : Thread nD τ).loc main_arg0)) ↦{fullShare.left} Fa 0) ∗ ((((c : Thread nD τ).loc main_arg0)) ↦{fullShare.right} Fa 1) ∗ ((((c : Thread nD τ).loc main_v0)) ↦{fullShare} Fa 2)) := by
  unfold Dat.arrays; rw [bigSep_W0]
  rw [(arr_whole0 0).set_eq_univ, (arr_whole0 2).set_eq_univ]
  rfl

theorem arrays1_eq (c : Dev nD) (Fa : (w : Fin cfg1.W) → Buf (Elt F) ((cfg1.win w).arr.view.loc (c.tc : Thread nD τ))) :
    ((dat1 V c).arrays Fa : sProp 𝕄) = iprop(((((c : Thread nD τ).loc main_arg0)) ↦{fullShare.left} Fa 0) ∗ ((((c : Thread nD τ).loc main_arg0)) ↦{fullShare.right} Fa 1) ∗ ((((c : Thread nD τ).loc main_arg1)) ↦{fullShare} Fa 2)
      ∗ ((((c : Thread nD τ).loc main_v0)) ↦{fullShare} Fa 3) ∗ ((((c : Thread nD τ).loc main_v1_0)) ↦{fullShare} Fa 4) ∗ ((((c : Thread nD τ).loc main_v1_1)) ↦{fullShare} Fa 5)) := by
  unfold Dat.arrays; rw [bigSep_W1]
  rw [(arr_whole1 0).set_eq_univ, (arr_whole1 2).set_eq_univ, (arr_whole1 3).set_eq_univ, (arr_whole1 4).set_eq_univ, (arr_whole1 5).set_eq_univ]
  rfl
end

theorem ub_list (c : Dev nD) (V : (b : Ref sig .tc) → Buf (Elt F) ((c.tc : Thread nD τ).loc b)) :
    (unscopedBufs (Ix := Unit) (Name := ℕ) (U := UR sig nD τ) (Lvl := ℕ) c V : sProp 𝕄)
      = iprop(((((c : Thread nD τ).loc main_arg0)) ↦{fullShare} V main_arg0) ∗ ((((c : Thread nD τ).loc main_arg1)) ↦{fullShare} V main_arg1) ∗ ((((c : Thread nD τ).loc main_v0)) ↦{fullShare} V main_v0) ∗ ((((c : Thread nD τ).loc main_v1_0)) ↦{fullShare} V main_v1_0) ∗ ((((c : Thread nD τ).loc main_v1_1)) ↦{fullShare} V main_v1_1)) := by
  unfold unscopedBufs
  exact bigSep_eq_bigSepL_of_eq [main_arg0, main_arg1, main_v0, main_v1_0, main_v1_1] (by decide) (by decide) _

variable (m : (ℓ : Loc nD τ sig) → Buf (Elt F) ℓ) (ρ : Dev nD → PrngReg)

/-! ## The buffers' contents at the three boundaries -/

/-- At the launch. -/
abbrev W0 (c : Dev nD) : Valuation τ sig (Elt F) := fun b => m (c, b)
abbrev Vin0 : (c : Dev nD) → (b : Ref sig .tc) → Buf (Elt F) ((c : Thread nD τ).loc b) := fun c b => W0 m c b
/-- What the row-sum kernel leaves in its output array. -/
def rsArr (c : Dev nD) : Buf (Elt F) ((c : Thread nD τ).loc main_v0) := (dat0 (Vin0 m) c).arrAt 2 cfg0.N
/-- After the row-sum kernel. -/
def W1 (c : Dev nD) : Valuation τ sig (Elt F) := Function.update (W0 m c) main_v0 (rsArr m c)
abbrev Vin1 : (c : Dev nD) → (b : Ref sig .tc) → Buf (Elt F) ((c : Thread nD τ).loc b) := fun c b => W1 m c b
/-- What the main kernel leaves in its two output arrays. -/
def alArr (c : Dev nD) : Buf (Elt F) ((c : Thread nD τ).loc main_v1_0) := (dat1 (Vin1 m) c).arrAt 4 cfg1.N
def hArr (c : Dev nD) : Buf (Elt F) ((c : Thread nD τ).loc main_v1_1) := (dat1 (Vin1 m) c).arrAt 5 cfg1.N
/-- After the main kernel. -/
def W2 (c : Dev nD) : Valuation τ sig (Elt F) := Function.update (Function.update (W1 m c) main_v1_0 (alArr m c)) main_v1_1 (hArr m c)

theorem W1_of (c : Dev nD) (r : Ref sig .tc) (h : r ≠ main_v0) : W1 m c r = W0 m c r := by
  unfold W1; exact Function.update_of_ne (StableHlo.devRef_ne_of_ne h) _ _
theorem W1_v0 (c : Dev nD) : W1 m c main_v0 = rsArr m c := by
  unfold W1; exact Function.update_self _ _ _
theorem W2_of (c : Dev nD) (r : Ref sig .tc) (h0 : r ≠ main_v1_0) (h1 : r ≠ main_v1_1) : W2 m c r = W1 m c r := by
  unfold W2; rw [Function.update_of_ne (StableHlo.devRef_ne_of_ne h1), Function.update_of_ne (StableHlo.devRef_ne_of_ne h0)]
theorem W2_v1_0 (c : Dev nD) : W2 m c main_v1_0 = alArr m c := by
  unfold W2; rw [Function.update_of_ne (StableHlo.devRef_ne_of_ne (by decide))]; exact Function.update_self _ _ _
theorem W2_v1_1 (c : Dev nD) : W2 m c main_v1_1 = hArr m c := by
  unfold W2; exact Function.update_self _ _ _

/-! ## Entering and leaving a region: the unscoped buffers dealt to the windows and gathered again -/

theorem held_list (c : Dev nD) (W : Valuation τ sig (Elt F)) :
    (StableHlo.held (c : Thread nD τ) (Pipeline.ucRefs τ sig) W : sProp 𝕄)
      = iprop(((((c : Thread nD τ).loc main_arg0)) ↦{fullShare} W main_arg0) ∗ ((((c : Thread nD τ).loc main_arg1)) ↦{fullShare} W main_arg1) ∗ ((((c : Thread nD τ).loc main_v0)) ↦{fullShare} W main_v0) ∗ ((((c : Thread nD τ).loc main_v1_0)) ↦{fullShare} W main_v1_0) ∗ ((((c : Thread nD τ).loc main_v1_1)) ↦{fullShare} W main_v1_1)) := by
  rw [← Pipeline.unscopedBufs_held (Ix := Unit) (Name := ℕ) (U := UR sig nD τ) (Lvl := ℕ) c W, ub_list]

theorem entry0 (c : Dev nD) :
    (StableHlo.held (c : Thread nD τ) (Pipeline.ucRefs τ sig) (W0 m c) : sProp 𝕄)
      ⊢ iprop((dat0 (Vin0 m) c).arrays ((dat0 (Vin0 m) c).arrAt · 0) ∗ Pipeline.unscopedRest (Ix := Unit) (Name := ℕ) (U := UR sig nD τ) (Lvl := ℕ) spec0 c (Vin0 m c)) := by
  rw [held_list, arrays0_eq, unscopedRest0_eq]
  iintro ⟨Ha0, Ha1, Hv0, Hv10, Hv11⟩
  ihave Hs := (pointsTo_share (PosShare.mem_left_op_right fullShare)).1 $$ Ha0
  icases Hs with ⟨HaL, HaR⟩
  isplitl [HaL HaR Hv0]
  · isplitl [HaL]; · iexact HaL
    isplitl [HaR]; · iexact HaR
    iexact Hv0
  isplitl [Ha1]; · iexact Ha1
  isplitl [Hv10]; · iexact Hv10
  iexact Hv11

theorem exit0 (c : Dev nD) :
    iprop((dat0 (Vin0 m) c).arrays ((dat0 (Vin0 m) c).arrAt · cfg0.N) ∗ Pipeline.unscopedRest (Ix := Unit) (Name := ℕ) (U := UR sig nD τ) (Lvl := ℕ) spec0 c (Vin0 m c))
      ⊢ (StableHlo.held (c : Thread nD τ) (Pipeline.ucRefs τ sig) (W1 m c) : sProp 𝕄) := by
  rw [held_list, arrays0_eq, unscopedRest0_eq]
  rw [W1_of m c main_arg0 (by decide), W1_of m c main_arg1 (by decide), W1_of m c main_v1_0 (by decide), W1_of m c main_v1_1 (by decide), W1_v0]
  rw [(dat0 (Vin0 m) c).arrAt_in 0 rfl cfg0.N, (dat0 (Vin0 m) c).arrAt_in 1 rfl cfg0.N, A_eq0, A_eq0]
  iintro ⟨⟨HaL, HaR, Hv0⟩, Ha1, Hv10, Hv11⟩
  ihave Ha0 := (pointsTo_share (PosShare.mem_left_op_right fullShare)).2 $$ [HaL HaR]
  · isplitl [HaL]; · iexact HaL
    iexact HaR
  isplitl [Ha0]; · iexact Ha0
  isplitl [Ha1]; · iexact Ha1
  isplitl [Hv0]; · iexact Hv0
  isplitl [Hv10]; · iexact Hv10
  iexact Hv11

theorem entry1 (c : Dev nD) :
    (StableHlo.held (c : Thread nD τ) (Pipeline.ucRefs τ sig) (W1 m c) : sProp 𝕄)
      ⊢ iprop((dat1 (Vin1 m) c).arrays ((dat1 (Vin1 m) c).arrAt · 0) ∗ Pipeline.unscopedRest (Ix := Unit) (Name := ℕ) (U := UR sig nD τ) (Lvl := ℕ) spec1 c (Vin1 m c)) := by
  rw [held_list, arrays1_eq, unscopedRest1_eq]
  iintro ⟨Ha0, Ha1, Hv0, Hv10, Hv11⟩
  ihave Hs := (pointsTo_share (PosShare.mem_left_op_right fullShare)).1 $$ Ha0
  icases Hs with ⟨HaL, HaR⟩
  isplitl [HaL HaR Ha1 Hv0 Hv10 Hv11]
  · isplitl [HaL]; · iexact HaL
    isplitl [HaR]; · iexact HaR
    isplitl [Ha1]; · iexact Ha1
    isplitl [Hv0]; · iexact Hv0
    isplitl [Hv10]; · iexact Hv10
    iexact Hv11
  iempintro

theorem exit1 (c : Dev nD) :
    iprop((dat1 (Vin1 m) c).arrays ((dat1 (Vin1 m) c).arrAt · cfg1.N) ∗ Pipeline.unscopedRest (Ix := Unit) (Name := ℕ) (U := UR sig nD τ) (Lvl := ℕ) spec1 c (Vin1 m c))
      ⊢ (StableHlo.held (c : Thread nD τ) (Pipeline.ucRefs τ sig) (W2 m c) : sProp 𝕄) := by
  rw [held_list, arrays1_eq, unscopedRest1_eq]
  rw [W2_of m c main_arg0 (by decide) (by decide), W2_of m c main_arg1 (by decide) (by decide), W2_of m c main_v0 (by decide) (by decide), W2_v1_0, W2_v1_1]
  rw [(dat1 (Vin1 m) c).arrAt_in 0 rfl cfg1.N, (dat1 (Vin1 m) c).arrAt_in 1 rfl cfg1.N, (dat1 (Vin1 m) c).arrAt_in 2 rfl cfg1.N, (dat1 (Vin1 m) c).arrAt_in 3 rfl cfg1.N, A_eq1, A_eq1, A_eq1, A_eq1]
  iintro ⟨⟨HaL, HaR, Ha1, Hv0, Hv10, Hv11⟩, -⟩
  ihave Ha0 := (pointsTo_share (PosShare.mem_left_op_right fullShare)).2 $$ [HaL HaR]
  · isplitl [HaL]; · iexact HaL
    iexact HaR
  isplitl [Ha0]; · iexact Ha0
  isplitl [Ha1]; · iexact Ha1
  isplitl [Hv0]; · iexact Hv0
  isplitl [Hv10]; · iexact Hv10
  iexact Hv11

end Cert.KernelIdeal.Hand

end
-- ==== Proof.KI.Run.lean ====
/-
  The program's run. Each of the two kernel regions as a segment (its layout, its body obligation, and the four
  entailments around "every unscoped buffer at the boundary's contents, the generator register at some state,
  nothing owed"), the program as the two segments in order, and the launch: from any memory with zero counters
  every weakly fair execution terminates, and every final memory holds each unscoped buffer at the contents of
  the last boundary — the arguments as launched, each result array at what its kernel's write-backs leave.
-/
import proofs.«164734_j22230750724256_2_alg».proof.Proof.KI.Boundaries

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state and the core's dues, none. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W2 m c) ∗ ∃ r, prngReg c r)

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit : (StableHlo.held (c : Thread nD τ) (Pipeline.ucRefs τ sig) (W0 m c) : sProp 𝕄)
        ⊢ iprop((pdats m 0 c).arrays ((pdats m 0 c).arrAt · 0) ∗ Pipeline.unscopedRest (Ix := Unit) (Name := ℕ) (U := UR sig nD τ) (Lvl := ℕ) spec0 c (Vin0 m c)) := entry0 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m 0 c).Φ 0 := hin0 (Vin0 m) c
    refine (show _ ⊢ (Pipeline.ΦA spec0 c : sProp 𝕄) from ?_).trans h
    unfold Pipeline.ΦA
    iintro ⟨Hp, -, Hr⟩
    isplitl [Hr]; · iexact Hr
    iexact Hp
  hout c := by
    rw [Pipeline.ownSems0_none]
    have h : (pdats m 0 c).Φ (Fin.last _) ⊢ (Pipeline.ΦA spec0 c : sProp 𝕄) := hout0 (Vin0 m) c
    refine h.trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest (Ix := Unit) (Name := ℕ) (U := UR sig nD τ) (Lvl := ℕ) spec0 c (Vin0 m c))
        ⊢ (StableHlo.held (c : Thread nD τ) (Pipeline.ucRefs τ sig) (W1 m c) : sProp 𝕄) := exit0 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit : (StableHlo.held (c : Thread nD τ) (Pipeline.ucRefs τ sig) (W1 m c) : sProp 𝕄)
        ⊢ iprop((pdats m 1 c).arrays ((pdats m 1 c).arrAt · 0) ∗ Pipeline.unscopedRest (Ix := Unit) (Name := ℕ) (U := UR sig nD τ) (Lvl := ℕ) spec1 c (Vin1 m c)) := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m 1 c).Φ 0 := hin1 (Vin1 m) c
    refine (show _ ⊢ (Pipeline.ΦA spec1 c : sProp 𝕄) from ?_).trans h
    unfold Pipeline.ΦA
    iintro ⟨Hp, -, Hr⟩
    isplitl [Hr]; · iexact Hr
    iexact Hp
  hout c := by
    rw [Pipeline.ownSems0_none]
    have h : (pdats m 1 c).Φ (Fin.last _) ⊢ (Pipeline.ΦA spec1 c : sProp 𝕄) := hout1 (Vin1 m) c
    refine h.trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (Vin1 m c))
        ⊢ (StableHlo.held (c : Thread nD τ) (Pipeline.ucRefs τ sig) (W2 m c) : sProp 𝕄) := exit1 m c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two segments in order. -/
abbrev segs : List (Pipeline.Seg (pcfgs (F := F)) adm (pdats m) () defs₀ 𝒱₀ L lv) :=
  [ .region (reg0 m), .region (reg1 m) ]
theorem main_run (c : Dev nD) : main (F := F) c = Pipeline.Seg.run (segs m) :=
  main_segs adm (pdats m) () 𝒱₀ L lv (reg0 m) (reg1 m) c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: every weakly fair execution terminates, and every final memory holds each unscoped buffer at the last
    boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The arguments end as launched, -/
theorem W2_main_arg0 (c : Dev nD) : W2 m c main_arg0 = m ((c : Thread nD τ).loc main_arg0) :=
  (W2_of m c main_arg0 (by decide) (by decide)).trans (W1_of m c main_arg0 (by decide))
theorem W2_main_arg1 (c : Dev nD) : W2 m c main_arg1 = m ((c : Thread nD τ).loc main_arg1) :=
  (W2_of m c main_arg1 (by decide) (by decide)).trans (W1_of m c main_arg1 (by decide))

/-- and each result array holds what its kernel's write-backs leave. -/
theorem run_results : θ_run defs (onTc (τ := τ) (main (F := F))) ⟨m, fun _ => 0, ρ⟩ (fun r => ∀ c : Dev nD,
      r.2.mem ((c.tc : Thread nD τ).loc main_v1_1) = hArr m c
      ∧ r.2.mem ((c.tc : Thread nD τ).loc main_v1_0) = alArr m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v1_1 (by decide))).trans (W2_v1_1 m c),
     (h c _ (mem_uc main_v1_0 (by decide))).trans (W2_v1_0 m c),
     (h c _ (mem_uc main_arg0 (by decide))).trans (W2_main_arg0 m c),
     (h c _ (mem_uc main_arg1 (by decide))).trans (W2_main_arg1 m c)⟩) (run_all m ρ)

/-- THE FRAME: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.2.1, (h c).2.2.2⟩) (run_results m ρ)

end Cert.KernelIdeal.Hand

end
-- ==== Proof.KI.Blocks.lean ====
/-
  The blocks of the two kernels read at coordinates, and which points cover the output arrays.

  The first kernel runs over a grid of 8 x 4 points: point t has row block t / 4 and column block t % 4. Its first
  window is rows 1024 (t / 4) … of the feature array, its second rows 2048 (t % 4) …, and its output window columns
  1024 (t / 4) … of the [1, 8192] row-sum array. The second kernel runs over 8 x 8 points: point t has row tile t / 8
  and column tile t % 8; its windows are rows 1024 (t / 8) … and rows 1024 (t % 8) … of the feature array, the tile
  (t / 8, t % 8) of the adjacency array, columns 1024 (t % 8) … of the row sums, the tile (t / 8, t % 8) of the first
  result and rows 1024 (t / 8) … of the second. An element of a block sits in its array, on each axis, at the block
  index times the block size plus its own coordinate; the block indices are decided once over each grid.

  Every index of an output array lies in the block of a point that writes that block back: column j of the row sums
  in the block of point 4 (j / 1024) + 3, entry (i, j) of the first result in the block of point
  8 (i / 1024) + j / 1024, and row i of the second result in the block of point 8 (i / 1024) + 7.
-/
import proofs.«164734_j22230750724256_2_alg».proof.Proof.KI.RowsumSetup
import proofs.«164734_j22230750724256_2_alg».proof.Proof.KI.MainSetup
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

/-! ## The grids' sizes and the block indices, decided over the grids -/

/-- The first grid has 32 points. -/
theorem t0_lt (t : Fin cfg0.N) : t.val < 32 := by
  have h := t.isLt; have hN : cfg0.N = 32 := Gen.N_0; omega

/-- The second grid has 64 points. -/
theorem t1_lt (t : Fin cfg1.N) : t.val < 64 := by
  have h := t.isLt; have hN : cfg1.N = 64 := Gen.N_1; omega

/-- The block indices of the first kernel's three windows at point t. -/
theorem idx0 : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = 0 ∧ win0_2.index t (1 : Fin 2) = t.val / 4 :=
  (by decide +kernel : ∀ t : Fin grid0.N, _)

/-- The block indices of the second kernel's four input windows at point t. -/
theorem idx1_in : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = t.val % 8
    ∧ win1_3.index t (0 : Fin 2) = 0 ∧ win1_3.index t (1 : Fin 2) = t.val % 8 :=
  (by decide +kernel : ∀ t : Fin grid1.N, _)

/-- The block indices of the second kernel's two output windows at point t. -/
theorem idx1_out : ∀ t : Fin cfg1.N,
    win1_4.index t (0 : Fin 2) = t.val / 8 ∧ win1_4.index t (1 : Fin 2) = t.val % 8
    ∧ win1_5.index t (0 : Fin 2) = t.val / 8 ∧ win1_5.index t (1 : Fin 2) = 0 :=
  (by decide +kernel : ∀ t : Fin grid1.N, _)

/-! ## The input blocks read at coordinates

Each read is the same short argument: the block's view reads the array at the embedded index, and the embedded
index has, on each axis, the coordinate block index * block size + 1 * the coordinate inside the block. -/

section
variable (V : (c : Dev nD) → (b : Ref sig .tc) → Buf (Elt F) ((c : Thread nD τ).loc b))

/-- The first kernel's row block: row p of it is row 1024 (t / 4) + p of the feature array. -/
theorem iblk0_0_at (c : Dev nD) (t : Fin cfg0.N) (p : Fin 1024) (d : Fin 128) :
    (iblk0 V c 0 t : Vec F S1024x128 .f32) (ix2 p d)
      = (V c main_arg0 : S8192x128.Idx → Elt F .f32) (ix2 ⟨1024 * (t.val / 4) + p.val, by have := t0_lt t; omega⟩ d) := by
  obtain ⟨h0, h1, -⟩ := idx0 t
  unfold iblk0
  rw [View.read_apply]
  show V c main_arg0 _ = V c main_arg0 _
  congr 1
  funext a
  apply Fin.ext
  match a with
  | ⟨0, _⟩ => show win0_0.index t 0 * 1024 + 1 * p.val = 1024 * (t.val / 4) + p.val; rw [h0]; omega
  | ⟨1, _⟩ => show win0_0.index t 1 * 128 + 1 * d.val = d.val; rw [h1]; omega

/-- The first kernel's column block: row q of it is row 2048 (t % 4) + q of the feature array. -/
theorem iblk0_1_at (c : Dev nD) (t : Fin cfg0.N) (q : Fin 2048) (d : Fin 128) :
    (iblk0 V c 1 t : Vec F S2048x128 .f32) (ix2 q d)
      = (V c main_arg0 : S8192x128.Idx → Elt F .f32) (ix2 ⟨2048 * (t.val % 4) + q.val, by have := t0_lt t; omega⟩ d) := by
  obtain ⟨-, -, h0, h1, -⟩ := idx0 t
  unfold iblk0
  rw [View.read_apply]
  show V c main_arg0 _ = V c main_arg0 _
  congr 1
  funext a
  apply Fin.ext
  match a with
  | ⟨0, _⟩ => show win0_1.index t 0 * 2048 + 1 * q.val = 2048 * (t.val % 4) + q.val; rw [h0]; omega
  | ⟨1, _⟩ => show win0_1.index t 1 * 128 + 1 * d.val = d.val; rw [h1]; omega

/-- The second kernel's row block: row p of it is row 1024 (t / 8) + p of the feature array. -/
theorem iblk1_0_at (c : Dev nD) (t : Fin cfg1.N) (p : Fin 1024) (d : Fin 128) :
    (iblk1 V c 0 t : Vec F S1024x128 .f32) (ix2 p d)
      = (V c main_arg0 : S8192x128.Idx → Elt F .f32) (ix2 ⟨1024 * (t.val / 8) + p.val, by have := t1_lt t; omega⟩ d) := by
  obtain ⟨h0, h1, -⟩ := idx1_in t
  unfold iblk1
  rw [View.read_apply]
  show V c main_arg0 _ = V c main_arg0 _
  congr 1
  funext a
  apply Fin.ext
  match a with
  | ⟨0, _⟩ => show win1_0.index t 0 * 1024 + 1 * p.val = 1024 * (t.val / 8) + p.val; rw [h0]; omega
  | ⟨1, _⟩ => show win1_0.index t 1 * 128 + 1 * d.val = d.val; rw [h1]; omega

/-- The second kernel's column block: row q of it is row 1024 (t % 8) + q of the feature array. -/
theorem iblk1_1_at (c : Dev nD) (t : Fin cfg1.N) (q : Fin 1024) (d : Fin 128) :
    (iblk1 V c 1 t : Vec F S1024x128 .f32) (ix2 q d)
      = (V c main_arg0 : S8192x128.Idx → Elt F .f32) (ix2 ⟨1024 * (t.val % 8) + q.val, by have := t1_lt t; omega⟩ d) := by
  obtain ⟨-, -, h0, h1, -⟩ := idx1_in t
  unfold iblk1
  rw [View.read_apply]
  show V c main_arg0 _ = V c main_arg0 _
  congr 1
  funext a
  apply Fin.ext
  match a with
  | ⟨0, _⟩ => show win1_1.index t 0 * 1024 + 1 * q.val = 1024 * (t.val % 8) + q.val; rw [h0]; omega
  | ⟨1, _⟩ => show win1_1.index t 1 * 128 + 1 * d.val = d.val; rw [h1]; omega

/-- The adjacency tile: its entry (p, q) is entry (1024 (t / 8) + p, 1024 (t % 8) + q) of the adjacency array. -/
theorem iblk1_2_at (c : Dev nD) (t : Fin cfg1.N) (p q : Fin 1024) :
    (iblk1 V c 2 t : Vec F S1024x1024 .f32) (ix2 p q)
      = (V c main_arg1 : S8192x8192.Idx → Elt F .f32)
          (ix2 ⟨1024 * (t.val / 8) + p.val, by have := t1_lt t; omega⟩ ⟨1024 * (t.val % 8) + q.val, by have := t1_lt t; omega⟩) := by
  obtain ⟨-, -, -, -, h0, h1, -⟩ := idx1_in t
  unfold iblk1
  rw [View.read_apply]
  show V c main_arg1 _ = V c main_arg1 _
  congr 1
  funext a
  apply Fin.ext
  match a with
  | ⟨0, _⟩ => show win1_2.index t 0 * 1024 + 1 * p.val = 1024 * (t.val / 8) + p.val; rw [h0]; omega
  | ⟨1, _⟩ => show win1_2.index t 1 * 1024 + 1 * q.val = 1024 * (t.val % 8) + q.val; rw [h1]; omega

/-- The row-sum block: its column q is column 1024 (t % 8) + q of the [1, 8192] row-sum array. -/
theorem iblk1_3_at (c : Dev nD) (t : Fin cfg1.N) (z : Fin 1) (q : Fin 1024) :
    (iblk1 V c 3 t : Vec F S1x1024 .f32) (ix2 z q)
      = (V c main_v0 : S1x8192.Idx → Elt F .f32) (ix2 z ⟨1024 * (t.val % 8) + q.val, by have := t1_lt t; omega⟩) := by
  obtain ⟨-, -, -, -, -, -, h0, h1⟩ := idx1_in t
  unfold iblk1
  rw [View.read_apply]
  show V c main_v0 _ = V c main_v0 _
  congr 1
  funext a
  apply Fin.ext
  match a with
  | ⟨0, _⟩ => show win1_3.index t 0 * 1 + 1 * z.val = z.val; rw [h0]; omega
  | ⟨1, _⟩ => show win1_3.index t 1 * 1024 + 1 * q.val = 1024 * (t.val % 8) + q.val; rw [h1]; omega

end

/-! ## The output windows' blocks as sets of indices, and the covers -/

/-- An index of the row-sum array is in point t's block iff each coordinate is in the block's range on its axis. -/
theorem mem_blk0_2 (t : Fin cfg0.N) (i : S1x8192.Idx) :
    i ∈ ((cfg0.win 2).blk t).view.set ↔ ∀ a : Fin 2, win0_2.index t a * S1x1024.size a ≤ (i a).val ∧ (i a).val < win0_2.index t a * S1x1024.size a + S1x1024.size a := by
  show i ∈ ((View.whole main_v0).slice (win0_2.rect t)).set ↔ _
  rw [View.set_slice_whole, Rect.mem_set_unit]
  exact Iff.rfl

/-- An index of the first result is in point t's tile iff each coordinate is in the tile's range on its axis. -/
theorem mem_blk1_4 (t : Fin cfg1.N) (i : S8192x8192.Idx) :
    i ∈ ((cfg1.win 4).blk t).view.set ↔ ∀ a : Fin 2, win1_4.index t a * S1024x1024.size a ≤ (i a).val ∧ (i a).val < win1_4.index t a * S1024x1024.size a + S1024x1024.size a := by
  show i ∈ ((View.whole main_v1_0).slice (win1_4.rect t)).set ↔ _
  rw [View.set_slice_whole, Rect.mem_set_unit]
  exact Iff.rfl

/-- An index of the second result is in point t's block iff each coordinate is in the block's range on its axis. -/
theorem mem_blk1_5 (t : Fin cfg1.N) (i : S8192x128.Idx) :
    i ∈ ((cfg1.win 5).blk t).view.set ↔ ∀ a : Fin 2, win1_5.index t a * S1024x128.size a ≤ (i a).val ∧ (i a).val < win1_5.index t a * S1024x128.size a + S1024x128.size a := by
  show i ∈ ((View.whole main_v1_1).slice (win1_5.rect t)).set ↔ _
  rw [View.set_slice_whole, Rect.mem_set_unit]
  exact Iff.rfl

/-- Column j of the row-sum array lies in the block of the point 4 (j / 1024) + 3, which writes its block back. -/
theorem cover0_2 (i : S1x8192.Idx) :
    ∃ t : Fin cfg0.N, (cfg0.win 2).flush t = true ∧ i ∈ ((cfg0.win 2).blk t).view.set := by
  have hi0 : (i 0).val < 1 := (i 0).isLt
  have hi1 : (i 1).val < 8192 := (i 1).isLt
  have hN : cfg0.N = 32 := Gen.N_0
  obtain ⟨t, ht⟩ : ∃ t : Fin cfg0.N, t.val = 4 * ((i 1).val / 1024) + 3 := ⟨⟨_, by omega⟩, rfl⟩
  obtain ⟨-, -, -, -, h0, h1⟩ := idx0 t
  refine ⟨t, (Gen.flush0_2 t).mpr (by omega), ?_⟩
  rw [mem_blk0_2]
  intro a
  match a with
  | ⟨0, _⟩ => show win0_2.index t 0 * 1 ≤ (i 0).val ∧ (i 0).val < win0_2.index t 0 * 1 + 1; rw [h0]; omega
  | ⟨1, _⟩ => show win0_2.index t 1 * 1024 ≤ (i 1).val ∧ (i 1).val < win0_2.index t 1 * 1024 + 1024; rw [h1]; omega

/-- Entry (i, j) of the first result lies in the tile of the point 8 (i / 1024) + j / 1024; every point writes back. -/
theorem cover1_4 (i : S8192x8192.Idx) :
    ∃ t : Fin cfg1.N, (cfg1.win 4).flush t = true ∧ i ∈ ((cfg1.win 4).blk t).view.set := by
  have hi0 : (i 0).val < 8192 := (i 0).isLt
  have hi1 : (i 1).val < 8192 := (i 1).isLt
  have hN : cfg1.N = 64 := Gen.N_1
  obtain ⟨t, ht⟩ : ∃ t : Fin cfg1.N, t.val = 8 * ((i 0).val / 1024) + (i 1).val / 1024 := ⟨⟨_, by omega⟩, rfl⟩
  obtain ⟨h0, h1, -⟩ := idx1_out t
  refine ⟨t, Gen.flush1_4 t, ?_⟩
  rw [mem_blk1_4]
  intro a
  match a with
  | ⟨0, _⟩ => show win1_4.index t 0 * 1024 ≤ (i 0).val ∧ (i 0).val < win1_4.index t 0 * 1024 + 1024; rw [h0]; omega
  | ⟨1, _⟩ => show win1_4.index t 1 * 1024 ≤ (i 1).val ∧ (i 1).val < win1_4.index t 1 * 1024 + 1024; rw [h1]; omega

/-- Row i of the second result lies in the block of the point 8 (i / 1024) + 7, which writes its block back. -/
theorem cover1_5 (i : S8192x128.Idx) :
    ∃ t : Fin cfg1.N, (cfg1.win 5).flush t = true ∧ i ∈ ((cfg1.win 5).blk t).view.set := by
  have hi0 : (i 0).val < 8192 := (i 0).isLt
  have hi1 : (i 1).val < 128 := (i 1).isLt
  have hN : cfg1.N = 64 := Gen.N_1
  obtain ⟨t, ht⟩ : ∃ t : Fin cfg1.N, t.val = 8 * ((i 0).val / 1024) + 7 := ⟨⟨_, by omega⟩, rfl⟩
  obtain ⟨-, -, h0, h1⟩ := idx1_out t
  refine ⟨t, (Gen.flush1_5 t).mpr (by omega), ?_⟩
  rw [mem_blk1_5]
  intro a
  match a with
  | ⟨0, _⟩ => show win1_5.index t 0 * 1024 ≤ (i 0).val ∧ (i 0).val < win1_5.index t 0 * 1024 + 1024; rw [h0]; omega
  | ⟨1, _⟩ => show win1_5.index t 1 * 128 ≤ (i 1).val ∧ (i 1).val < win1_5.index t 1 * 128 + 128; rw [h1]; omega

/-! ## The arrays after the runs, from the covers

For any proof datum of a run: if what every writing point writes back is its block of one array G, the output array
ends holding G, because its blocks cover it. -/

theorem final0_2 {c : Dev nD} (dat : Dat τ (Elt F) Unit ℕ (UR sig nD τ) ℕ cfg0 c)
    (G : Buf (Elt F) ((cfg0.win 2).arr.view.loc (c.tc : Thread nD τ)))
    (hG : ∀ t, (cfg0.win 2).flush t = true → dat.flushed 2 t = ((cfg0.win 2).blk t).view.read (Elt F) G) :
    dat.arrAt 2 cfg0.N = G :=
  dat.arrAt_eq_of_cover 2 G hG cover0_2

theorem final1_4 {c : Dev nD} (dat : Dat τ (Elt F) Unit ℕ (UR sig nD τ) ℕ cfg1 c)
    (G : Buf (Elt F) ((cfg1.win 4).arr.view.loc (c.tc : Thread nD τ)))
    (hG : ∀ t, (cfg1.win 4).flush t = true → dat.flushed 4 t = ((cfg1.win 4).blk t).view.read (Elt F) G) :
    dat.arrAt 4 cfg1.N = G :=
  dat.arrAt_eq_of_cover 4 G hG cover1_4

theorem final1_5 {c : Dev nD} (dat : Dat τ (Elt F) Unit ℕ (UR sig nD τ) ℕ cfg1 c)
    (G : Buf (Elt F) ((cfg1.win 5).arr.view.loc (c.tc : Thread nD τ)))
    (hG : ∀ t, (cfg1.win 5).flush t = true → dat.flushed 5 t = ((cfg1.win 5).blk t).view.read (Elt F) G) :
    dat.arrAt 5 cfg1.N = G :=
  dat.arrAt_eq_of_cover 5 G hG cover1_5

end Cert.KernelIdeal.Hand

end
-- ==== Proof.KI.RowsumPieces.lean ====
/-
  What each control case of the row-sum kernel leaves, as the body's arithmetic applied to what the case read.

  Every load and every store of the body goes through the whole buffer (the rectangle at zero offsets of the
  buffer's own sizes), so a load reads the buffer's contents, the last store into a buffer leaves its value whatever
  was stored before, and a load of what one such store left reads that store's value. Hence: where the accumulator
  is zeroed first it ends at the update of the zero row; elsewhere at the update of what it held; and in the last
  column block the output window's buffer receives that same updated row.
-/
import proofs.«164734_j22230750724256_2_alg».proof.Proof.KI.RowsumFrame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem

variable {F : FTy → Type} [FloatOps F]

/-- The offsets of every rectangle of the body are zero. -/
theorem offs_zero : (![0, 0] : Fin 2 → Nat) = fun _ => 0 := funext fun a => by fin_cases a <;> rfl

/-- First column block: the accumulator ends at the update of the zero row. -/
theorem sout0_first_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : cond0_0 i) (hc1 : ¬cond0_1 i) (x0 : Vec F S1024x128 .f32) (x1 : Vec F S2048x128 .f32) :
    sout0_first c i arg2 harg2 arg3 harg3 arg4 harg4 arg5 harg5 hc0 hc1 x0 x1 = k0_pay2 x0 x1 (k0_pay1 (F := F)) := by
  unfold sout0_first
  rw [View.read_writes_eq_canon _ _ _ (scover0_first c i arg2 harg2 arg3 harg3 arg4 harg4 arg5 harg5 hc0 hc1 x0 x1)]
  unfold run0_first
  dsimp only
  sl_unfold_words
  rw [View.canon_cons_unit_zero (S := S1x1024) offs_zero, View.readCov_unit_zero (S := S1x1024) _ offs_zero]
  simp only [View.readAt_eq_ld, harg2.read_unread, harg3.read_unread, View.ld_unit_zero (S := S1024x128) offs_zero,
    View.ld_unit_zero (S := S2048x128) offs_zero]

/-- An inner column block: the accumulator ends at the update of what it held. -/
theorem sout0_mid_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : ¬cond0_1 i) (x0 : Vec F S1024x128 .f32) (x1 : Vec F S2048x128 .f32) (xs : Vec F S1x1024 .f32) :
    sout0_mid c i arg2 harg2 arg3 harg3 arg4 harg4 arg5 harg5 hc0 hc1 x0 x1 xs = k0_pay2 x0 x1 xs := by
  unfold sout0_mid
  rw [View.read_writes_eq_canon _ _ _ (scover0_mid c i arg2 harg2 arg3 harg3 arg4 harg4 arg5 harg5 hc0 hc1 x0 x1 xs)]
  unfold run0_mid
  dsimp only
  sl_unfold_words
  rw [View.canon_unit_zero (S := S1x1024) offs_zero]
  simp only [View.readAt_eq_ld, harg2.read_unread, harg3.read_unread, harg5.read_unread, View.ld_unit_zero (S := S1024x128) offs_zero,
    View.ld_unit_zero (S := S2048x128) offs_zero, View.ld_unit_zero (S := S1x1024) offs_zero]

/-- The last column block: the accumulator ends at the update of what it held, -/
theorem sout0_last_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 : Vec F S1024x128 .f32) (x1 : Vec F S2048x128 .f32) (xs : Vec F S1x1024 .f32) :
    sout0_last c i arg2 harg2 arg3 harg3 arg4 harg4 arg5 harg5 hc0 hc1 x0 x1 xs = k0_pay2 x0 x1 xs := by
  unfold sout0_last
  rw [View.read_writes_eq_canon _ _ _ (scover0_last c i arg2 harg2 arg3 harg3 arg4 harg4 arg5 harg5 hc0 hc1 x0 x1 xs)]
  unfold run0_last
  dsimp only
  sl_unfold_words
  rw [View.canon_unit_zero (S := S1x1024) offs_zero]
  simp only [View.readAt_eq_ld, harg2.read_unread, harg3.read_unread, harg5.read_unread, View.ld_unit_zero (S := S1024x128) offs_zero,
    View.ld_unit_zero (S := S2048x128) offs_zero, View.ld_unit_zero (S := S1x1024) offs_zero]

/-- and the output window's buffer receives that same row. -/
theorem out0_last_eq (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 : Vec F S1024x128 .f32) (x1 : Vec F S2048x128 .f32) (xs : Vec F S1x1024 .f32) :
    out0_last c i arg2 harg2 arg3 harg3 arg4 harg4 arg5 harg5 hc0 hc1 x0 x1 xs = k0_pay2 x0 x1 xs := by
  unfold out0_last
  rw [View.read_writes_eq_canon _ _ _ (cover0_last c i arg2 harg2 arg3 harg3 arg4 harg4 arg5 harg5 hc0 hc1 x0 x1 xs)]
  unfold run0_last
  dsimp only
  sl_unfold_words
  rw [View.canon_unit_zero (S := S1x1024) offs_zero, View.readCov_unit_zero (S := S1x1024) _ offs_zero]
  simp only [View.readAt_eq_ld, harg2.read_unread, harg3.read_unread, harg5.read_unread, View.ld_unit_zero (S := S1024x128) offs_zero,
    View.ld_unit_zero (S := S2048x128) offs_zero, View.ld_unit_zero (S := S1x1024) offs_zero]

end Cert.KernelIdeal.Hand

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.LibLift2.lean ====
/-
  The index a one-axis reduction of a matrix puts back: reducing an m × n matrix over its columns (axis 1) leaves a
  vector over the rows, and entry p of the result gathers the matrix entries (p, k); reducing over its rows (axis 0)
  leaves a vector over the columns, and entry t gathers the entries (k, t).
-/
import Idealize.ShloMosaic.PureOps.Reduce
import Idealize.ShloMosaic.Lib.ValueIdx

namespace Cert.Lift2

open Idealize.ShloMosaic Idealize.ShloMosaic.ValueIdx

/-- Row `p` of the reduced vector with column `k` put back is the matrix index (p, k). -/
theorem lift_axis1 {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- Column `t` of the reduced vector with row `k` put back is the matrix index (k, t). -/
theorem lift_axis0 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

end Cert.Lift2
-- ==== Proof.LibAxisFold.lean ====
/-
  One-axis reductions of a matrix of extended reals read at coordinates, with the accumulator word a VARIABLE.

  Over the columns (axis 1) of an m × n matrix, entry p of the sum is the sum over c of the entries (p, c); over the
  rows (axis 0), entry t is the sum over r of the entries (r, t).  A maximum taken from the accumulator's value is the
  fold of `max` from that value over the same entries.  The accumulator is any word that is the kind's neutral one, so
  the statements meet a printed reduction whatever proof terms it carries for that fact.
-/
import Idealize.ShloMosaic.PureOps.Ideal.Laws
import Idealize.ShloMosaic.Lib.ValueIdx
import proofs.«164734_j22230750724256_2_alg».proof.Proof.LibLift2

noncomputable section

open scoped BigOperators

namespace Cert.AxisFold

open Idealize.ShloMosaic Idealize.ShloMosaic.ValueIdx Cert.Lift2

/-- Entry `p` of the sum over the columns is the sum of row `p`. -/
theorem rowSum_acc {m n : Nat} (v : FVec Ideal ⟨2, ![m, n]⟩ .f32) (acc : BitVec FTy.f32.bits)
    (h : (⟨2, ![m, n]⟩ : Shape).Reduces [1] (⟨1, ![m]⟩ : Shape)) (hφ : FKind.Formats .f32)
    (hacc : acc = FKind.add.neutral .f32 hφ) (p : Fin m) :
    multiReduction .add [1] (⟨1, ![m]⟩ : Shape) v acc h hφ hacc (ix1 p) = ∑ c : Fin n, v (ix2 p c) := by
  refine (Ideal.multiReduction_add_single v acc h hφ hacc (ix1 p)).trans ?_
  show ∑ k : Fin n, v (h.lift (ix1 p) k) = _
  exact Finset.sum_congr rfl fun k _ => congrArg v (lift_axis1 h p k)

/-- Entry `t` of the sum over the rows is the sum of column `t`. -/
theorem colSum_acc {m n : Nat} (v : FVec Ideal ⟨2, ![m, n]⟩ .f32) (acc : BitVec FTy.f32.bits)
    (h : (⟨2, ![m, n]⟩ : Shape).Reduces [0] (⟨1, ![n]⟩ : Shape)) (hφ : FKind.Formats .f32)
    (hacc : acc = FKind.add.neutral .f32 hφ) (t : Fin n) :
    multiReduction .add [0] (⟨1, ![n]⟩ : Shape) v acc h hφ hacc (ix1 t) = ∑ r : Fin m, v (ix2 r t) := by
  refine (Ideal.multiReduction_add_single v acc h hφ hacc (ix1 t)).trans ?_
  show ∑ k : Fin m, v (h.lift (ix1 t) k) = _
  exact Finset.sum_congr rfl fun k _ => congrArg v (lift_axis0 h t k)

/-- Entry `p` of the maximum over the columns is the fold of `max` from the accumulator's value over row `p`. -/
theorem rowMax_fold {m n : Nat} (v : FVec Ideal ⟨2, ![m, n]⟩ .f32) (acc : BitVec FTy.f32.bits)
    (h : (⟨2, ![m, n]⟩ : Shape).Reduces [1] (⟨1, ![m]⟩ : Shape)) (hφ : FKind.Formats .f32)
    (hacc : acc = FKind.maximumf.neutral .f32 hφ) (p : Fin m) :
    multiReduction .maximumf [1] (⟨1, ![m]⟩ : Shape) v acc h hφ hacc (ix1 p)
      = (Finset.univ : Finset (Fin n)).fold max (Ideal.ofBits .f32 acc) (fun c : Fin n => v (ix2 p c)) := by
  refine (Ideal.multiReduction_maximumf_single v acc h hφ hacc (ix1 p)).trans ?_
  show (Finset.univ : Finset (Fin n)).fold max (Ideal.ofBits .f32 acc) (fun k : Fin n => v (h.lift (ix1 p) k)) = _
  exact congrArg (fun f => (Finset.univ : Finset (Fin n)).fold max (Ideal.ofBits .f32 acc) f)
    (funext fun k => congrArg v (lift_axis1 h p k))

/-- Entry `t` of the maximum over the rows is the fold of `max` from the accumulator's value over column `t`. -/
theorem colMax_fold {m n : Nat} (v : FVec Ideal ⟨2, ![m, n]⟩ .f32) (acc : BitVec FTy.f32.bits)
    (h : (⟨2, ![m, n]⟩ : Shape).Reduces [0] (⟨1, ![n]⟩ : Shape)) (hφ : FKind.Formats .f32)
    (hacc : acc = FKind.maximumf.neutral .f32 hφ) (t : Fin n) :
    multiReduction .maximumf [0] (⟨1, ![n]⟩ : Shape) v acc h hφ hacc (ix1 t)
      = (Finset.univ : Finset (Fin m)).fold max (Ideal.ofBits .f32 acc) (fun r : Fin m => v (ix2 r t)) := by
  refine (Ideal.multiReduction_maximumf_single v acc h hφ hacc (ix1 t)).trans ?_
  show (Finset.univ : Finset (Fin m)).fold max (Ideal.ofBits .f32 acc) (fun k : Fin m => v (h.lift (ix1 t) k)) = _
  exact congrArg (fun f => (Finset.univ : Finset (Fin m)).fold max (Ideal.ofBits .f32 acc) f)
    (funext fun k => congrArg v (lift_axis0 h t k))

end Cert.AxisFold

end
-- ==== Proof.PayRowsum.lean ====
/-
  The row-sum kernel's two stored values, read entry by entry on the extended reals.

  The first is the zero splat. The second adds, to the accumulator row read before it, the row sums of the
  exponentiated score block: entry r of the block's sums is the sum over the 2048 columns k of
  exp (∑ d, x (r, d) · y (k, d)), the scores being the product of the 1024 × 128 block x with the transpose of the
  2048 × 128 block y. A change of float format is the identity here, the transpose swaps the two coordinates, the
  product into the zero splat is the plain sum over the contracted axis, and the reduction over axis 1 from the
  neutral accumulator is the sum of a row.
-/
import proofs.«164734_j22230750724256_2_alg».proof.Proof.Gen.KernelIdeal.Skeleton
import proofs.«164734_j22230750724256_2_alg».proof.Proof.LibPlainDot
import proofs.«164734_j22230750724256_2_alg».proof.Proof.LibAxisFold
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Pay

open Idealize.ShloMosaic Idealize.ShloMosaic.ValueIdx Cert.KernelIdeal Cert.KernelIdeal.Gen

/-! ## The score product's dimension record: where its operands are read -/

theorem dotA_lhs0 (i : S1024x2048.Idx) (q : dot_S1024x128_S128x2048_S1024x2048_1_0_0_1_n_n.contr.Idx) :
    (dot_S1024x128_S128x2048_S1024x2048_1_0_0_1_n_n.lhsIdx i q (0 : Fin 2)).val = (i (0 : Fin 2)).val := by
  unfold DotDims.lhsIdx
  rw [dif_neg (show ¬(0 : Fin S1024x128.rank) ∈ dot_S1024x128_S128x2048_S1024x2048_1_0_0_1_n_n.lhsBatch by decide),
    dif_pos (show (0 : Fin S1024x128.rank) ∈ dot_S1024x128_S128x2048_S1024x2048_1_0_0_1_n_n.lhsNonContracting by decide)]
  rfl

theorem dotA_lhs1 (i : S1024x2048.Idx) (q : dot_S1024x128_S128x2048_S1024x2048_1_0_0_1_n_n.contr.Idx) :
    (dot_S1024x128_S128x2048_S1024x2048_1_0_0_1_n_n.lhsIdx i q (1 : Fin 2)).val = (q ⟨0, by decide⟩).val :=
  dot_S1024x128_S128x2048_S1024x2048_1_0_0_1_n_n.lhsIdx_val_of_single rfl i q

theorem dotA_rhs0 (i : S1024x2048.Idx) (q : dot_S1024x128_S128x2048_S1024x2048_1_0_0_1_n_n.contr.Idx) :
    (dot_S1024x128_S128x2048_S1024x2048_1_0_0_1_n_n.rhsIdx i q (0 : Fin 2)).val = (q ⟨0, by decide⟩).val :=
  dot_S1024x128_S128x2048_S1024x2048_1_0_0_1_n_n.rhsIdx_val_of_single rfl i q

theorem dotA_rhs1 (i : S1024x2048.Idx) (q : dot_S1024x128_S128x2048_S1024x2048_1_0_0_1_n_n.contr.Idx) :
    (dot_S1024x128_S128x2048_S1024x2048_1_0_0_1_n_n.rhsIdx i q (1 : Fin 2)).val = (i (1 : Fin 2)).val := by
  unfold DotDims.rhsIdx
  rw [dif_neg (show ¬(1 : Fin S128x2048.rank) ∈ dot_S1024x128_S128x2048_S1024x2048_1_0_0_1_n_n.rhsBatch by decide),
    dif_pos (show (1 : Fin S128x2048.rank) ∈ dot_S1024x128_S128x2048_S1024x2048_1_0_0_1_n_n.rhsNonContracting by decide)]
  rfl

/-! ## The stored values at an entry -/

/-- The value stored when the accumulator is reset is zero at every entry. -/
theorem k0_pay1_apply (j : S1x1024.Idx) : k0_pay1 (F := Ideal) j = 0 := by
  unfold k0_pay1
  rw [shapeCast_self]
  exact Ideal.ofBits_zero_f32

/-- Entry (r, k) of the score block: the inner product of row r of x with row k of y. -/
theorem k0_scores_apply (v3 : Vec Ideal S1024x128 .f32) (v5 : Vec Ideal S2048x128 .f32) (r : Fin 1024) (k : Fin 2048) :
    matmul dot_S1024x128_S128x2048_S1024x2048_1_0_0_1_n_n none (truncf .bf16 v3 bitsLt_bf16_f32)
        (transpose S128x2048 [1, 0] (truncf .bf16 v5 bitsLt_bf16_f32) transposes_S2048x128_p1_0_S128x2048)
        (constant (F := Ideal) S1024x2048 .f32 0x00000000#32) (ix2 r k)
      = ∑ d : Fin 128, v3 (ix2 r d) * v5 (ix2 k d) := by
  refine (Cert.Lib.PlainDot.matmul_zero_ix2 dot_S1024x128_S128x2048_S1024x2048_1_0_0_1_n_n rfl rfl
    dotA_lhs0 dotA_lhs1 dotA_rhs0 dotA_rhs1 none _ _ r k).trans ?_
  refine Finset.sum_congr rfl fun d _ => ?_
  rw [transpose_ix2_apply]
  rfl

/-- The accumulated row: the accumulator's entry plus the sum over the block's 2048 columns of the exponentiated scores of row r. -/
theorem k0_pay2_apply (v3 : Vec Ideal S1024x128 .f32) (v5 : Vec Ideal S2048x128 .f32) (v12 : Vec Ideal S1x1024 .f32)
    (r : Fin 1024) :
    k0_pay2 (F := Ideal) v3 v5 v12 (ix2 (0 : Fin 1) r)
      = v12 (ix2 (0 : Fin 1) r) + ∑ k : Fin 2048, Ideal.exp (∑ d : Fin 128, v3 (ix2 r d) * v5 (ix2 k d)) := by
  unfold k0_pay2
  rw [shapeCast_self]
  refine (addf_apply _ _ _).trans (congrArg (v12 (ix2 (0 : Fin 1) r) + ·) ?_)
  refine (shapeCast_a_1a_apply _ _ (0 : Fin 1) r).trans ?_
  refine (Cert.AxisFold.rowSum_acc _ _ _ _ _ r).trans ?_
  refine Finset.sum_congr rfl fun k _ => ?_
  exact congrArg Ideal.exp (k0_scores_apply v3 v5 r k)

end Cert.Pay

end
-- ==== Proof.Spec.lean ====
/-
  The specification: what the two results are, index by index, as functions of the two argument arrays, on the
  extended reals. Z is the [8192, 128] feature array and adj the [8192, 8192] adjacency array.

    score Z i j      = exp (∑ d, Z[i,d] * Z[j,d])      the exponential of the feature dot product
    rowsum Z j       = ∑ k, score Z j k                 the sum of row j of the scores
    alphaAt Z i j    = score Z i j / rowsum Z j         column j of the scores divided by rowsum j
    hfacAt Z adj i d = 1/2 * Z[i,d] + 1/2 * ∑ j, (alphaAt Z i j * adj[i,j]) * Z[j,d]

  alpha and hfac are the same two functions as arrays (functions of a rank-2 index). The one-half is kept as the
  word 0x3F000000 read at the ideal values; it is never evaluated. No program is imported here.
-/
import Idealize.ShloMosaic.PureOps.Ideal
import Idealize.ShloMosaic.Lib.ValueIdx

noncomputable section

open scoped BigOperators

namespace Cert.Spec

open Idealize.ShloMosaic Idealize.ShloMosaic.ValueIdx

/-- The shape of the feature array and of the second result. -/
abbrev SZ : Shape := ⟨2, ![8192, 128]⟩
/-- The shape of the adjacency array and of the first result. -/
abbrev SA : Shape := ⟨2, ![8192, 8192]⟩

/-- The exponential of the dot product of rows i and j of Z. -/
def score (Z : FVec Ideal SZ .f32) (i j : Fin 8192) : EReal :=
  Ideal.exp (∑ d : Fin 128, Z (ix2 i d) * Z (ix2 j d))

/-- The sum of row j of the scores. -/
def rowsum (Z : FVec Ideal SZ .f32) (j : Fin 8192) : EReal :=
  ∑ k : Fin 8192, score Z j k

/-- The score at (i, j) divided by the row sum of row j (the division runs along columns). -/
def alphaAt (Z : FVec Ideal SZ .f32) (i j : Fin 8192) : EReal :=
  Ideal.div (score Z i j) (rowsum Z j)

/-- One half of Z[i,d] plus one half of the adj-masked, normalized scores of row i applied to column d of Z. -/
def hfacAt (Z : FVec Ideal SZ .f32) (adj : FVec Ideal SA .f32) (i : Fin 8192) (d : Fin 128) : EReal :=
  Ideal.ofBits .f32 0x3F000000#32 * Z (ix2 i d)
    + Ideal.ofBits .f32 0x3F000000#32 * ∑ j : Fin 8192, (alphaAt Z i j * adj (ix2 i j)) * Z (ix2 j d)

/-- The first result as an array. -/
def alpha (Z : FVec Ideal SZ .f32) : FVec Ideal SA .f32 :=
  fun y => alphaAt Z (y 0) (y 1)

/-- The second result as an array. -/
def hfac (Z : FVec Ideal SZ .f32) (adj : FVec Ideal SA .f32) : FVec Ideal SZ .f32 :=
  fun y => hfacAt Z adj (y 0) (y 1)

/-- alpha at an index given by its coordinates. -/
theorem alpha_ix2 (Z : FVec Ideal SZ .f32) (i j : Fin 8192) :
    alpha Z (ix2 i j) = Ideal.div (score Z i j) (rowsum Z j) := rfl

/-- hfac at an index given by its coordinates. -/
theorem hfac_ix2 (Z : FVec Ideal SZ .f32) (adj : FVec Ideal SA .f32) (i : Fin 8192) (d : Fin 128) :
    hfac Z adj (ix2 i d)
      = Ideal.ofBits .f32 0x3F000000#32 * Z (ix2 i d)
        + Ideal.ofBits .f32 0x3F000000#32 * ∑ j : Fin 8192, (alphaAt Z i j * adj (ix2 i j)) * Z (ix2 j d) := rfl

/-- Division by one is the identity on every extended real, the infinities included: one is not zero, its inverse is
    one, and a product with one is the other factor. -/
theorem div_one (x : EReal) : Ideal.div x 1 = x := by
  unfold Ideal.div
  rw [if_neg one_ne_zero, inv_one, mul_one]

end Cert.Spec

end
-- ==== Proof.LibBlockSum.lean ====
/-
  Two laws about finite sums in a commutative monoid.

  The first splits a sum over `n * b` consecutive indices into `n` consecutive blocks of `b` indices each: the
  index `b * k + r` is the `r`-th index of block `k`. The second solves a running-total recurrence: a sequence that
  starts at `z + f 0` and gains `f (n + 1)` at each step is `z` plus the partial sum of `f`. The third is the same for
  a running total that starts afresh at every multiple of `b`.
-/
import Mathlib

namespace Cert.Lib.BlockSum

/-- The `r`-th index of block `k`, among `n` blocks of `b` indices each, is below `n * b`:
`b * k + r < b * k + b = b * (k + 1) ≤ b * n`. -/
theorem block_lt {n b : ℕ} (k : Fin n) (r : Fin b) : b * k.val + r.val < n * b :=
  calc b * k.val + r.val < b * k.val + b := Nat.add_lt_add_left r.isLt _
    _ = b * (k.val + 1) := (Nat.mul_succ b k.val).symm
    _ ≤ b * n := Nat.mul_le_mul_left b k.isLt
    _ = n * b := Nat.mul_comm b n

/-- A sum over `n * b` indices is the sum, over the `n` blocks, of each block's sum over its `b` indices. The map
`(k, r) ↦ b * k + r` is a bijection from pairs onto the indices, so the sum is re-indexed along it and then
written as an iterated sum. -/
theorem sum_blocks {M : Type*} [AddCommMonoid M] (n b : ℕ) (f : Fin (n * b) → M) :
    ∑ J, f J = ∑ k : Fin n, ∑ r : Fin b, f ⟨b * k.val + r.val, block_lt k r⟩ := by
  rw [← Equiv.sum_comp finProdFinEquiv f, Fintype.sum_prod_type]
  refine Finset.sum_congr rfl fun k _ => Finset.sum_congr rfl fun r _ => ?_
  exact congrArg f (Fin.ext (by simp [finProdFinEquiv, Nat.add_comm]))

/-- The case of 4096 indices read as 16 blocks of 256. -/
theorem sum_blocks_16_256 {M : Type*} [AddCommMonoid M] (f : Fin 4096 → M) :
    ∑ J, f J = ∑ k : Fin 16, ∑ r : Fin 256, f ⟨256 * k.val + r.val, by omega⟩ :=
  sum_blocks 16 256 f

/-- A running total: if `a 0 = z + f 0` and `a (n + 1) = a n + f (n + 1)` for every `n`, then `a n` is `z` plus the
sum of `f 0, …, f n`. By induction on `n`; the step peels the last term off the partial sum. -/
theorem acc_eq {M : Type*} [AddCommMonoid M] (z : M) (f a : ℕ → M) (h0 : a 0 = z + f 0)
    (hs : ∀ n, a (n + 1) = a n + f (n + 1)) (n : ℕ) :
    a n = z + ∑ k ∈ Finset.range (n + 1), f k := by
  induction n with
  | zero => rw [h0, Finset.sum_range_one]
  | succ n ih => rw [hs, ih, Finset.sum_range_succ _ (n + 1), add_assoc]

/-- An accumulator with resets: if at every step `n` that is a multiple of `b` the accumulator is set to `z + f n`,
and at every other step it adds `f n` to what the step before left, then `r` steps into block `q` (with `r < b`) it
holds `z` plus the block's first `r + 1` addends, `f (b * q), …, f (b * q + r)`. By induction on `r`: the block's first
step is a multiple of `b`; a later step `b * q + (r + 1)` has remainder `r + 1 ≠ 0`, so it adds its addend to the
total of the `r + 1` before it. -/
theorem acc_reset {M : Type*} [AddCommMonoid M] (b N : ℕ) (z : M) (a f : ℕ → M)
    (h0 : ∀ n, n < N → n % b = 0 → a n = z + f n)
    (hs : ∀ n, n < N → n % b ≠ 0 → a n = a (n - 1) + f n)
    (q r : ℕ) (hr : r < b) (hN : b * q + r < N) :
    a (b * q + r) = z + ∑ k ∈ Finset.range (r + 1), f (b * q + k) := by
  induction r with
  | zero =>
    rw [Finset.sum_range_one]
    exact h0 _ hN (by rw [Nat.add_zero, Nat.mul_mod_right])
  | succ r ih =>
    have hmod : (b * q + (r + 1)) % b ≠ 0 := by
      rw [Nat.mul_add_mod, Nat.mod_eq_of_lt hr]
      exact Nat.succ_ne_zero r
    rw [hs _ hN hmod, show b * q + (r + 1) - 1 = b * q + r by omega, ih (by omega) (by omega),
      Finset.sum_range_succ _ (r + 1), add_assoc]

end Cert.Lib.BlockSum
-- ==== Proof.BlockSums.lean ====
/-
  Regrouping the long sums, in any commutative additive monoid.

  A sum over the 8192 indices k is the sum over 4 blocks of 2048 consecutive indices (k = 2048 * kb + kk), and also
  the sum over 8 blocks of 1024 (k = 1024 * jb + jj): each index lies in exactly one block. An accumulator that starts
  at 0 + s 0 and gains s (n + 1) at step n + 1 holds, after step n, the sum of s 0, …, s n: zero plus a sum is the sum.
  A sum over the naturals below 4, or below 8, is the sum over the 4, or 8, block indices.
-/
import proofs.«164734_j22230750724256_2_alg».proof.Proof.LibBlockSum

open scoped BigOperators

namespace Cert.BlockSums

/-- 8192 indices as 4 blocks of 2048: the sum of the block sums is the whole sum. -/
theorem sum_4_2048 {M : Type*} [AddCommMonoid M] (f : Fin 8192 → M) :
    (∑ kb : Fin 4, ∑ kk : Fin 2048, f ⟨2048 * kb.val + kk.val, by omega⟩) = ∑ k, f k :=
  (Cert.Lib.BlockSum.sum_blocks 4 2048 f).symm

/-- 8192 indices as 8 blocks of 1024: the sum of the block sums is the whole sum. -/
theorem sum_8_1024 {M : Type*} [AddCommMonoid M] (f : Fin 8192 → M) :
    (∑ jb : Fin 8, ∑ jj : Fin 1024, f ⟨1024 * jb.val + jj.val, by omega⟩) = ∑ k, f k :=
  (Cert.Lib.BlockSum.sum_blocks 8 1024 f).symm

/-- An accumulator zeroed before its first step: after step n it holds the sum of the first n + 1 addends. -/
theorem acc_range {M : Type*} [AddCommMonoid M] (s acc : ℕ → M) (h0 : acc 0 = 0 + s 0)
    (hs : ∀ n, acc (n + 1) = acc n + s (n + 1)) (n : ℕ) :
    acc n = ∑ k ∈ Finset.range (n + 1), s k := by
  rw [Cert.Lib.BlockSum.acc_eq 0 s acc h0 hs n, zero_add]

/-- A sum over the naturals below 4 is the sum over the 4 block indices. -/
theorem sum_range_4 {M : Type*} [AddCommMonoid M] (s : ℕ → M) :
    ∑ k ∈ Finset.range 4, s k = ∑ kb : Fin 4, s kb.val :=
  (Fin.sum_univ_eq_sum_range s 4).symm

/-- A sum over the naturals below 8 is the sum over the 8 block indices. -/
theorem sum_range_8 {M : Type*} [AddCommMonoid M] (s : ℕ → M) :
    ∑ k ∈ Finset.range 8, s k = ∑ jb : Fin 8, s jb.val :=
  (Fin.sum_univ_eq_sum_range s 8).symm

/-- The two together: the accumulator after its last of 4 steps holds the sum over the 4 block indices. -/
theorem acc_last_4 {M : Type*} [AddCommMonoid M] (s acc : ℕ → M) (h0 : acc 0 = 0 + s 0)
    (hs : ∀ n, acc (n + 1) = acc n + s (n + 1)) : acc 3 = ∑ kb : Fin 4, s kb.val := by
  rw [acc_range s acc h0 hs 3, sum_range_4]

/-- The accumulator after its last of 8 steps holds the sum over the 8 block indices. -/
theorem acc_last_8 {M : Type*} [AddCommMonoid M] (s acc : ℕ → M) (h0 : acc 0 = 0 + s 0)
    (hs : ∀ n, acc (n + 1) = acc n + s (n + 1)) : acc 7 = ∑ jb : Fin 8, s jb.val := by
  rw [acc_range s acc h0 hs 7, sum_range_8]

end Cert.BlockSums
-- ==== Proof.KI.ValRowsum.lean ====
/-
  The row-sum kernel's output, point by point, on the extended reals.

  Point t of the 8 x 4 grid has row block t / 4 and column block t % 4. By the case equations of the recursion over
  the points, the accumulator after point t is the body's update of the zero row where t % 4 = 0 and of what point
  t - 1 left elsewhere; the update adds, at column r, the sum over the 2048 rows k of column block t % 4 of
  exp (∑ d, Z (i, d) · Z (k, d)), where i = 1024 (t / 4) + r is the row of the feature array Z that row r of the row
  block is. Zero plus the first addend is the first addend, so by induction on the point the accumulator after point t
  holds, at column r, the sum of the block sums of column blocks 0, …, t % 4 of row i. At t % 4 = 3 the output
  window's buffer receives the same row, and four blocks of 2048 indices are all 8192: the entry is the row sum of
  row i of the scores.
-/
import proofs.«164734_j22230750724256_2_alg».proof.Proof.KI.RowsumPieces
import proofs.«164734_j22230750724256_2_alg».proof.Proof.KI.Blocks
import proofs.«164734_j22230750724256_2_alg».proof.Proof.PayRowsum
import proofs.«164734_j22230750724256_2_alg».proof.Proof.Spec
import proofs.«164734_j22230750724256_2_alg».proof.Proof.BlockSums

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

/-! ## The recursion's components case by case, as the body's update (any float instance) -/

section
variable {F : FTy → Type} [FloatOps F]
variable (W : (c : Dev nD) → (b : Ref sig .tc) → Buf (Elt F) ((c : Thread nD τ).loc b))

/-- First column block: the accumulator is the update of the zero row. -/
theorem acc0_first (c : Dev nD) (t : Fin cfg0.N) (h0 : t.val % 4 = 0) (h1 : ¬t.val % 4 = 3) :
    (outsAt0 W c t.val t.isLt).2 = k0_pay2 (iblk0 W c 0 t) (iblk0 W c 1 t) (k0_pay1 (F := F)) := by
  rw [outsAt0_first W c t h0 h1]
  dsimp only
  rw [sout0_first_eq]

/-- An inner column block: the accumulator is the update of what the point before left. -/
theorem acc0_mid (c : Dev nD) (t : Fin cfg0.N) (h0 : ¬t.val % 4 = 0) (h1 : ¬t.val % 4 = 3) :
    (outsAt0 W c t.val t.isLt).2
      = k0_pay2 (iblk0 W c 0 t) (iblk0 W c 1 t) (outsAt0 W c (t.val - 1) (Nat.lt_of_le_of_lt (Nat.sub_le _ _) t.isLt)).2 := by
  rw [outsAt0_mid W c t h0 h1]
  dsimp only
  rw [sout0_mid_eq]

/-- The last column block: the accumulator is the update of what the point before left, -/
theorem acc0_last (c : Dev nD) (t : Fin cfg0.N) (h0 : ¬t.val % 4 = 0) (h1 : t.val % 4 = 3) :
    (outsAt0 W c t.val t.isLt).2
      = k0_pay2 (iblk0 W c 0 t) (iblk0 W c 1 t) (outsAt0 W c (t.val - 1) (Nat.lt_of_le_of_lt (Nat.sub_le _ _) t.isLt)).2 := by
  rw [outsAt0_last W c t h0 h1]
  dsimp only
  rw [sout0_last_eq]

/-- and the output window's buffer is that same row. -/
theorem out0_at_last (c : Dev nD) (t : Fin cfg0.N) (h0 : ¬t.val % 4 = 0) (h1 : t.val % 4 = 3) :
    (outsAt0 W c t.val t.isLt).1
      = k0_pay2 (iblk0 W c 0 t) (iblk0 W c 1 t) (outsAt0 W c (t.val - 1) (Nat.lt_of_le_of_lt (Nat.sub_le _ _) t.isLt)).2 := by
  rw [outsAt0_last W c t h0 h1]
  dsimp only
  rw [out0_last_eq]

end

/-! ## Sums over a block of 2048 consecutive indices -/

/-- The sum of f over the 2048 indices 2048 k', …, 2048 k' + 2047 (folded into range, so that it is stated for every k'). -/
def blockSum4 (f : Fin 8192 → EReal) (k' : ℕ) : EReal :=
  ∑ kk : Fin 2048, f ⟨(2048 * k' + kk.val) % 8192, Nat.mod_lt _ (by decide)⟩

/-- The four block sums add up to the sum over all 8192 indices. -/
theorem blockSum4_total (f : Fin 8192 → EReal) : ∑ k' ∈ Finset.range 4, blockSum4 f k' = ∑ k, f k := by
  rw [Cert.BlockSums.sum_range_4, ← Cert.BlockSums.sum_4_2048 f]
  unfold blockSum4
  refine Finset.sum_congr rfl fun kb _ => Finset.sum_congr rfl fun kk _ => ?_
  exact congrArg f (Fin.ext (Nat.mod_eq_of_lt (by have := kb.isLt; have := kk.isLt; omega)))

/-! ## The accumulator and the output at the ideal values -/

variable (V : (c : Dev nD) → (b : Ref sig .tc) → Buf (Elt Ideal) ((c : Thread nD τ).loc b))

/-- One update read at column r: what was there plus the block sum of column block m of row 1024 b + r of the scores. -/
theorem update0_at (c : Dev nD) (t : Fin cfg0.N) (b m : ℕ) (hb : t.val / 4 = b) (hm : t.val % 4 = m) (r : Fin 1024)
    (hi : 1024 * b + r.val < 8192) (xs : Vec Ideal S1x1024 .f32) :
    k0_pay2 (F := Ideal) (iblk0 V c 0 t) (iblk0 V c 1 t) xs (ix2 (0 : Fin 1) r)
      = xs (ix2 (0 : Fin 1) r) + blockSum4 (Cert.Spec.score (V c main_arg0) ⟨1024 * b + r.val, hi⟩) m := by
  subst hb hm
  refine (Cert.Pay.k0_pay2_apply (iblk0 V c 0 t) (iblk0 V c 1 t) xs r).trans ?_
  refine congrArg (xs (ix2 (0 : Fin 1) r) + ·) ?_
  unfold blockSum4 Cert.Spec.score
  refine Finset.sum_congr rfl fun kk _ => congrArg Ideal.exp (Finset.sum_congr rfl fun d _ => ?_)
  rw [iblk0_0_at V c t r d, iblk0_1_at V c t kk d]
  have e : (⟨(2048 * (t.val % 4) + kk.val) % 8192, Nat.mod_lt _ (by decide)⟩ : Fin 8192)
      = ⟨2048 * (t.val % 4) + kk.val, by have := t0_lt t; have := kk.isLt; omega⟩ :=
    Fin.ext (Nat.mod_eq_of_lt (by have := kk.isLt; omega))
  rw [e]

/-- A point of the first column block: the accumulator holds the first block sum. -/
theorem acc0_first_at (c : Dev nD) (t : Fin cfg0.N) (h0 : t.val % 4 = 0) (b : ℕ) (hb : t.val / 4 = b) (r : Fin 1024)
    (hi : 1024 * b + r.val < 8192) :
    (outsAt0 V c t.val t.isLt).2 (ix2 (0 : Fin 1) r)
      = ∑ k' ∈ Finset.range (0 + 1), blockSum4 (Cert.Spec.score (V c main_arg0) ⟨1024 * b + r.val, hi⟩) k' := by
  rw [acc0_first V c t h0 (by omega)]
  refine (update0_at V c t b 0 hb h0 r hi _).trans ?_
  rw [Cert.Pay.k0_pay1_apply, zero_add, Finset.sum_range_succ, Finset.sum_range_zero, zero_add]

/-- A later point: the accumulator gains the block sum of its column block. -/
theorem acc0_step_at (c : Dev nD) (t : Fin cfg0.N) (h0 : ¬t.val % 4 = 0) (b m : ℕ) (hb : t.val / 4 = b)
    (hm : t.val % 4 = m + 1) (r : Fin 1024) (hi : 1024 * b + r.val < 8192)
    (ih : (outsAt0 V c (t.val - 1) (Nat.lt_of_le_of_lt (Nat.sub_le _ _) t.isLt)).2 (ix2 (0 : Fin 1) r)
      = ∑ k' ∈ Finset.range (m + 1), blockSum4 (Cert.Spec.score (V c main_arg0) ⟨1024 * b + r.val, hi⟩) k') :
    (outsAt0 V c t.val t.isLt).2 (ix2 (0 : Fin 1) r)
      = ∑ k' ∈ Finset.range (m + 1 + 1), blockSum4 (Cert.Spec.score (V c main_arg0) ⟨1024 * b + r.val, hi⟩) k' := by
  have hacc : (outsAt0 V c t.val t.isLt).2
      = k0_pay2 (iblk0 V c 0 t) (iblk0 V c 1 t) (outsAt0 V c (t.val - 1) (Nat.lt_of_le_of_lt (Nat.sub_le _ _) t.isLt)).2 := by
    by_cases h1 : t.val % 4 = 3
    · exact acc0_last V c t h0 h1
    · exact acc0_mid V c t h0 h1
  rw [hacc]
  refine (update0_at V c t b (m + 1) hb hm r hi _).trans ?_
  rw [ih, Finset.sum_range_succ _ (m + 1)]

/-- After point n the accumulator holds, at column r, the block sums of column blocks 0, …, n % 4 of row 1024 (n / 4) + r. -/
theorem acc0_eq (c : Dev nD) : ∀ (n : ℕ) (hn : n < cfg0.N) (b m : ℕ), n / 4 = b → n % 4 = m → ∀ (r : Fin 1024)
    (hi : 1024 * b + r.val < 8192),
    (outsAt0 V c n hn).2 (ix2 (0 : Fin 1) r)
      = ∑ k' ∈ Finset.range (m + 1), blockSum4 (Cert.Spec.score (V c main_arg0) ⟨1024 * b + r.val, hi⟩) k' := by
  intro n
  induction n with
  | zero =>
    intro hn b m hb hm r hi
    obtain rfl : m = 0 := by omega
    exact acc0_first_at V c ⟨0, hn⟩ (Nat.zero_mod 4) b hb r hi
  | succ n ih =>
    intro hn b m hb hm r hi
    by_cases h0 : (n + 1) % 4 = 0
    · obtain rfl : m = 0 := by omega
      exact acc0_first_at V c ⟨n + 1, hn⟩ h0 b hb r hi
    · obtain ⟨m', rfl⟩ : ∃ m', m = m' + 1 := ⟨m - 1, by omega⟩
      exact acc0_step_at V c ⟨n + 1, hn⟩ h0 b m' hb hm r hi
        (ih (Nat.lt_of_succ_lt hn) b m' (by omega) (by omega) r hi)

/-- At a point of the last column block the output window's buffer holds, at column r, the row sum of row
    1024 (t / 4) + r of the scores. -/
theorem out0_rowsum (c : Dev nD) (t : Fin cfg0.N) (h3 : t.val % 4 = 3) (r : Fin 1024) :
    (outsAt0 V c t.val t.isLt).1 (ix2 (0 : Fin 1) r)
      = Cert.Spec.rowsum (V c main_arg0) ⟨1024 * (t.val / 4) + r.val, by have := t0_lt t; have := r.isLt; omega⟩ := by
  have h0 : ¬t.val % 4 = 0 := by omega
  have e1 : (outsAt0 V c t.val t.isLt).1 = (outsAt0 V c t.val t.isLt).2 :=
    (out0_at_last V c t h0 h3).trans (acc0_last V c t h0 h3).symm
  rw [e1, acc0_eq V c t.val t.isLt (t.val / 4) 3 rfl h3 r (by have := t0_lt t; have := r.isLt; omega)]
  exact blockSum4_total _

end Cert.KernelIdeal.Hand

end
-- ==== Proof.KI.MainPieces.lean ====
/-
  What each control case of the main kernel leaves, as the body's arithmetic applied to what the case read.

  Every load and every store of the body goes through the whole buffer (the rectangle at zero offsets of the
  buffer's own sizes), so a load reads the buffer's contents, the last store into a buffer leaves its value whatever
  was stored before, and a load of what one such store left reads that store's value. Hence, in every case the
  attention window's buffer receives the attention tile of the two feature blocks and the row-sum block; the
  accumulator ends at the update of the zero block where it is zeroed first and at the update of what it held
  elsewhere; and in the last column tile the result window's buffer receives one half of the row block of features
  plus one half of the updated accumulator.
-/
import proofs.«164734_j22230750724256_2_alg».proof.Proof.KI.MainFrame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem

variable {F : FTy → Type} [FloatOps F]

/-- The offsets of every rectangle of the body are zero. -/
theorem offs_zero1 : (![0, 0] : Fin 2 → Nat) = fun _ => 0 := funext fun a => by fin_cases a <;> rfl

/-! ## The attention window's buffer -/

/-- First column tile: the attention tile. -/
theorem out1_4_first_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i) (x0 : Vec F S1024x128 .f32) (x1 : Vec F S1024x128 .f32) (x2 : Vec F S1024x1024 .f32) (x3 : Vec F S1x1024 .f32) :
    out1_4_first c i arg2 harg2 arg3 harg3 arg4 harg4 arg5 harg5 arg6 harg6 arg7 harg7 arg8 harg8 hc0 hc1 x0 x1 x2 x3 = k1_pay3 x0 x1 x3 := by
  unfold out1_4_first
  rw [View.read_writes_eq_canon _ _ _ (cover1_4_first c i arg2 harg2 arg3 harg3 arg4 harg4 arg5 harg5 arg6 harg6 arg7 harg7 arg8 harg8 hc0 hc1 x0 x1 x2 x3)]
  unfold run1_first
  dsimp only
  sl_unfold_words
  rw [View.canon_unit_zero (S := S1024x1024) offs_zero1]
  simp only [View.readAt_eq_ld, harg2.read_unread, harg3.read_unread, harg4.read_unread, harg5.read_unread,
    View.ld_unit_zero (S := S1024x128) offs_zero1, View.ld_unit_zero (S := S1024x1024) offs_zero1, View.ld_unit_zero (S := S1x1024) offs_zero1]

/-- An inner column tile: the attention tile. -/
theorem out1_4_mid_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i) (x0 : Vec F S1024x128 .f32) (x1 : Vec F S1024x128 .f32) (x2 : Vec F S1024x1024 .f32) (x3 : Vec F S1x1024 .f32) (xs : Vec F S1024x128 .f32) :
    out1_4_mid c i arg2 harg2 arg3 harg3 arg4 harg4 arg5 harg5 arg6 harg6 arg7 harg7 arg8 harg8 hc0 hc1 x0 x1 x2 x3 xs = k1_pay3 x0 x1 x3 := by
  unfold out1_4_mid
  rw [View.read_writes_eq_canon _ _ _ (cover1_4_mid c i arg2 harg2 arg3 harg3 arg4 harg4 arg5 harg5 arg6 harg6 arg7 harg7 arg8 harg8 hc0 hc1 x0 x1 x2 x3 xs)]
  unfold run1_mid
  dsimp only
  sl_unfold_words
  rw [View.canon_unit_zero (S := S1024x1024) offs_zero1]
  simp only [View.readAt_eq_ld, harg2.read_unread, harg3.read_unread, harg4.read_unread, harg5.read_unread,
    View.ld_unit_zero (S := S1024x128) offs_zero1, View.ld_unit_zero (S := S1024x1024) offs_zero1, View.ld_unit_zero (S := S1x1024) offs_zero1]

/-- The last column tile: the attention tile. -/
theorem out1_4_last_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i) (x0 : Vec F S1024x128 .f32) (x1 : Vec F S1024x128 .f32) (x2 : Vec F S1024x1024 .f32) (x3 : Vec F S1x1024 .f32) (xs : Vec F S1024x128 .f32) :
    out1_4_last c i arg2 harg2 arg3 harg3 arg4 harg4 arg5 harg5 arg6 harg6 arg7 harg7 arg8 harg8 hc0 hc1 x0 x1 x2 x3 xs = k1_pay3 x0 x1 x3 := by
  unfold out1_4_last
  rw [View.read_writes_eq_canon _ _ _ (cover1_4_last c i arg2 harg2 arg3 harg3 arg4 harg4 arg5 harg5 arg6 harg6 arg7 harg7 arg8 harg8 hc0 hc1 x0 x1 x2 x3 xs)]
  unfold run1_last
  dsimp only
  sl_unfold_words
  rw [View.canon_unit_zero (S := S1024x1024) offs_zero1]
  simp only [View.readAt_eq_ld, harg2.read_unread, harg3.read_unread, harg4.read_unread, harg5.read_unread,
    View.ld_unit_zero (S := S1024x128) offs_zero1, View.ld_unit_zero (S := S1024x1024) offs_zero1, View.ld_unit_zero (S := S1x1024) offs_zero1]

/-! ## The accumulator -/

/-- First column tile: the accumulator ends at the update of the zero block. -/
theorem sout1_first_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : cond1_0 i) (hc1 : ¬cond1_1 i) (x0 : Vec F S1024x128 .f32) (x1 : Vec F S1024x128 .f32) (x2 : Vec F S1024x1024 .f32) (x3 : Vec F S1x1024 .f32) :
    sout1_first c i arg2 harg2 arg3 harg3 arg4 harg4 arg5 harg5 arg6 harg6 arg7 harg7 arg8 harg8 hc0 hc1 x0 x1 x2 x3 = k1_pay4 x0 x1 x3 x2 (k1_pay1 (F := F)) := by
  unfold sout1_first
  rw [View.read_writes_eq_canon _ _ _ (scover1_first c i arg2 harg2 arg3 harg3 arg4 harg4 arg5 harg5 arg6 harg6 arg7 harg7 arg8 harg8 hc0 hc1 x0 x1 x2 x3)]
  unfold run1_first
  dsimp only
  sl_unfold_words
  rw [View.canon_cons_unit_zero (S := S1024x128) offs_zero1, View.readCov_unit_zero (S := S1024x128) _ offs_zero1]
  simp only [View.readAt_eq_ld, harg2.read_unread, harg3.read_unread, harg4.read_unread, harg5.read_unread,
    View.ld_unit_zero (S := S1024x128) offs_zero1, View.ld_unit_zero (S := S1024x1024) offs_zero1, View.ld_unit_zero (S := S1x1024) offs_zero1]

/-- An inner column tile: the accumulator ends at the update of what it held. -/
theorem sout1_mid_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : ¬cond1_1 i) (x0 : Vec F S1024x128 .f32) (x1 : Vec F S1024x128 .f32) (x2 : Vec F S1024x1024 .f32) (x3 : Vec F S1x1024 .f32) (xs : Vec F S1024x128 .f32) :
    sout1_mid c i arg2 harg2 arg3 harg3 arg4 harg4 arg5 harg5 arg6 harg6 arg7 harg7 arg8 harg8 hc0 hc1 x0 x1 x2 x3 xs = k1_pay4 x0 x1 x3 x2 xs := by
  unfold sout1_mid
  rw [View.read_writes_eq_canon _ _ _ (scover1_mid c i arg2 harg2 arg3 harg3 arg4 harg4 arg5 harg5 arg6 harg6 arg7 harg7 arg8 harg8 hc0 hc1 x0 x1 x2 x3 xs)]
  unfold run1_mid
  dsimp only
  sl_unfold_words
  rw [View.canon_unit_zero (S := S1024x128) offs_zero1]
  simp only [View.readAt_eq_ld, harg2.read_unread, harg3.read_unread, harg4.read_unread, harg5.read_unread, harg8.read_unread,
    View.ld_unit_zero (S := S1024x128) offs_zero1, View.ld_unit_zero (S := S1024x1024) offs_zero1, View.ld_unit_zero (S := S1x1024) offs_zero1]

/-- The last column tile: the accumulator ends at the update of what it held, -/
theorem sout1_last_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i) (x0 : Vec F S1024x128 .f32) (x1 : Vec F S1024x128 .f32) (x2 : Vec F S1024x1024 .f32) (x3 : Vec F S1x1024 .f32) (xs : Vec F S1024x128 .f32) :
    sout1_last c i arg2 harg2 arg3 harg3 arg4 harg4 arg5 harg5 arg6 harg6 arg7 harg7 arg8 harg8 hc0 hc1 x0 x1 x2 x3 xs = k1_pay4 x0 x1 x3 x2 xs := by
  unfold sout1_last
  rw [View.read_writes_eq_canon _ _ _ (scover1_last c i arg2 harg2 arg3 harg3 arg4 harg4 arg5 harg5 arg6 harg6 arg7 harg7 arg8 harg8 hc0 hc1 x0 x1 x2 x3 xs)]
  unfold run1_last
  dsimp only
  sl_unfold_words
  rw [View.canon_unit_zero (S := S1024x128) offs_zero1]
  simp only [View.readAt_eq_ld, harg2.read_unread, harg3.read_unread, harg4.read_unread, harg5.read_unread, harg8.read_unread,
    View.ld_unit_zero (S := S1024x128) offs_zero1, View.ld_unit_zero (S := S1024x1024) offs_zero1, View.ld_unit_zero (S := S1x1024) offs_zero1]

/-! ## The result window's buffer -/

/-- and the result window's buffer receives one half of the row block plus one half of that updated accumulator. -/
theorem out1_5_last_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x128 .f32) (harg8 : arg8.IsWhole) (hc0 : ¬cond1_0 i) (hc1 : cond1_1 i) (x0 : Vec F S1024x128 .f32) (x1 : Vec F S1024x128 .f32) (x2 : Vec F S1024x1024 .f32) (x3 : Vec F S1x1024 .f32) (xs : Vec F S1024x128 .f32) :
    out1_5_last c i arg2 harg2 arg3 harg3 arg4 harg4 arg5 harg5 arg6 harg6 arg7 harg7 arg8 harg8 hc0 hc1 x0 x1 x2 x3 xs = k1_pay5 x0 (k1_pay4 x0 x1 x3 x2 xs) := by
  unfold out1_5_last
  rw [View.read_writes_eq_canon _ _ _ (cover1_5_last c i arg2 harg2 arg3 harg3 arg4 harg4 arg5 harg5 arg6 harg6 arg7 harg7 arg8 harg8 hc0 hc1 x0 x1 x2 x3 xs)]
  unfold run1_last
  dsimp only
  sl_unfold_words
  rw [View.canon_unit_zero (S := S1024x128) offs_zero1, View.readCov_unit_zero (S := S1024x128) _ offs_zero1]
  simp only [View.readAt_eq_ld, harg2.read_unread, harg3.read_unread, harg4.read_unread, harg5.read_unread, harg8.read_unread,
    View.ld_unit_zero (S := S1024x128) offs_zero1, View.ld_unit_zero (S := S1024x1024) offs_zero1, View.ld_unit_zero (S := S1x1024) offs_zero1]

end Cert.KernelIdeal.Hand

end
-- ==== Proof.PayMain.lean ====
/-
  The main kernel's stored values, read entry by entry on the extended reals.

  With x the 1024 × 128 block of rows i, y the 1024 × 128 block of rows j, s the row of 1024 row sums of block j,
  a the 1024 × 1024 adjacency tile and c the 1024 × 128 accumulator read before the update:

    the attention tile     alpha (p, q) = exp (∑ d, x (p, d) · y (q, d)) / s (0, q),
    the updated accumulator       (p, d) ↦ c (p, d) + ∑ q, (alpha (p, q) · a (p, q)) · y (q, d),
    the result block              (p, d) ↦ ½ · u (p, d) + ½ · w (p, d),

  and the value stored when the accumulator is reset is zero. A change of float format is the identity here, a
  transpose swaps the two coordinates, a product into the zero splat is the plain sum over the contracted axis, and
  the one-row broadcast reads its row at the column's coordinate.
-/
import proofs.«164734_j22230750724256_2_alg».proof.Proof.Gen.KernelIdeal.Skeleton
import proofs.«164734_j22230750724256_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Pay

open Idealize.ShloMosaic Idealize.ShloMosaic.ValueIdx Cert.KernelIdeal Cert.KernelIdeal.Gen

/-! ## The two products' dimension records: where their operands are read -/

theorem dotB_lhs0 (i : S1024x1024.Idx) (q : dot_S1024x128_S128x1024_S1024x1024_1_0_0_1_n_n.contr.Idx) :
    (dot_S1024x128_S128x1024_S1024x1024_1_0_0_1_n_n.lhsIdx i q (0 : Fin 2)).val = (i (0 : Fin 2)).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl

theorem dotB_lhs1 (i : S1024x1024.Idx) (q : dot_S1024x128_S128x1024_S1024x1024_1_0_0_1_n_n.contr.Idx) :
    (dot_S1024x128_S128x1024_S1024x1024_1_0_0_1_n_n.lhsIdx i q (1 : Fin 2)).val = (q ⟨0, by decide⟩).val :=
  dot_S1024x128_S128x1024_S1024x1024_1_0_0_1_n_n.lhsIdx_val_of_single rfl i q

theorem dotB_rhs0 (i : S1024x1024.Idx) (q : dot_S1024x128_S128x1024_S1024x1024_1_0_0_1_n_n.contr.Idx) :
    (dot_S1024x128_S128x1024_S1024x1024_1_0_0_1_n_n.rhsIdx i q (0 : Fin 2)).val = (q ⟨0, by decide⟩).val :=
  dot_S1024x128_S128x1024_S1024x1024_1_0_0_1_n_n.rhsIdx_val_of_single rfl i q

theorem dotB_rhs1 (i : S1024x1024.Idx) (q : dot_S1024x128_S128x1024_S1024x1024_1_0_0_1_n_n.contr.Idx) :
    (dot_S1024x128_S128x1024_S1024x1024_1_0_0_1_n_n.rhsIdx i q (1 : Fin 2)).val = (i (1 : Fin 2)).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

theorem dotC_lhs0 (i : S1024x128.Idx) (q : dot_S1024x1024_S1024x128_S1024x128_1_0_0_1_n_n.contr.Idx) :
    (dot_S1024x1024_S1024x128_S1024x128_1_0_0_1_n_n.lhsIdx i q (0 : Fin 2)).val = (i (0 : Fin 2)).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl

theorem dotC_lhs1 (i : S1024x128.Idx) (q : dot_S1024x1024_S1024x128_S1024x128_1_0_0_1_n_n.contr.Idx) :
    (dot_S1024x1024_S1024x128_S1024x128_1_0_0_1_n_n.lhsIdx i q (1 : Fin 2)).val = (q ⟨0, by decide⟩).val :=
  dot_S1024x1024_S1024x128_S1024x128_1_0_0_1_n_n.lhsIdx_val_of_single rfl i q

theorem dotC_rhs0 (i : S1024x128.Idx) (q : dot_S1024x1024_S1024x128_S1024x128_1_0_0_1_n_n.contr.Idx) :
    (dot_S1024x1024_S1024x128_S1024x128_1_0_0_1_n_n.rhsIdx i q (0 : Fin 2)).val = (q ⟨0, by decide⟩).val :=
  dot_S1024x1024_S1024x128_S1024x128_1_0_0_1_n_n.rhsIdx_val_of_single rfl i q

theorem dotC_rhs1 (i : S1024x128.Idx) (q : dot_S1024x1024_S1024x128_S1024x128_1_0_0_1_n_n.contr.Idx) :
    (dot_S1024x1024_S1024x128_S1024x128_1_0_0_1_n_n.rhsIdx i q (1 : Fin 2)).val = (i (1 : Fin 2)).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-! ## The stored values at an entry -/

/-- The one half both terms of the result are scaled by, kept as its bit pattern. -/
abbrev half : EReal := Ideal.ofBits .f32 0x3F000000#32

/-- The value stored when the accumulator is reset is zero at every entry. -/
theorem k1_pay1_apply (j : S1024x128.Idx) : k1_pay1 (F := Ideal) j = 0 := by
  unfold k1_pay1
  rw [shapeCast_self]
  exact Ideal.ofBits_zero_f32

/-- The narrowed block is the block. -/
theorem k1_pay2_apply (v5 : Vec Ideal S1024x128 .f32) (j : S1024x128.Idx) : k1_pay2 (F := Ideal) v5 j = v5 j := rfl

/-- Entry (p, q) of the score tile: the inner product of row p of x with row q of y. -/
theorem k1_scores_apply (v3 : Vec Ideal S1024x128 .f32) (v5 : Vec Ideal S1024x128 .f32) (p q : Fin 1024) :
    matmul dot_S1024x128_S128x1024_S1024x1024_1_0_0_1_n_n none (truncf .bf16 v3 bitsLt_bf16_f32)
        (transpose S128x1024 [1, 0] (k1_pay2 (F := Ideal) v5) transposes_S1024x128_p1_0_S128x1024)
        (constant (F := Ideal) S1024x1024 .f32 0x00000000#32) (ix2 p q)
      = ∑ d : Fin 128, v3 (ix2 p d) * v5 (ix2 q d) := by
  refine (Cert.Lib.PlainDot.matmul_zero_ix2 dot_S1024x128_S128x1024_S1024x1024_1_0_0_1_n_n rfl rfl
    dotB_lhs0 dotB_lhs1 dotB_rhs0 dotB_rhs1 none _ _ p q).trans ?_
  refine Finset.sum_congr rfl fun d _ => ?_
  rw [transpose_ix2_apply]
  rfl

/-- The attention tile: the exponentiated score divided by the column's row sum. -/
theorem k1_pay3_apply (v3 : Vec Ideal S1024x128 .f32) (v5 : Vec Ideal S1024x128 .f32) (v10 : Vec Ideal S1x1024 .f32)
    (p q : Fin 1024) :
    k1_pay3 (F := Ideal) v3 v5 v10 (ix2 p q)
      = Ideal.div (Ideal.exp (∑ d : Fin 128, v3 (ix2 p d) * v5 (ix2 q d))) (v10 (ix2 (0 : Fin 1) q)) := by
  unfold k1_pay3
  refine (divf_apply _ _ _).trans ?_
  rw [shapeCast_self, broadcastTo_1b_ab_apply]
  exact congrArg (fun t => Ideal.div (Ideal.exp t) (v10 (ix2 (0 : Fin 1) q))) (k1_scores_apply v3 v5 p q)

/-- The updated accumulator: the accumulator's entry plus the sum over the tile's 1024 columns of the masked attention weight times y. -/
theorem k1_pay4_apply (v3 : Vec Ideal S1024x128 .f32) (v5 : Vec Ideal S1024x128 .f32) (v10 : Vec Ideal S1x1024 .f32)
    (v15 : Vec Ideal S1024x1024 .f32) (v17 : Vec Ideal S1024x128 .f32) (p : Fin 1024) (d : Fin 128) :
    k1_pay4 (F := Ideal) v3 v5 v10 v15 v17 (ix2 p d)
      = v17 (ix2 p d) + ∑ q : Fin 1024, (k1_pay3 (F := Ideal) v3 v5 v10 (ix2 p q) * v15 (ix2 p q)) * v5 (ix2 q d) := by
  unfold k1_pay4
  rw [shapeCast_self]
  refine (addf_apply _ _ _).trans (congrArg (v17 (ix2 p d) + ·) ?_)
  exact Cert.Lib.PlainDot.matmul_zero_ix2 dot_S1024x1024_S1024x128_S1024x128_1_0_0_1_n_n rfl rfl
    dotC_lhs0 dotC_lhs1 dotC_rhs0 dotC_rhs1 none _ _ p d

/-- The result block: one half of each of the two blocks read, added. -/
theorem k1_pay5_apply (v27 : Vec Ideal S1024x128 .f32) (v30 : Vec Ideal S1024x128 .f32) (p : Fin 1024) (d : Fin 128) :
    k1_pay5 (F := Ideal) v27 v30 (ix2 p d) = half * v27 (ix2 p d) + half * v30 (ix2 p d) := rfl

end Cert.Pay

end
-- ==== Proof.KI.ValMain.lean ====
/-
  The main kernel's two outputs, point by point, on the extended reals.

  Point t of the 8 x 8 grid has row tile t / 8 and column tile t % 8; write i = 1024 (t / 8) + p for the row of the
  arrays that row p of the row tile is, and j = 1024 (t % 8) + q for the column that column q of the column tile is.
  With Z the feature array, A the adjacency array and S the [1, 8192] array of row sums the first kernel left:

  At every point the attention window's buffer holds, at (p, q), exp (∑ d, Z (i, d) · Z (j, d)) / S (0, j).

  By the case equations of the recursion over the points, the accumulator after point t is the body's update of the
  zero block where t % 8 = 0 and of what point t - 1 left elsewhere; the update adds, at (p, d), the sum over the
  1024 columns j of column tile t % 8 of (attention (i, j) · A (i, j)) · Z (j, d). Zero plus the first addend is the
  first addend, so by induction on the point the accumulator after point t holds the sum of the tile sums of column
  tiles 0, …, t % 8. At t % 8 = 7 the result window's buffer receives one half of Z (i, d) plus one half of the
  accumulator, and eight tiles of 1024 columns are all 8192.
-/
import proofs.«164734_j22230750724256_2_alg».proof.Proof.KI.MainPieces
import proofs.«164734_j22230750724256_2_alg».proof.Proof.KI.Blocks
import proofs.«164734_j22230750724256_2_alg».proof.Proof.PayMain
import proofs.«164734_j22230750724256_2_alg».proof.Proof.Spec
import proofs.«164734_j22230750724256_2_alg».proof.Proof.BlockSums

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

/-! ## The recursion's components case by case, as the body's arithmetic (any float instance) -/

section
variable {F : FTy → Type} [FloatOps F]
variable (W : (c : Dev nD) → (b : Ref sig .tc) → Buf (Elt F) ((c : Thread nD τ).loc b))

/-- At every point the attention window's buffer is the attention tile of the point's blocks. -/
theorem att1_eq (c : Dev nD) (t : Fin cfg1.N) :
    (outsAt1 W c t.val t.isLt).1 = k1_pay3 (iblk1 W c 0 t) (iblk1 W c 1 t) (iblk1 W c 3 t) := by
  by_cases h0 : t.val % 8 = 0
  · rw [outsAt1_first W c t h0 (by omega)]
    dsimp only
    rw [out1_4_first_eq]
  · by_cases h1 : t.val % 8 = 7
    · rw [outsAt1_last W c t h0 h1]
      dsimp only
      rw [out1_4_last_eq]
    · rw [outsAt1_mid W c t h0 h1]
      dsimp only
      rw [out1_4_mid_eq]

/-- First column tile: the accumulator is the update of the zero block. -/
theorem acc1_first (c : Dev nD) (t : Fin cfg1.N) (h0 : t.val % 8 = 0) (h1 : ¬t.val % 8 = 7) :
    (outsAt1 W c t.val t.isLt).2.2 = k1_pay4 (iblk1 W c 0 t) (iblk1 W c 1 t) (iblk1 W c 3 t) (iblk1 W c 2 t) (k1_pay1 (F := F)) := by
  rw [outsAt1_first W c t h0 h1]
  dsimp only
  rw [sout1_first_eq]

/-- A later column tile: the accumulator is the update of what the point before left, -/
theorem acc1_later (c : Dev nD) (t : Fin cfg1.N) (h0 : ¬t.val % 8 = 0) :
    (outsAt1 W c t.val t.isLt).2.2 = k1_pay4 (iblk1 W c 0 t) (iblk1 W c 1 t) (iblk1 W c 3 t) (iblk1 W c 2 t) (outsAt1 W c (t.val - 1) (Nat.lt_of_le_of_lt (Nat.sub_le _ _) t.isLt)).2.2 := by
  by_cases h1 : t.val % 8 = 7
  · rw [outsAt1_last W c t h0 h1]
    dsimp only
    rw [sout1_last_eq]
  · rw [outsAt1_mid W c t h0 h1]
    dsimp only
    rw [sout1_mid_eq]

/-- and at the last column tile the result window's buffer is one half of the row block plus one half of that update. -/
theorem res1_last (c : Dev nD) (t : Fin cfg1.N) (h0 : ¬t.val % 8 = 0) (h1 : t.val % 8 = 7) :
    (outsAt1 W c t.val t.isLt).2.1 = k1_pay5 (iblk1 W c 0 t) (k1_pay4 (iblk1 W c 0 t) (iblk1 W c 1 t) (iblk1 W c 3 t) (iblk1 W c 2 t) (outsAt1 W c (t.val - 1) (Nat.lt_of_le_of_lt (Nat.sub_le _ _) t.isLt)).2.2) := by
  rw [outsAt1_last W c t h0 h1]
  dsimp only
  rw [out1_5_last_eq]

end

/-! ## Sums over a tile of 1024 consecutive indices -/

/-- The sum of f over the 1024 indices 1024 j', …, 1024 j' + 1023 (folded into range, so that it is stated for every j'). -/
def blockSum8 (f : Fin 8192 → EReal) (j' : ℕ) : EReal :=
  ∑ q : Fin 1024, f ⟨(1024 * j' + q.val) % 8192, Nat.mod_lt _ (by decide)⟩

/-- The eight tile sums add up to the sum over all 8192 indices. -/
theorem blockSum8_total (f : Fin 8192 → EReal) : ∑ j' ∈ Finset.range 8, blockSum8 f j' = ∑ j, f j := by
  rw [Cert.BlockSums.sum_range_8, ← Cert.BlockSums.sum_8_1024 f]
  unfold blockSum8
  refine Finset.sum_congr rfl fun jb _ => Finset.sum_congr rfl fun q _ => ?_
  exact congrArg f (Fin.ext (Nat.mod_eq_of_lt (by have := jb.isLt; have := q.isLt; omega)))

/-- The addend of column j in entry (i, d) of the aggregation: the attention weight, masked by the adjacency, times Z (j, d). -/
def aggTerm (Z : FVec Ideal Cert.Spec.SZ .f32) (A : FVec Ideal Cert.Spec.SA .f32) (S : FVec Ideal S1x8192 .f32)
    (i : Fin 8192) (d : Fin 128) (j : Fin 8192) : EReal :=
  (Ideal.div (Cert.Spec.score Z i j) (S (ix2 (0 : Fin 1) j)) * A (ix2 i j)) * Z (ix2 j d)

/-! ## The outputs and the accumulator at the ideal values -/

variable (V : (c : Dev nD) → (b : Ref sig .tc) → Buf (Elt Ideal) ((c : Thread nD τ).loc b))

/-- The attention tile of a point's blocks at (p, q), in the arrays' coordinates. -/
theorem pay3_at (c : Dev nD) (t : Fin cfg1.N) (p q : Fin 1024) :
    k1_pay3 (F := Ideal) (iblk1 V c 0 t) (iblk1 V c 1 t) (iblk1 V c 3 t) (ix2 p q)
      = Ideal.div (Cert.Spec.score (V c main_arg0)
            ⟨1024 * (t.val / 8) + p.val, by have := t1_lt t; have := p.isLt; omega⟩
            ⟨1024 * (t.val % 8) + q.val, by have := t1_lt t; have := q.isLt; omega⟩)
          ((V c main_v0 : FVec Ideal S1x8192 .f32) (ix2 (0 : Fin 1) ⟨1024 * (t.val % 8) + q.val, by have := t1_lt t; have := q.isLt; omega⟩)) := by
  refine (Cert.Pay.k1_pay3_apply (iblk1 V c 0 t) (iblk1 V c 1 t) (iblk1 V c 3 t) p q).trans ?_
  unfold Cert.Spec.score
  refine congrArg₂ Ideal.div (congrArg Ideal.exp (Finset.sum_congr rfl fun d _ => ?_)) (iblk1_3_at V c t (0 : Fin 1) q)
  rw [iblk1_0_at V c t p d, iblk1_1_at V c t q d]

/-- (M1) At every point the attention window's buffer holds the score divided by the column's row sum. -/
theorem out1_attention (c : Dev nD) (t : Fin cfg1.N) (p q : Fin 1024) :
    (outsAt1 V c t.val t.isLt).1 (ix2 p q)
      = Ideal.div (Cert.Spec.score (V c main_arg0)
            ⟨1024 * (t.val / 8) + p.val, by have := t1_lt t; have := p.isLt; omega⟩
            ⟨1024 * (t.val % 8) + q.val, by have := t1_lt t; have := q.isLt; omega⟩)
          ((V c main_v0 : FVec Ideal S1x8192 .f32) (ix2 (0 : Fin 1) ⟨1024 * (t.val % 8) + q.val, by have := t1_lt t; have := q.isLt; omega⟩)) := by
  rw [att1_eq V c t]
  exact pay3_at V c t p q

/-- One update read at (p, d): what was there plus the tile sum of column tile m of the aggregation's addends of row 1024 b + p. -/
theorem update1_at (c : Dev nD) (t : Fin cfg1.N) (b m : ℕ) (hb : t.val / 8 = b) (hm : t.val % 8 = m) (p : Fin 1024) (d : Fin 128)
    (hi : 1024 * b + p.val < 8192) (xs : Vec Ideal S1024x128 .f32) :
    k1_pay4 (F := Ideal) (iblk1 V c 0 t) (iblk1 V c 1 t) (iblk1 V c 3 t) (iblk1 V c 2 t) xs (ix2 p d)
      = xs (ix2 p d) + blockSum8 (aggTerm (V c main_arg0) (V c main_arg1) (V c main_v0) ⟨1024 * b + p.val, hi⟩ d) m := by
  subst hb hm
  refine (Cert.Pay.k1_pay4_apply (iblk1 V c 0 t) (iblk1 V c 1 t) (iblk1 V c 3 t) (iblk1 V c 2 t) xs p d).trans ?_
  refine congrArg (xs (ix2 p d) + ·) ?_
  unfold blockSum8
  refine Finset.sum_congr rfl fun q _ => ?_
  have e : (⟨(1024 * (t.val % 8) + q.val) % 8192, Nat.mod_lt _ (by decide)⟩ : Fin 8192)
      = ⟨1024 * (t.val % 8) + q.val, by have := t1_lt t; have := q.isLt; omega⟩ :=
    Fin.ext (Nat.mod_eq_of_lt (by have := q.isLt; omega))
  rw [e, pay3_at V c t p q, iblk1_2_at V c t p q, iblk1_1_at V c t q d]
  rfl

/-- A point of the first column tile: the accumulator holds the first tile sum. -/
theorem acc1_first_at (c : Dev nD) (t : Fin cfg1.N) (h0 : t.val % 8 = 0) (b : ℕ) (hb : t.val / 8 = b) (p : Fin 1024) (d : Fin 128)
    (hi : 1024 * b + p.val < 8192) :
    (outsAt1 V c t.val t.isLt).2.2 (ix2 p d)
      = ∑ j' ∈ Finset.range (0 + 1), blockSum8 (aggTerm (V c main_arg0) (V c main_arg1) (V c main_v0) ⟨1024 * b + p.val, hi⟩ d) j' := by
  rw [acc1_first V c t h0 (by omega)]
  refine (update1_at V c t b 0 hb h0 p d hi _).trans ?_
  rw [Cert.Pay.k1_pay1_apply, zero_add, Finset.sum_range_succ, Finset.sum_range_zero, zero_add]

/-- A later point: the accumulator gains the tile sum of its column tile. -/
theorem acc1_step_at (c : Dev nD) (t : Fin cfg1.N) (h0 : ¬t.val % 8 = 0) (b m : ℕ) (hb : t.val / 8 = b)
    (hm : t.val % 8 = m + 1) (p : Fin 1024) (d : Fin 128) (hi : 1024 * b + p.val < 8192)
    (ih : (outsAt1 V c (t.val - 1) (Nat.lt_of_le_of_lt (Nat.sub_le _ _) t.isLt)).2.2 (ix2 p d)
      = ∑ j' ∈ Finset.range (m + 1), blockSum8 (aggTerm (V c main_arg0) (V c main_arg1) (V c main_v0) ⟨1024 * b + p.val, hi⟩ d) j') :
    (outsAt1 V c t.val t.isLt).2.2 (ix2 p d)
      = ∑ j' ∈ Finset.range (m + 1 + 1), blockSum8 (aggTerm (V c main_arg0) (V c main_arg1) (V c main_v0) ⟨1024 * b + p.val, hi⟩ d) j' := by
  rw [acc1_later V c t h0]
  refine (update1_at V c t b (m + 1) hb hm p d hi _).trans ?_
  rw [ih, Finset.sum_range_succ _ (m + 1)]

/-- After point n the accumulator holds, at (p, d), the tile sums of column tiles 0, …, n % 8 of row 1024 (n / 8) + p. -/
theorem acc1_eq (c : Dev nD) : ∀ (n : ℕ) (hn : n < cfg1.N) (b m : ℕ), n / 8 = b → n % 8 = m → ∀ (p : Fin 1024) (d : Fin 128)
    (hi : 1024 * b + p.val < 8192),
    (outsAt1 V c n hn).2.2 (ix2 p d)
      = ∑ j' ∈ Finset.range (m + 1), blockSum8 (aggTerm (V c main_arg0) (V c main_arg1) (V c main_v0) ⟨1024 * b + p.val, hi⟩ d) j' := by
  intro n
  induction n with
  | zero =>
    intro hn b m hb hm p d hi
    obtain rfl : m = 0 := by omega
    exact acc1_first_at V c ⟨0, hn⟩ (Nat.zero_mod 8) b hb p d hi
  | succ n ih =>
    intro hn b m hb hm p d hi
    by_cases h0 : (n + 1) % 8 = 0
    · obtain rfl : m = 0 := by omega
      exact acc1_first_at V c ⟨n + 1, hn⟩ h0 b hb p d hi
    · obtain ⟨m', rfl⟩ : ∃ m', m = m' + 1 := ⟨m - 1, by omega⟩
      exact acc1_step_at V c ⟨n + 1, hn⟩ h0 b m' hb hm p d hi
        (ih (Nat.lt_of_succ_lt hn) b m' (by omega) (by omega) p d hi)

/-- (M2) At a point of the last column tile the result window's buffer holds, at (p, d), one half of Z (i, d) plus one
    half of the sum over all 8192 columns j of (attention (i, j) · A (i, j)) · Z (j, d), i = 1024 (t / 8) + p. -/
theorem out1_result (c : Dev nD) (t : Fin cfg1.N) (h7 : t.val % 8 = 7) (p : Fin 1024) (d : Fin 128) :
    (outsAt1 V c t.val t.isLt).2.1 (ix2 p d)
      = Cert.Pay.half * (V c main_arg0 : FVec Ideal Cert.Spec.SZ .f32) (ix2 ⟨1024 * (t.val / 8) + p.val, by have := t1_lt t; have := p.isLt; omega⟩ d)
        + Cert.Pay.half * ∑ j : Fin 8192,
            (Ideal.div (Cert.Spec.score (V c main_arg0) ⟨1024 * (t.val / 8) + p.val, by have := t1_lt t; have := p.isLt; omega⟩ j)
                ((V c main_v0 : FVec Ideal S1x8192 .f32) (ix2 (0 : Fin 1) j))
              * (V c main_arg1 : FVec Ideal Cert.Spec.SA .f32) (ix2 ⟨1024 * (t.val / 8) + p.val, by have := t1_lt t; have := p.isLt; omega⟩ j))
            * (V c main_arg0 : FVec Ideal Cert.Spec.SZ .f32) (ix2 j d) := by
  have h0 : ¬t.val % 8 = 0 := by omega
  rw [res1_last V c t h0 h7, ← acc1_later V c t h0]
  refine (Cert.Pay.k1_pay5_apply (iblk1 V c 0 t) (outsAt1 V c t.val t.isLt).2.2 p d).trans ?_
  rw [iblk1_0_at V c t p d,
    acc1_eq V c t.val t.isLt (t.val / 8) 7 rfl h7 p d (by have := t1_lt t; have := p.isLt; omega)]
  exact congrArg (fun s => Cert.Pay.half * (V c main_arg0 : FVec Ideal Cert.Spec.SZ .f32) (ix2 ⟨1024 * (t.val / 8) + p.val, by have := t1_lt t; have := p.isLt; omega⟩ d) + Cert.Pay.half * s)
    (blockSum8_total _)

end Cert.KernelIdeal.Hand

end
-- ==== Proof.KI.ValFinal.lean ====
/-
  The kernels' result arrays at the ideal instance, as the specification's functions of the argument arrays.
  What a grid point writes back is the block, at that point, of one whole-array function: for the row-sum kernel
  the row sums of the exp-scores (the accumulator summed over the four column blocks); for the main kernel's first
  output the scores divided by the column's row sum, and for its second one half of the features plus one half of
  the accumulated product (summed over the eight column tiles). The output blocks tile their arrays, so each array
  ends holding that function. The main kernel reads the row sums from the array the row-sum kernel left.
-/
import proofs.«164734_j22230750724256_2_alg».proof.Proof.KI.Run
import proofs.«164734_j22230750724256_2_alg».proof.Proof.KI.Blocks
import proofs.«164734_j22230750724256_2_alg».proof.Proof.KI.ValRowsum
import proofs.«164734_j22230750724256_2_alg».proof.Proof.KI.ValMain
import proofs.«164734_j22230750724256_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

section
variable (V : (c : Dev nD) → (b : Ref sig .tc) → Buf (Elt Ideal) ((c : Thread nD τ).loc b))

/-- The row sums, laid out as the row vector the first kernel writes. -/
def G0 (c : Dev nD) : Buf (Elt Ideal) ((c : Thread nD τ).loc main_v0) := fun y => Cert.Spec.rowsum (V c main_arg0) (y 1)
/-- The normalised scores and the mixed features. -/
def GA (c : Dev nD) : Buf (Elt Ideal) ((c : Thread nD τ).loc main_v1_0) := Cert.Spec.alpha (V c main_arg0)
def GH (c : Dev nD) : Buf (Elt Ideal) ((c : Thread nD τ).loc main_v1_1) := Cert.Spec.hfac (V c main_arg0) (V c main_arg1)

/-- What a point of the last column block writes back is its block of the row sums. -/
theorem flushed0_2_eq (c : Dev nD) (t : Fin cfg0.N) (hf : (cfg0.win 2).flush t = true) :
    (dat0 V c).flushed 2 t = ((cfg0.win 2).blk t).view.read (Elt Ideal) (G0 V c) := by
  show (cfg0.win 2).cut (grid0.coords t) ((dat0 V c).after 2 t) = _
  rw [after0_2]
  have h3 : t.val % 4 = 3 := (flush0_2 t).mp hf
  funext j
  obtain ⟨z, r, rfl⟩ : ∃ (z : Fin 1) (r : Fin 1024), j = ix2 z r := ⟨j 0, j 1, eq_ix2 j⟩
  obtain rfl : z = 0 := Subsingleton.elim _ _
  rw [View.read_apply]
  show (outsAt0 V c t.val t.isLt).1 (ix2 (0 : Fin 1) r) = G0 V c (((cfg0.win 2).blk t).view.emb (ix2 (0 : Fin 1) r))
  rw [out0_rowsum V c t h3 r]
  unfold G0
  refine congrArg (Cert.Spec.rowsum (V c main_arg0)) ?_
  apply Fin.ext
  show 1024 * (t.val / 4) + r.val = win0_2.index t (1 : Fin 2) * 1024 + 1 * r.val
  rw [(idx0 t).2.2.2.2.2]; omega

/-- The row-sum kernel's output array ends holding the row sums. -/
theorem rs_final (c : Dev nD) : (dat0 V c).arrAt 2 cfg0.N = G0 V c :=
  final0_2 (dat0 V c) (G0 V c) (fun t hf => flushed0_2_eq V c t hf)

/-- What a point writes back into the first output is its tile of the normalised scores, the row sums being what the
    main kernel finds in its fourth input array. -/
theorem flushed1_4_eq (c : Dev nD)
    (hRS : ∀ j : Fin 8192, V c main_v0 (ix2 (0 : Fin 1) j) = Cert.Spec.rowsum (V c main_arg0) j)
    (t : Fin cfg1.N) (hf : (cfg1.win 4).flush t = true) :
    (dat1 V c).flushed 4 t = ((cfg1.win 4).blk t).view.read (Elt Ideal) (GA V c) := by
  show (cfg1.win 4).cut (grid1.coords t) ((dat1 V c).after 4 t) = _
  rw [after1_4]
  funext j
  obtain ⟨p, q, rfl⟩ : ∃ (p q : Fin 1024), j = ix2 p q := ⟨j 0, j 1, eq_ix2 j⟩
  rw [View.read_apply]
  show (outsAt1 V c t.val t.isLt).1 (ix2 p q) = GA V c (((cfg1.win 4).blk t).view.emb (ix2 p q))
  rw [out1_attention V c t p q, hRS]
  have he : ((cfg1.win 4).blk t).view.emb (ix2 p q) = ix2 (⟨1024 * (t.val / 8) + p.val, by have := t1_lt t; omega⟩ : Fin 8192) (⟨1024 * (t.val % 8) + q.val, by have := t1_lt t; omega⟩ : Fin 8192) := by
    funext a; apply Fin.ext
    match a with
    | ⟨0, _⟩ => show win1_4.index t (0 : Fin 2) * 1024 + 1 * p.val = 1024 * (t.val / 8) + p.val; rw [(idx1_out t).1]; omega
    | ⟨1, _⟩ => show win1_4.index t (1 : Fin 2) * 1024 + 1 * q.val = 1024 * (t.val % 8) + q.val; rw [(idx1_out t).2.1]; omega
  unfold GA; rw [he, Cert.Spec.alpha_ix2]

/-- What a point of the last column tile writes back into the second output is its block of the mixed features. -/
theorem flushed1_5_eq (c : Dev nD)
    (hRS : ∀ j : Fin 8192, V c main_v0 (ix2 (0 : Fin 1) j) = Cert.Spec.rowsum (V c main_arg0) j)
    (t : Fin cfg1.N) (hf : (cfg1.win 5).flush t = true) :
    (dat1 V c).flushed 5 t = ((cfg1.win 5).blk t).view.read (Elt Ideal) (GH V c) := by
  show (cfg1.win 5).cut (grid1.coords t) ((dat1 V c).after 5 t) = _
  rw [after1_5]
  have h7 : t.val % 8 = 7 := (flush1_5 t).mp hf
  funext j
  obtain ⟨p, d, rfl⟩ : ∃ (p : Fin 1024) (d : Fin 128), j = ix2 p d := ⟨j 0, j 1, eq_ix2 j⟩
  rw [View.read_apply]
  show (outsAt1 V c t.val t.isLt).2.1 (ix2 p d) = GH V c (((cfg1.win 5).blk t).view.emb (ix2 p d))
  rw [out1_result V c t h7 p d]
  have he : ((cfg1.win 5).blk t).view.emb (ix2 p d) = ix2 (⟨1024 * (t.val / 8) + p.val, by have := t1_lt t; omega⟩ : Fin 8192) d := by
    funext a; apply Fin.ext
    match a with
    | ⟨0, _⟩ => show win1_5.index t (0 : Fin 2) * 1024 + 1 * p.val = 1024 * (t.val / 8) + p.val; rw [(idx1_out t).2.2.1]; omega
    | ⟨1, _⟩ => show win1_5.index t (1 : Fin 2) * 128 + 1 * d.val = d.val; rw [(idx1_out t).2.2.2]; omega
  unfold GH; rw [he, Cert.Spec.hfac_ix2]
  simp only [hRS, Cert.Spec.alphaAt]

theorem al_final (c : Dev nD) (hRS : ∀ j : Fin 8192, V c main_v0 (ix2 (0 : Fin 1) j) = Cert.Spec.rowsum (V c main_arg0) j) :
    (dat1 V c).arrAt 4 cfg1.N = GA V c :=
  final1_4 (dat1 V c) (GA V c) (fun t hf => flushed1_4_eq V c hRS t hf)
theorem h_final (c : Dev nD) (hRS : ∀ j : Fin 8192, V c main_v0 (ix2 (0 : Fin 1) j) = Cert.Spec.rowsum (V c main_arg0) j) :
    (dat1 V c).arrAt 5 cfg1.N = GH V c :=
  final1_5 (dat1 V c) (GH V c) (fun t hf => flushed1_5_eq V c hRS t hf)
end

/-! ## The two kernels in sequence -/

variable (m : (ℓ : Loc nD τ sig) → Buf (Elt Ideal) ℓ)

theorem rsArr_eq (c : Dev nD) : rsArr m c = G0 (Vin0 m) c := rs_final (Vin0 m) c

/-- The main kernel finds the features as launched and, in its fourth input array, the row sums. -/
theorem Vin1_arg0 (c : Dev nD) : Vin1 m c main_arg0 = m ((c : Thread nD τ).loc main_arg0) := W1_of m c main_arg0 (by decide)
theorem Vin1_arg1 (c : Dev nD) : Vin1 m c main_arg1 = m ((c : Thread nD τ).loc main_arg1) := W1_of m c main_arg1 (by decide)
theorem Vin1_rs (c : Dev nD) (j : Fin 8192) : Vin1 m c main_v0 (ix2 (0 : Fin 1) j) = Cert.Spec.rowsum (Vin1 m c main_arg0) j := by
  rw [Vin1_arg0]
  show W1 m c main_v0 (ix2 (0 : Fin 1) j) = _
  rw [W1_v0, rsArr_eq]
  rfl

/-- The first result: the normalised scores of the features as launched. -/
theorem alArr_eq (c : Dev nD) : alArr m c = Cert.Spec.alpha (m ((c : Thread nD τ).loc main_arg0)) := by
  unfold alArr
  rw [al_final (Vin1 m) c (Vin1_rs m c)]
  unfold GA; rw [Vin1_arg0]
/-- The second result: the mixed features. -/
theorem hArr_eq (c : Dev nD) : hArr m c = Cert.Spec.hfac (m ((c : Thread nD τ).loc main_arg0)) (m ((c : Thread nD τ).loc main_arg1)) := by
  unfold hArr
  rw [h_final (Vin1 m) c (Vin1_rs m c)]
  unfold GH; rw [Vin1_arg0, Vin1_arg1]

end Cert.KernelIdeal.Hand

end
-- ==== Proof.RefImports.lean ====
/-
  The reference program's run and its stage-by-stage reads, gathered under one name for the modules that
  compare the reference's results with the kernel's.
-/
import proofs.«164734_j22230750724256_2_alg».proof.Proof.Gen.ReferenceIdeal.Run
import proofs.«164734_j22230750724256_2_alg».proof.Proof.Gen.ReferenceIdeal.Read
-- ==== Proof.RefSpec.lean ====
/-
  The reference's two results are the specification. The reference computes, with whole-array host operations,
  the scores exp ((Z Zᵀ) / 1), their row sums, the scores divided column by column by the row sums, and
  1/2 Z + 1/2 ((alpha * adj) Z). Read at an index, stage by stage (the generated reads of each stage), every stage is
  the specification's function of the same name: the division of the dot products by the literal one is the
  identity on the extended reals, the row sum's initial value is the zero word, and zero plus a sum is the sum.
-/
import proofs.«164734_j22230750724256_2_alg».proof.Proof.RefImports
import proofs.«164734_j22230750724256_2_alg».proof.Proof.Spec
import Idealize.ShloMosaic.Lib.IdealHost

noncomputable section

open scoped BigOperators

namespace Cert.RefSpec

open Cert.ReferenceIdeal Cert.ReferenceIdeal.Gen Cert.ReferenceIdeal.Read Idealize.ShloMosaic Idealize.ShloMosaic.ValueIdx

/-! ## The generated index maps at an index given by its coordinates -/

/-- The left operand of the first product is read at row i, feature k. -/
theorem lidx_v1 (i j : Fin 8192) (k : Fin 128) : lidx_main_v1 (ix2 i j) k = ix2 i k :=
  funext fun a => by match a with | ⟨0, _⟩ => rfl | ⟨1, _⟩ => rfl
/-- The right operand of the first product, the transposed array, is read at feature k, column j. -/
theorem ridx_v1 (i j : Fin 8192) (k : Fin 128) : ridx_main_v1 (ix2 i j) k = ix2 k j :=
  funext fun a => by match a with | ⟨0, _⟩ => rfl | ⟨1, _⟩ => rfl
/-- The transposed array at (k, j) is the array at (j, k). -/
theorem idx_v0 (k : Fin 128) (j : Fin 8192) : idx_main_v0 (ix2 k j) = ix2 j k :=
  funext fun a => by match a with | ⟨0, _⟩ => rfl | ⟨1, _⟩ => rfl
/-- The row sum at i reads the scores at (i, k). -/
theorem idx_v5 (i k : Fin 8192) : idx_main_v5 (ix1 i) k = ix2 i k :=
  funext fun a => by match a with | ⟨0, _⟩ => rfl | ⟨1, _⟩ => rfl
/-- The row sums broadcast to a row and then down the rows: at (i, j) the row sum of j. -/
theorem idx_v6_v7 (i j : Fin 8192) : idx_main_v6 (idx_main_v7 (ix2 i j)) = ix1 j :=
  funext fun a => by match a with | ⟨0, _⟩ => rfl
/-- The left operand of the second product is read at row i, column k. -/
theorem lidx_v12 (i : Fin 8192) (d : Fin 128) (k : Fin 8192) : lidx_main_v12 (ix2 i d) k = ix2 i k :=
  funext fun a => by match a with | ⟨0, _⟩ => rfl | ⟨1, _⟩ => rfl
/-- The right operand of the second product is read at row k, feature d. -/
theorem ridx_v12 (i : Fin 8192) (d : Fin 128) (k : Fin 8192) : ridx_main_v12 (ix2 i d) k = ix2 k d :=
  funext fun a => by match a with | ⟨0, _⟩ => rfl | ⟨1, _⟩ => rfl

/-! ## The stages at an index -/

/-- The first product at (i, j) is the dot product of rows i and j. -/
theorem v1_at (x0 : (⟨S8192x128, .f32⟩ : BufTy).Contents (Elt Ideal)) (i j : Fin 8192) :
    val_main_v1 (F := Ideal) x0 (ix2 i j) = ∑ d : Fin 128, x0 (ix2 i d) * x0 (ix2 j d) := by
  rw [val_main_v1_apply]
  refine Finset.sum_congr rfl fun k _ => ?_
  rw [val_main_v0_apply, lidx_v1, ridx_v1, idx_v0]

/-- The exponential of the dot product divided by the literal one is the score. -/
theorem v4_at (x0 : (⟨S8192x128, .f32⟩ : BufTy).Contents (Elt Ideal)) (i j : Fin 8192) :
    val_main_v4 (F := Ideal) x0 (ix2 i j) = Cert.Spec.score x0 i j := by
  rw [val_main_v4_apply, val_main_v3_apply, val_main_v2_apply, val_main_cst_apply, v1_at]
  simp only [Ideal.hostUnary_exp_def, Ideal.hostDivf_def, Ideal.ofBits_def, Ideal.ofBits_one_f32, Cert.Spec.div_one]
  rfl

/-- The host's sum over axis 1 from the zero word is the row sum of the scores. -/
theorem v5_at (x0 : (⟨S8192x128, .f32⟩ : BufTy).Contents (Elt Ideal)) (j : Fin 8192) :
    val_main_v5 (F := Ideal) x0 (ix1 j) = Cert.Spec.rowsum x0 j := by
  rw [val_main_v5_apply, val_main_cst_0_apply]
  simp only [Ideal.ofBits_def, Ideal.ofBits_zero_f32, zero_add]
  refine Finset.sum_congr rfl fun k _ => ?_
  rw [idx_v5, v4_at]

/-- The quotient of the scores by the broadcast row sums is alpha. -/
theorem v8_at (x0 : (⟨S8192x128, .f32⟩ : BufTy).Contents (Elt Ideal)) (i j : Fin 8192) :
    val_main_v8 (F := Ideal) x0 (ix2 i j) = Cert.Spec.alphaAt x0 i j := by
  rw [val_main_v8_apply, val_main_v7_apply, val_main_v6_apply, idx_v6_v7, v5_at, v4_at]
  rfl

/-- The second result at (i, d). -/
theorem v15_at (x0 : (⟨S8192x128, .f32⟩ : BufTy).Contents (Elt Ideal)) (x1 : (⟨S8192x8192, .f32⟩ : BufTy).Contents (Elt Ideal))
    (i : Fin 8192) (d : Fin 128) :
    val_main_v15 (F := Ideal) x0 x1 (ix2 i d) = Cert.Spec.hfacAt x0 x1 i d := by
  rw [val_main_v15_apply, val_main_v11_apply, val_main_v14_apply, val_main_v10_apply, val_main_v13_apply,
    val_main_cst_1_apply, val_main_cst_2_apply, val_main_v12_apply]
  simp only [Ideal.addf_def, Ideal.mulf_def, Ideal.ofBits_def]
  unfold Cert.Spec.hfacAt
  refine congrArg (fun s => _ + _ * s) (Finset.sum_congr rfl fun k _ => ?_)
  rw [val_main_v9_apply, lidx_v12, ridx_v12, v8_at]
  rfl

/-! ## The stages as arrays -/

/-- The reference's first result is the specification's alpha. -/
theorem main_v8_eq_alpha (x0 : (⟨S8192x128, .f32⟩ : BufTy).Contents (Elt Ideal)) :
    val_main_v8 (F := Ideal) x0 = Cert.Spec.alpha x0 := by
  funext y
  obtain ⟨p, q, rfl⟩ : ∃ (p : Fin 8192) (q : Fin 8192), y = ix2 p q := ⟨y 0, y 1, eq_ix2 y⟩
  exact v8_at x0 p q

/-- The reference's second result is the specification's hfac. -/
theorem main_v15_eq_hfac (x0 : (⟨S8192x128, .f32⟩ : BufTy).Contents (Elt Ideal)) (x1 : (⟨S8192x8192, .f32⟩ : BufTy).Contents (Elt Ideal)) :
    val_main_v15 (F := Ideal) x0 x1 = Cert.Spec.hfac x0 x1 := by
  funext y
  obtain ⟨p, q, rfl⟩ : ∃ (p : Fin 8192) (q : Fin 128), y = ix2 p q := ⟨y 0, y 1, eq_ix2 y⟩
  exact v15_at x0 x1 p q

/-! ## The same over the terms the reference's run states -/

/-- The term the run states for the first result is the specification's alpha. -/
theorem run_v8_eq_alpha (x0 : FVec Ideal S8192x128 .f32) :
    Host.divf (Host.exp (Host.divf (Host.dotGeneral dot_S8192x128_S128x8192_S8192x8192_1_0_0_1_n_n none (x0) (transpose S128x8192 [1, 0] (x0) transposes_S8192x128_S128x8192_1_0)) (broadcastInDim S8192x8192 ![] bcast_S_S8192x8192 (constant S_ .f32 0x3F800000#32)))) (broadcastInDim S8192x8192 ![0, 1] bcast_S1x8192_S8192x8192_0_1 (broadcastInDim S1x8192 ![1] bcast_S8192_S1x8192_1 (Host.reduceAdd (Host.exp (Host.divf (Host.dotGeneral dot_S8192x128_S128x8192_S8192x8192_1_0_0_1_n_n none (x0) (transpose S128x8192 [1, 0] (x0) transposes_S8192x128_S128x8192_1_0)) (broadcastInDim S8192x8192 ![] bcast_S_S8192x8192 (constant S_ .f32 0x3F800000#32)))) (constant S_ .f32 0x00000000#32) reducesTo_S8192x8192_S8192_d1 h_S_)))
      = Cert.Spec.alpha x0 :=
  (val_main_v8_eq (F := Ideal) x0).trans (main_v8_eq_alpha x0)

/-- The term the run states for the second result is the specification's hfac. -/
theorem run_v15_eq_hfac (x0 : FVec Ideal S8192x128 .f32) (x1 : FVec Ideal S8192x8192 .f32) :
    addf (mulf (broadcastInDim S8192x128 ![] bcast_S_S8192x128 (constant S_ .f32 0x3F000000#32)) (x0)) (mulf (broadcastInDim S8192x128 ![] bcast_S_S8192x128 (constant S_ .f32 0x3F000000#32)) (Host.dotGeneral dot_S8192x8192_S8192x128_S8192x128_1_0_0_1_n_n none (mulf (Host.divf (Host.exp (Host.divf (Host.dotGeneral dot_S8192x128_S128x8192_S8192x8192_1_0_0_1_n_n none (x0) (transpose S128x8192 [1, 0] (x0) transposes_S8192x128_S128x8192_1_0)) (broadcastInDim S8192x8192 ![] bcast_S_S8192x8192 (constant S_ .f32 0x3F800000#32)))) (broadcastInDim S8192x8192 ![0, 1] bcast_S1x8192_S8192x8192_0_1 (broadcastInDim S1x8192 ![1] bcast_S8192_S1x8192_1 (Host.reduceAdd (Host.exp (Host.divf (Host.dotGeneral dot_S8192x128_S128x8192_S8192x8192_1_0_0_1_n_n none (x0) (transpose S128x8192 [1, 0] (x0) transposes_S8192x128_S128x8192_1_0)) (broadcastInDim S8192x8192 ![] bcast_S_S8192x8192 (constant S_ .f32 0x3F800000#32)))) (constant S_ .f32 0x00000000#32) reducesTo_S8192x8192_S8192_d1 h_S_)))) (x1)) (x0)))
      = Cert.Spec.hfac x0 x1 :=
  (val_main_v15_eq (F := Ideal) x0 x1).trans (main_v15_eq_hfac x0 x1)

end Cert.RefSpec

end
-- ==== Proof.lean ====
/-
  The certificate of an attention-style propagation kernel against its reference. For features Z (8192 rows of
  128) and a mask adj (8192 x 8192): E[i,j] = exp(sum_d Z[i,d] Z[j,d]); rowsum[i] = sum_k E[i,k];
  alpha[i,j] = E[i,j] / rowsum[j]; h[i,d] = Z[i,d]/2 + (1/2) sum_j (alpha[i,j] adj[i,j]) Z[j,d]. The reference
  computes alpha and h with whole-array host operations. The kernel computes rowsum with a first pipelined call
  (row blocks of 1024 against column blocks of 2048, the block's row sums accumulated over the four column blocks)
  and alpha, h with a second one (1024 x 1024 tiles, the tile's contribution to h accumulated over the eight column
  tiles). Over the extended reals the two agree: a sum taken block by block is the sum, addition being associative
  and commutative there with 0 neutral; the reference's division of the scores by the literal 1 changes nothing;
  no law that would need finite inputs is used.

  The frames of the two kernel programs (they run to the end, fault nowhere and leave their arguments unchanged)
  are proved once for both float instances: each kernel's body is run per control case, the accumulator's contents
  are followed from grid point to grid point, and the array of features, which two input windows of each call read,
  is held half by each. The reference's frame is its run with the results dropped. The idealization rewrote nothing.
-/
import proofs.«164734_j22230750724256_2_alg».proof.Defs
import proofs.«164734_j22230750724256_2_alg».proof.Proof.Gen.Kernel
import proofs.«164734_j22230750724256_2_alg».proof.Proof.Gen.KernelIdeal
import proofs.«164734_j22230750724256_2_alg».proof.Proof.Gen.ReferenceIdeal
import proofs.«164734_j22230750724256_2_alg».proof.Proof.Gen.Pre_finite_inputs
import proofs.«164734_j22230750724256_2_alg».proof.Proof.K.Run
import proofs.«164734_j22230750724256_2_alg».proof.Proof.KI.ValFinal
import proofs.«164734_j22230750724256_2_alg».proof.Proof.RefSpec

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
/-- The reference's run, its results dropped. -/
theorem frame_ri : Cert.frame_ReferenceIdeal := fun m ρ _ =>
  (θ_run Cert.ReferenceIdeal.defs _ _).mono (fun _ h c => ⟨(h c).2.2.1, (h c).2.2.2⟩) (Cert.ReferenceIdeal.Value.run (F := Ideal) m ρ)

/-- The idealization is the program's own text read over the extended reals. -/
theorem preserves : Cert.preserves_Kernel_KernelIdeal := trivial

/-- Both programs end with h and alpha at the specification's functions of the arguments. -/
theorem algebraic : Cert.algebraic_KernelIdeal_ReferenceIdeal := by
  intro m ρ m' ρ' _ hagree
  refine ⟨fun c => Cert.Spec.hfac (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Spec.alpha (m ((c.tc : Thread Cert.KernelIdeal.nD Cert.KernelIdeal.τ).loc Cert.KernelIdeal.main_arg0)), ?_, ?_⟩
  · exact (θ_run Cert.KernelIdeal.defs _ _).mono (fun _ h c =>
      ⟨(h c).1.trans (Cert.KernelIdeal.Hand.hArr_eq m c), (h c).2.1.trans (Cert.KernelIdeal.Hand.alArr_eq m c), (h c).2.2.1, (h c).2.2.2⟩)
      (Cert.KernelIdeal.Hand.run_results m ρ)
  · refine (θ_run Cert.ReferenceIdeal.defs _ _).mono (fun _ h c => ⟨?_, ?_, (h c).2.2.1, (h c).2.2.2⟩)
      (Cert.ReferenceIdeal.Value.run (F := Ideal) m' ρ')
    · rw [(h c).1, (hagree c).1, (hagree c).2]
      exact Cert.RefSpec.run_v15_eq_hfac _ _
    · rw [(h c).2.1, (hagree c).1]
      exact Cert.RefSpec.run_v8_eq_alpha _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
